-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x256 .f32) (main_arg13 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x64 .f32) (main_arg9 : FVec F S256x64 .f32) (main_arg10 : FVec F S256 .f32) (main_arg11 : FVec F S128x256 .f32) (main_arg12 : FVec F S128x256 .f32) (main_arg13 : FVec F S128 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_v48 main_v49 main_v50

def fn_part1 {F : FTy → Type} [FloatOps F] (main_arg5 : FVec F S64x256 .f32) (main_arg6 : FVec F S64x256 .f32) (main_arg7 : FVec F S64 .f32) (main_arg8 : FVec F S256x64 .f32) (main_arg9 : FVec F S256x64 .f32) (main_arg10 : FVec F S256 .f32) (main_arg11 : FVec F S128x256 .f32) (main_arg12 : FVec F S128x256 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S256x128 .f32) (main_arg3 : FVec F S256x128 .f32) (main_arg4 : FVec F S256 .f32) (main_arg5 : FVec F S64x256 .f32) (main_arg6 : FVec F S64x256 .f32) (main_arg7 : FVec F S64 .f32) (main_arg8 : FVec F S256x64 .f32) (main_arg9 : FVec F S256x64 .f32) (main_arg10 : FVec F S256 .f32) (main_arg11 : FVec F S128x256 .f32) (main_arg12 : FVec F S128x256 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S1x128 : Shape := ⟨2, ![1, 128]⟩

abbrev nBuf : Space → Nat
  | .hbm => 93
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S64x256, .f32⟩
  | .hbm, ⟨6, _⟩ => ⟨S64x256, .f32⟩
  | .hbm, ⟨7, _⟩ => ⟨S64, .f32⟩
  | .hbm, ⟨8, _⟩ => ⟨S256x64, .f32⟩
  | .hbm, ⟨9, _⟩ => ⟨S256x64, .f32⟩
  | .hbm, ⟨10, _⟩ => ⟨S256, .f32⟩
  | .hbm, ⟨11, _⟩ => ⟨S128x256, .f32⟩
  | .hbm, ⟨12, _⟩ => ⟨S128x256, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S128x256, .f32⟩
  | .hbm, ⟨32, _⟩ => ⟨S128x256, .f32⟩
  | .hbm, ⟨33, _⟩ => ⟨S1x256, .f32⟩
  | .hbm, ⟨34, _⟩ => ⟨S50000x256, .bf16⟩
  | .hbm, ⟨35, _⟩ => ⟨S256x64, .f32⟩
  | .hbm, ⟨36, _⟩ => ⟨S50000x64, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .bf16⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S256x64, .f32⟩
  | .hbm, ⟨52, _⟩ => ⟨S1x64, .f32⟩
  | .hbm, ⟨53, _⟩ => ⟨S50000x64, .bf16⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .bf16⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S64x256, .f32⟩
  | .hbm, ⟨70, _⟩ => ⟨S64x256, .f32⟩
  | .hbm, ⟨71, _⟩ => ⟨S1x256, .f32⟩
  | .hbm, ⟨72, _⟩ => ⟨S50000x256, .bf16⟩
  | .hbm, ⟨73, _⟩ => ⟨S256x128, .f32⟩
  | .hbm, ⟨74, _⟩ => ⟨S50000x128, .bf16⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .bf16⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S256x128, .f32⟩
  | .hbm, ⟨90, _⟩ => ⟨S1x128, .f32⟩
  | .hbm, ⟨91, _⟩ => ⟨S50000x128, .bf16⟩
  | .hbm, ⟨92, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S256x64, .f32⟩
  | .local _ .vmem, ⟨12, _⟩ => ⟨S2000x64, .bf16⟩
  | .local _ .vmem, ⟨13, _⟩ => ⟨S2000x64, .bf16⟩
  | .local _ .vmem, ⟨14, _⟩ => ⟨S2000x64, .f32⟩
  | .local _ .vmem, ⟨15, _⟩ => ⟨S2000x64, .f32⟩
  | .local _ .vmem, ⟨16, _⟩ => ⟨S2000x256, .bf16⟩
  | .local _ .vmem, ⟨17, _⟩ => ⟨S2000x256, .bf16⟩
  | .local _ .vmem, ⟨18, _⟩ => ⟨S256x64, .f32⟩
  | .local _ .vmem, ⟨19, _⟩ => ⟨S1x64, .f32⟩
  | .local _ .vmem, ⟨20, _⟩ => ⟨S2000x64, .bf16⟩
  | .local _ .vmem, ⟨21, _⟩ => ⟨S2000x64, .bf16⟩
  | .local _ .vmem, ⟨22, _⟩ => ⟨S2000x64, .f32⟩
  | .local _ .vmem, ⟨23, _⟩ => ⟨S2000x64, .f32⟩
  | .local _ .vmem, ⟨24, _⟩ => ⟨S2000x64, .bf16⟩
  | .local _ .vmem, ⟨25, _⟩ => ⟨S2000x64, .bf16⟩
  | .local _ .vmem, ⟨26, _⟩ => ⟨S64x256, .f32⟩
  | .local _ .vmem, ⟨27, _⟩ => ⟨S64x256, .f32⟩
  | .local _ .vmem, ⟨28, _⟩ => ⟨S1x256, .f32⟩
  | .local _ .vmem, ⟨29, _⟩ => ⟨S2000x256, .bf16⟩
  | .local _ .vmem, ⟨30, _⟩ => ⟨S2000x256, .bf16⟩
  | .local _ .vmem, ⟨31, _⟩ => ⟨S2000x256, .bf16⟩
  | .local _ .vmem, ⟨32, _⟩ => ⟨S2000x256, .bf16⟩
  | .local _ .vmem, ⟨33, _⟩ => ⟨S256x128, .f32⟩
  | .local _ .vmem, ⟨34, _⟩ => ⟨S2000x128, .bf16⟩
  | .local _ .vmem, ⟨35, _⟩ => ⟨S2000x128, .bf16⟩
  | .local _ .vmem, ⟨36, _⟩ => ⟨S2000x128, .f32⟩
  | .local _ .vmem, ⟨37, _⟩ => ⟨S2000x128, .f32⟩
  | .local _ .vmem, ⟨38, _⟩ => ⟨S2000x256, .bf16⟩
  | .local _ .vmem, ⟨39, _⟩ => ⟨S2000x256, .bf16⟩
  | .local _ .vmem, ⟨40, _⟩ => ⟨S256x128, .f32⟩
  | .local _ .vmem, ⟨41, _⟩ => ⟨S1x128, .f32⟩
  | .local _ .vmem, ⟨42, _⟩ => ⟨S2000x128, .bf16⟩
  | .local _ .vmem, ⟨43, _⟩ => ⟨S2000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_7 : Ref sig .tc := ⟨.hbm, 75, rfl⟩
abbrev main_v52 : Ref sig .tc := ⟨.hbm, 76, rfl⟩
abbrev main_v53 : Ref sig .tc := ⟨.hbm, 77, rfl⟩
abbrev main_c_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  transposes_S64x256_S256x64_1_0 : S64x256.Transposes [1, 0] S256x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  transposes_S256x64_S64x256_1_0 : S256x64.Transposes [1, 0] S64x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S128x256_S256x128_1_0 : S128x256.Transposes [1, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .bf16 = 32 ∨ (Rect.block (s := S50000x64) S2000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .bf16 = 32 ∨ (Rect.block (s := S50000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .bf16 = 32 ∨ (Rect.block (s := S50000x64) S2000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x256.size a ≤ S64x256.size a
  hwx3_3 : ∀ i : grid3.Coords, EltTy.bits .f32 = 32 ∨ (Rect.block (s := S64x256) S64x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .bf16 = 32 ∨ (Rect.block (s := S50000x256) S2000x256.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .bf16 = 32 ∨ (Rect.block (s := S50000x256) S2000x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .bf16 = 32 ∨ (Rect.block (s := S50000x128) S2000x128.size (cc5_transform_4 i) (hinb5_4 i)).WholeWords (EltTy.packing .bf16)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S64x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S64x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x64 : Shape := ⟨2, ![50000, 64]⟩
abbrev S1x64 : Shape := ⟨2, ![1, 64]⟩
abbrev S800000x64 : Shape := ⟨2, ![800000, 64]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256x128, .f32⟩
  | 4 => ⟨S256, .f32⟩
  | 5 => ⟨S64x256, .f32⟩
  | 6 => ⟨S64x256, .f32⟩
  | 7 => ⟨S64, .f32⟩
  | 8 => ⟨S256x64, .f32⟩
  | 9 => ⟨S256x64, .f32⟩
  | 10 => ⟨S256, .f32⟩
  | 11 => ⟨S128x256, .f32⟩
  | 12 => ⟨S128x256, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S128x256, .f32⟩
  | 32 => ⟨S50000x256, .f32⟩
  | 33 => ⟨S1x256, .f32⟩
  | 34 => ⟨S50000x256, .f32⟩
  | 35 => ⟨S50000x256, .f32⟩
  | 36 => ⟨S128x256, .f32⟩
  | 37 => ⟨S50000x256, .f32⟩
  | 38 => ⟨S50000x256, .f32⟩
  | 39 => ⟨S_, .f32⟩
  | 40 => ⟨S_, .f32⟩
  | 41 => ⟨S50000x256, .f32⟩
  | 42 => ⟨S50000x256, .i1⟩
  | 43 => ⟨S_, .f32⟩
  | 44 => ⟨S50000x256, .f32⟩
  | 45 => ⟨S50000x256, .f32⟩
  | 46 => ⟨S50000x256, .f32⟩
  | 47 => ⟨S1x800000, .i32⟩
  | 48 => ⟨S800000, .i32⟩
  | 49 => ⟨S1x800000, .i32⟩
  | 50 => ⟨S800000, .i32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S256x64, .f32⟩
  | 65 => ⟨S50000x64, .f32⟩
  | 66 => ⟨S1x64, .f32⟩
  | 67 => ⟨S50000x64, .f32⟩
  | 68 => ⟨S50000x64, .f32⟩
  | 69 => ⟨S256x64, .f32⟩
  | 70 => ⟨S50000x64, .f32⟩
  | 71 => ⟨S50000x64, .f32⟩
  | 72 => ⟨S_, .f32⟩
  | 73 => ⟨S_, .f32⟩
  | 74 => ⟨S50000x64, .f32⟩
  | 75 => ⟨S50000x64, .i1⟩
  | 76 => ⟨S_, .f32⟩
  | 77 => ⟨S50000x64, .f32⟩
  | 78 => ⟨S50000x64, .f32⟩
  | 79 => ⟨S50000x64, .f32⟩
  | 80 => ⟨S1x800000, .i32⟩
  | 81 => ⟨S800000, .i32⟩
  | 82 => ⟨S1x800000, .i32⟩
  | 83 => ⟨S800000, .i32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S64x256, .f32⟩
  | 98 => ⟨S50000x256, .f32⟩
  | 99 => ⟨S1x256, .f32⟩
  | 100 => ⟨S50000x256, .f32⟩
  | 101 => ⟨S50000x256, .f32⟩
  | 102 => ⟨S64x256, .f32⟩
  | 103 => ⟨S50000x256, .f32⟩
  | 104 => ⟨S50000x256, .f32⟩
  | 105 => ⟨S_, .f32⟩
  | 106 => ⟨S_, .f32⟩
  | 107 => ⟨S50000x256, .f32⟩
  | 108 => ⟨S50000x256, .i1⟩
  | 109 => ⟨S_, .f32⟩
  | 110 => ⟨S50000x256, .f32⟩
  | 111 => ⟨S50000x256, .f32⟩
  | 112 => ⟨S50000x256, .f32⟩
  | 113 => ⟨S1x800000, .i32⟩
  | 114 => ⟨S800000, .i32⟩
  | 115 => ⟨S1x800000, .i32⟩
  | 116 => ⟨S800000, .i32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .f32⟩
  | 126 => ⟨S_, .f32⟩
  | 127 => ⟨S50000x256, .f32⟩
  | _ => ⟨S50000x128, .f32⟩

abbrev hbmTy0_1 (i : Nat) : BufTy := match i % 128 with
  | 0 => ⟨S800000x1, .i32⟩
  | 1 => ⟨S50000x256, .f32⟩
  | 2 => ⟨S256x128, .f32⟩
  | 3 => ⟨S50000x128, .f32⟩
  | 4 => ⟨S1x128, .f32⟩
  | 5 => ⟨S50000x128, .f32⟩
  | 6 => ⟨S50000x128, .f32⟩
  | 7 => ⟨S256x128, .f32⟩
  | 8 => ⟨S50000x128, .f32⟩
  | 9 => ⟨S50000x128, .f32⟩
  | 10 => ⟨S_, .f32⟩
  | 11 => ⟨S_, .f32⟩
  | 12 => ⟨S50000x128, .f32⟩
  | 13 => ⟨S50000x128, .i1⟩
  | 14 => ⟨S_, .f32⟩
  | 15 => ⟨S50000x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_6 : Ref sig .tc := ⟨.hbm, 84, rfl⟩
abbrev main_v50 : Ref sig .tc := ⟨.hbm, 85, rfl⟩
abbrev main_v51 : Ref sig .tc := ⟨.hbm, 86, rfl⟩
abbrev main_c_7 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_9 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_10 : Ref sig .tc := ⟨.hbm, 117, rfl⟩
abbrev main_v73 : Ref sig .tc := ⟨.hbm, 118, rfl⟩
abbrev main_v74 : Ref sig .tc := ⟨.hbm, 119, rfl⟩
abbrev main_c_11 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_12 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_13 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_v91 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S256x64_S64x256_1_0 : S256x64.Transposes [1, 0] S64x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, as functions of whole arrays over the extended reals.

  A graph-convolution layer on n nodes sends node features h : [n, k] to
      leaky( (segsum h) · Wrelᵀ + b + h · Wrootᵀ )            : [n, m]
  where (segsum h)[i, c] = Σ over the edges e that land on node i of h[row e, c]: every edge e reads
  the feature row of its source node (the source index clamped into the node range) and adds it to its
  target node (an edge whose target index is outside the node range adds nothing), and
  leaky a = a when 0 ≤ a, else (1/100 as an f32 word) · a.
  One program aggregates first and multiplies after; the other, in the two layers whose output is
  narrower than their input, multiplies each node's row by Wrelᵀ first and aggregates the narrower
  rows.  Both also group the three summands differently.
-/
import Idealize.ShloMosaic.PureOps.Ideal
import Idealize.ShloMosaic.PureOps.Ideal.Laws
import Idealize.ShloMosaic.Lib.ValueIdx

noncomputable section

namespace Cert.GC

open Idealize.ShloMosaic Idealize.ShloMosaic.ValueIdx

/-- An [a, b] array of extended reals. -/
abbrev A2 (a b : Nat) : Type := (⟨2, ![a, b]⟩ : Shape).Idx → EReal
/-- An [a] array of extended reals. -/
abbrev A1 (a : Nat) : Type := (⟨1, ![a]⟩ : Shape).Idx → EReal
/-- An [e, 1] array of 32-bit integers: one node index per edge. -/
abbrev EI (e : Nat) : Type := (⟨2, ![e, 1]⟩ : Shape).Idx → BitVec 32

/-- The negative-side slope, as the f32 word both programs carry. -/
def slope : EReal := Ideal.ofBits .f32 0x3C23D70A#32

/-- a ↦ a if 0 ≤ a, else slope · a. -/
def lk (a : EReal) : EReal := Scalar.select (Ideal.cmp .oge a 0) a (slope * a)

/-- The matrix product: (x · w)[i, j] = Σ_l x[i, l] · w[l, j]. -/
def mm {n k m : Nat} (x : A2 n k) (w : A2 k m) : A2 n m :=
  fun i => ∑ l : Fin k, x (ix2 ⟨(i 0).val, idx2_lt0 i⟩ l) * w (ix2 l ⟨(i 1).val, idx2_lt1 i⟩)

/-- The transpose: wᵀ[i, j] = w[j, i]. -/
def tr {a b : Nat} (w : A2 a b) : A2 b a :=
  fun i => w (ix2 ⟨(i 1).val, idx2_lt1 i⟩ ⟨(i 0).val, idx2_lt0 i⟩)

/-- The node an edge reads: its index, read signed, clamped into [0, n − 1]. -/
def rowOf (n : Nat) (hn : 0 < n) {e : Nat} (idx : EI e) (j : Fin e) : Fin n :=
  ⟨min (idx (ix2 j (0 : Fin 1))).toInt.toNat (n - 1), by omega⟩

/-- Every edge's copy of its source node's row. -/
def gat {n c e : Nat} (hn : 0 < n) (x : A2 n c) (idx : EI e) : A2 e c :=
  fun j => x (ix2 (rowOf n hn idx ⟨(j 0).val, idx2_lt0 j⟩) ⟨(j 1).val, idx2_lt1 j⟩)

/-- The node an edge adds to, when its index, read signed, is a node; none otherwise. -/
def landOf (n : Nat) {e : Nat} (idx : EI e) (j : Fin e) : Option (Fin n) :=
  if h : 0 ≤ (idx (ix2 j (0 : Fin 1))).toInt ∧ (idx (ix2 j (0 : Fin 1))).toInt < n then
    some ⟨(idx (ix2 j (0 : Fin 1))).toInt.toNat, by omega⟩
  else none

/-- Per node, the sum of the rows of the edges that land on it. -/
def sca {n c e : Nat} (idx : EI e) (u : A2 e c) : A2 n c :=
  fun i => ∑ j ∈ Finset.univ.filter (fun j : Fin e => landOf n idx j = some ⟨(i 0).val, idx2_lt0 i⟩),
    u (ix2 j ⟨(i 1).val, idx2_lt1 i⟩)

/-- The aggregation of node rows along the edges. -/
def segsum {n c e : Nat} (hn : 0 < n) (src dst : EI e) (h : A2 n c) : A2 n c := sca dst (gat hn h src)

/-- A layer in the grouping (agg·Wrelᵀ + x·Wrootᵀ) + b, the two products taken of the aggregate and of the features. -/
def layerA {n k m : Nat} (agg x : A2 n k) (wrelT wrootT : A2 k m) (b : A1 m) : A2 n m :=
  fun i => lk ((mm agg wrelT i + mm x wrootT i) + b (ix1 ⟨(i 1).val, idx2_lt1 i⟩))

/-- A layer's tail when the aggregate arrives already multiplied: (aggp + x·Wrootᵀ) + b. -/
def layerC {n k m : Nat} (aggp : A2 n m) (x : A2 n k) (wrootT : A2 k m) (b : A1 m) : A2 n m :=
  fun i => lk ((aggp i + mm x wrootT i) + b (ix1 ⟨(i 1).val, idx2_lt1 i⟩))

/-- A layer in the grouping (agg·Wrelᵀ + b) + x·Wrootᵀ. -/
def layerR {n k m : Nat} (agg x : A2 n k) (wrelT wrootT : A2 k m) (b : A1 m) : A2 n m :=
  fun i => lk ((mm agg wrelT i + b (ix1 ⟨(i 1).val, idx2_lt1 i⟩)) + mm x wrootT i)

/-- The weights and biases of the four layers. -/
structure Params where
  wrel0 : A2 256 128
  wroot0 : A2 256 128
  b0 : A1 256
  wrel1 : A2 64 256
  wroot1 : A2 64 256
  b1 : A1 64
  wrel2 : A2 256 64
  wroot2 : A2 256 64
  b2 : A1 256
  wrel3 : A2 128 256
  wroot3 : A2 128 256
  b3 : A1 128

/-- The node count is positive. -/
theorem hN : 0 < 50000 := by norm_num

section Stack
variable (src dst : EI 800000) (x : A2 50000 128) (P : Params)

/-- Layer 0 (128 → 256), aggregate then multiply. -/
def k1 : A2 50000 256 := layerA (segsum hN src dst x) x (tr P.wrel0) (tr P.wroot0) P.b0
/-- Layer 1's rows multiplied by Wrel1ᵀ before aggregation (256 → 64). -/
def kp1 : A2 50000 64 := mm (k1 src dst x P) (tr P.wrel1)
/-- Layer 1, multiply then aggregate: the embedding. -/
def k2 : A2 50000 64 := layerC (segsum hN src dst (kp1 src dst x P)) (k1 src dst x P) (tr P.wroot1) P.b1
/-- Layer 2 (64 → 256), aggregate then multiply. -/
def k3 : A2 50000 256 := layerA (segsum hN src dst (k2 src dst x P)) (k2 src dst x P) (tr P.wrel2) (tr P.wroot2) P.b2
/-- Layer 3's rows multiplied by Wrel3ᵀ before aggregation (256 → 128). -/
def kp3 : A2 50000 128 := mm (k3 src dst x P) (tr P.wrel3)
/-- Layer 3, multiply then aggregate: the reconstruction. -/
def k4 : A2 50000 128 := layerC (segsum hN src dst (kp3 src dst x P)) (k3 src dst x P) (tr P.wroot3) P.b3

/-- The four layers, each aggregating first. -/
def r1 : A2 50000 256 := layerR (segsum hN src dst x) x (tr P.wrel0) (tr P.wroot0) P.b0
def r2 : A2 50000 64 := layerR (segsum hN src dst (r1 src dst x P)) (r1 src dst x P) (tr P.wrel1) (tr P.wroot1) P.b1
def r3 : A2 50000 256 := layerR (segsum hN src dst (r2 src dst x P)) (r2 src dst x P) (tr P.wrel2) (tr P.wroot2) P.b2
def r4 : A2 50000 128 := layerR (segsum hN src dst (r3 src dst x P)) (r3 src dst x P) (tr P.wrel3) (tr P.wroot3) P.b3

end Stack

/-- Every entry is a real number. -/
def Real2 {a b : Nat} (x : A2 a b) : Prop := ∀ i, ∃ r : ℝ, x i = (r : EReal)
def Real1 {a : Nat} (x : A1 a) : Prop := ∀ i, ∃ r : ℝ, x i = (r : EReal)

/-- Every weight and bias is a real number. -/
structure Params.Real (P : Params) : Prop where
  wrel0 : Real2 P.wrel0
  wroot0 : Real2 P.wroot0
  b0 : Real1 P.b0
  wrel1 : Real2 P.wrel1
  wroot1 : Real2 P.wroot1
  b1 : Real1 P.b1
  wrel2 : Real2 P.wrel2
  wroot2 : Real2 P.wroot2
  b2 : Real1 P.b2
  wrel3 : Real2 P.wrel3
  wroot3 : Real2 P.wroot3
  b3 : Real1 P.b3

end Cert.GC

end
-- ==== Proof.AlgebraSums.lean ====
/-
  Finite sums of real numbers inside the extended reals.

  The extended reals are not a semiring: a factor does not move out of a sum in general.  Here are the
  two facts about sums all of whose terms are real numbers that the layer algebra needs: such a sum is a
  real number, and a real factor moves out of it.
-/
import Idealize.ShloMosaic.PureOps.Ideal

namespace Cert.GC

/-- An extended real that is a real number. -/
def IsR (a : EReal) : Prop := ∃ r : ℝ, a = (r : EReal)

theorem IsR.add {a b : EReal} (ha : IsR a) (hb : IsR b) : IsR (a + b) := by
  obtain ⟨p, rfl⟩ := ha
  obtain ⟨q, rfl⟩ := hb
  exact ⟨p + q, (EReal.coe_add p q).symm⟩

theorem IsR.mul {a b : EReal} (ha : IsR a) (hb : IsR b) : IsR (a * b) := by
  obtain ⟨p, rfl⟩ := ha
  obtain ⟨q, rfl⟩ := hb
  exact ⟨p * q, (EReal.coe_mul p q).symm⟩

/-- A finite sum of real numbers is a real number. -/
theorem IsR.sum {ι : Type} (s : Finset ι) (a : ι → EReal) (ha : ∀ j ∈ s, IsR (a j)) :
    IsR (∑ j ∈ s, a j) := by
  classical
  induction s using Finset.induction_on with
  | empty => exact ⟨0, by simp⟩
  | insert j s hj ih =>
    rw [Finset.sum_insert hj]
    exact (ha j (Finset.mem_insert_self j s)).add (ih (fun k hk => ha k (Finset.mem_insert_of_mem hk)))

/-- A real factor moves out of a finite sum of real numbers. -/
theorem sum_mul_of_real {ι : Type} (s : Finset ι) (a : ι → EReal) (c : EReal)
    (ha : ∀ j ∈ s, IsR (a j)) (hc : IsR c) :
    (∑ j ∈ s, a j) * c = ∑ j ∈ s, a j * c := by
  classical
  induction s using Finset.induction_on with
  | empty => simp
  | insert j s hj ih =>
    have hs : ∀ k ∈ s, IsR (a k) := fun k hk => ha k (Finset.mem_insert_of_mem hk)
    rw [Finset.sum_insert hj, Finset.sum_insert hj, ← ih hs]
    obtain ⟨p, hp⟩ := ha j (Finset.mem_insert_self j s)
    obtain ⟨q, hq⟩ := IsR.sum s a hs
    obtain ⟨t, ht⟩ := hc
    rw [hp, hq, ht, ← EReal.coe_add, ← EReal.coe_mul, ← EReal.coe_mul, ← EReal.coe_mul, ← EReal.coe_add,
      add_mul]

end Cert.GC
-- ==== Proof.AlgebraReal.lean ====
/-
  Every operation of a layer sends arrays of real numbers to arrays of real numbers.
-/
import proofs.«128899_j82635170775050_2_alg».proof.Proof.Spec
import proofs.«128899_j82635170775050_2_alg».proof.Proof.AlgebraSums

noncomputable section

namespace Cert.GC

open Idealize.ShloMosaic Idealize.ShloMosaic.ValueIdx

/-- The negative-side slope is a real number: its exponent field is neither all ones nor zero. -/
theorem slope_real : IsR slope := by
  unfold slope Ideal.ofBits Ideal.ieee
  simp only []
  rw [if_neg (by decide), if_neg (by decide)]
  exact ⟨_, rfl⟩

/-- lk a is a or slope · a. -/
theorem real_lk {a : EReal} (ha : IsR a) : IsR (lk a) := by
  unfold lk Scalar.select
  split_ifs
  · exact ha
  · exact slope_real.mul ha

theorem real_mm {n k m : Nat} {x : A2 n k} {w : A2 k m} (hx : Real2 x) (hw : Real2 w) : Real2 (mm x w) :=
  fun _ => IsR.sum _ _ (fun _ _ => IsR.mul (hx _) (hw _))

theorem real_tr {a b : Nat} {w : A2 a b} (hw : Real2 w) : Real2 (tr w) := fun _ => hw _

theorem real_gat {n c e : Nat} (hn : 0 < n) {x : A2 n c} (idx : EI e) (hx : Real2 x) :
    Real2 (gat hn x idx) := fun _ => hx _

theorem real_sca {n c e : Nat} (idx : EI e) {u : A2 e c} (hu : Real2 u) : Real2 (sca (n := n) idx u) :=
  fun _ => IsR.sum _ _ (fun _ _ => hu _)

theorem real_segsum {n c e : Nat} (hn : 0 < n) (src dst : EI e) {h : A2 n c} (hh : Real2 h) :
    Real2 (segsum hn src dst h) := real_sca dst (real_gat hn src hh)

theorem real_layerR {n k m : Nat} {agg x : A2 n k} {wr ws : A2 k m} {b : A1 m}
    (ha : Real2 agg) (hx : Real2 x) (hwr : Real2 wr) (hws : Real2 ws) (hb : Real1 b) :
    Real2 (layerR agg x wr ws b) :=
  fun i => real_lk (IsR.add (IsR.add (real_mm ha hwr i) (hb _)) (real_mm hx hws i))

end Cert.GC

end
-- ==== Proof.AlgebraSeg.lean ====
/-
  Multiplying node rows by a matrix commutes with aggregating them along the edges, on real arrays:
      Σ_{e lands on i} Σ_l h[row e, l] · w[l, j]  =  Σ_l (Σ_{e lands on i} h[row e, l]) · w[l, j].
  The two finite sums are exchanged and the real factor w[l, j] moves out of the inner one.
  The regrouping (p + q) + b = (p + b) + q holds on all extended reals.
-/
import proofs.«128899_j82635170775050_2_alg».proof.Proof.Spec
import proofs.«128899_j82635170775050_2_alg».proof.Proof.AlgebraSums

noncomputable section

namespace Cert.GC

open Idealize.ShloMosaic Idealize.ShloMosaic.ValueIdx

/-- Aggregating the products is multiplying the aggregate. -/
theorem segsum_mm {n k m e : Nat} (hn : 0 < n) (src dst : EI e) {h : A2 n k} {w : A2 k m}
    (hh : Real2 h) (hw : Real2 w) :
    segsum hn src dst (mm h w) = mm (segsum hn src dst h) w := by
  funext i
  obtain ⟨a, c, rfl⟩ : ∃ (a : Fin n) (c : Fin m), i = ix2 a c := ⟨i 0, i 1, eq_ix2 i⟩
  show (∑ j ∈ Finset.univ.filter (fun j : Fin e => landOf n dst j = some a),
          ∑ l : Fin k, h (ix2 (rowOf n hn src j) l) * w (ix2 l c))
      = ∑ l : Fin k, (∑ j ∈ Finset.univ.filter (fun j : Fin e => landOf n dst j = some a),
          h (ix2 (rowOf n hn src j) l)) * w (ix2 l c)
  rw [Finset.sum_comm]
  refine Finset.sum_congr rfl (fun l _ => ?_)
  exact (sum_mul_of_real _ _ _ (fun j _ => hh _) (hw _)).symm

/-- The two groupings of a layer's three summands agree. -/
theorem layerA_eq_layerR {n k m : Nat} (agg x : A2 n k) (wr ws : A2 k m) (b : A1 m) :
    layerA agg x wr ws b = layerR agg x wr ws b := by
  funext i
  show lk _ = lk _
  exact congrArg lk (add_right_comm _ _ _)

/-- A layer fed the aggregate of the multiplied rows is the layer that multiplies the aggregate. -/
theorem layerC_segsum_mm {n k m e : Nat} (hn : 0 < n) (src dst : EI e) {h : A2 n k} {wr ws : A2 k m}
    (b : A1 m) (hh : Real2 h) (hwr : Real2 wr) :
    layerC (segsum hn src dst (mm h wr)) h ws b = layerR (segsum hn src dst h) h wr ws b := by
  rw [segsum_mm hn src dst hh hwr, ← layerA_eq_layerR]
  rfl

end Cert.GC

end
-- ==== Proof.Algebra.lean ====
/-
  The two stacks of four layers agree when every input is a real number.

  Regrouping (p + q) + b = (p + b) + q holds on all extended reals.  Multiplying before aggregating,
      Σ_{e lands on i} Σ_l h[row e, l] · w[l, j]  =  Σ_l (Σ_{e lands on i} h[row e, l]) · w[l, j],
  exchanges two finite sums and moves the factor w[l, j] out of a sum, which is sound when every
  h[·, ·] and w[·, ·] is a real number; so one also shows that each layer sends real arrays to real arrays.
-/
import proofs.«128899_j82635170775050_2_alg».proof.Proof.Spec
import proofs.«128899_j82635170775050_2_alg».proof.Proof.AlgebraSums
import proofs.«128899_j82635170775050_2_alg».proof.Proof.AlgebraReal
import proofs.«128899_j82635170775050_2_alg».proof.Proof.AlgebraSeg

noncomputable section

namespace Cert.GC

open Idealize.ShloMosaic Idealize.ShloMosaic.ValueIdx

/-- The reconstruction and the embedding of the two stacks are the same arrays. -/
theorem stacks_agree (src dst : EI 800000) (x : A2 50000 128) (P : Params) (hx : Real2 x) (hP : P.Real) :
    k4 src dst x P = r4 src dst x P ∧ k2 src dst x P = r2 src dst x P := by
  -- layer 0: a regrouping only
  have e1 : k1 src dst x P = r1 src dst x P := layerA_eq_layerR _ _ _ _ _
  have h1 : Real2 (r1 src dst x P) :=
    real_layerR (real_segsum hN src dst hx) hx (real_tr hP.wrel0) (real_tr hP.wroot0) hP.b0
  -- layer 1: multiply-then-aggregate against aggregate-then-multiply, on the real array of layer 0
  have e2 : k2 src dst x P = r2 src dst x P := by
    unfold k2 kp1 r2
    rw [e1]
    exact layerC_segsum_mm hN src dst P.b1 h1 (real_tr hP.wrel1)
  have h2 : Real2 (r2 src dst x P) :=
    real_layerR (real_segsum hN src dst h1) h1 (real_tr hP.wrel1) (real_tr hP.wroot1) hP.b1
  -- layer 2: a regrouping only
  have e3 : k3 src dst x P = r3 src dst x P := by
    unfold k3 r3
    rw [e2]
    exact layerA_eq_layerR _ _ _ _ _
  have h3 : Real2 (r3 src dst x P) :=
    real_layerR (real_segsum hN src dst h2) h2 (real_tr hP.wrel2) (real_tr hP.wroot2) hP.b2
  -- layer 3: as layer 1
  have e4 : k4 src dst x P = r4 src dst x P := by
    unfold k4 kp3 r4
    rw [e3]
    exact layerC_segsum_mm hN src dst P.b3 h3 (real_tr hP.wrel3)
  exact ⟨e4, e2⟩

end Cert.GC

end
-- ==== Proof.ParamsOf.lean ====
/-
  The twelve weight and bias arrays a core holds, gathered into the specification's record.
-/
import proofs.«128899_j82635170775050_2_alg».proof.Defs
import proofs.«128899_j82635170775050_2_alg».proof.Proof.Spec

noncomputable section

namespace Cert.Proof

open Idealize.ShloMosaic Idealize.SL.Sem

/-- The twelve weight and bias arrays of core c, as the specification's record. -/
def paramsOf (m : (ℓ : Loc Cert.KernelIdeal.nD Cert.KernelIdeal.τ Cert.KernelIdeal.sig) → Buf (Elt Ideal) ℓ)
    (c : Dev Cert.KernelIdeal.nD) : Cert.GC.Params :=
  { wrel0 := m ((c.tc : Thread Cert.KernelIdeal.nD Cert.KernelIdeal.τ).loc Cert.KernelIdeal.main_arg2)
    wroot0 := m ((c.tc : Thread Cert.KernelIdeal.nD Cert.KernelIdeal.τ).loc Cert.KernelIdeal.main_arg3)
    b0 := m ((c.tc : Thread Cert.KernelIdeal.nD Cert.KernelIdeal.τ).loc Cert.KernelIdeal.main_arg4)
    wrel1 := m ((c.tc : Thread Cert.KernelIdeal.nD Cert.KernelIdeal.τ).loc Cert.KernelIdeal.main_arg5)
    wroot1 := m ((c.tc : Thread Cert.KernelIdeal.nD Cert.KernelIdeal.τ).loc Cert.KernelIdeal.main_arg6)
    b1 := m ((c.tc : Thread Cert.KernelIdeal.nD Cert.KernelIdeal.τ).loc Cert.KernelIdeal.main_arg7)
    wrel2 := m ((c.tc : Thread Cert.KernelIdeal.nD Cert.KernelIdeal.τ).loc Cert.KernelIdeal.main_arg8)
    wroot2 := m ((c.tc : Thread Cert.KernelIdeal.nD Cert.KernelIdeal.τ).loc Cert.KernelIdeal.main_arg9)
    b2 := m ((c.tc : Thread Cert.KernelIdeal.nD Cert.KernelIdeal.τ).loc Cert.KernelIdeal.main_arg10)
    wrel3 := m ((c.tc : Thread Cert.KernelIdeal.nD Cert.KernelIdeal.τ).loc Cert.KernelIdeal.main_arg11)
    wroot3 := m ((c.tc : Thread Cert.KernelIdeal.nD Cert.KernelIdeal.τ).loc Cert.KernelIdeal.main_arg12)
    b3 := m ((c.tc : Thread Cert.KernelIdeal.nD Cert.KernelIdeal.τ).loc Cert.KernelIdeal.main_arg13) }

end Cert.Proof

end
-- ==== Proof.FiniteLib.lean ====
/-
  A finiteness test read back: if the conjunction over a whole array of  |x i| < +∞  came out true,
  every entry of the array is a real number.
-/
import Idealize.ShloMosaic.PureOps.Ideal
import Idealize.ShloMosaic.PureOps.Ideal.Laws
import Idealize.ShloMosaic.Lib.ValueIdx
import Idealize.ShloMosaic.Lib.ReduceAll

noncomputable section

namespace Cert.Proof.Finite

open Idealize.ShloMosaic

/-- The rank-0 shape has a single index. -/
instance : Subsingleton (⟨0, ![]⟩ : Shape).Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (−x) lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ came out true, so x is a real number. -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  refine real_of_abs_lt_top x ?_
  by_contra hn
  simp [hn] at h'

/-- A whole array: the reduction by "and" of the entrywise test |x i| < +∞ came out true, so every entry is real. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hS : 0 < (⟨0, ![]⟩ : Shape).numel)
    (h : Host.reduce IntOp.andi
          (cmpf .olt (Host.absf x) (broadcastInDim s ![] hb (constant (⟨0, ![]⟩ : Shape) .f32 0x7F800000#32)))
          (constantI (⟨0, ![]⟩ : Shape) 1 1#1) hr hS ValueIdx.ix0 = 1#1) :
    ∀ i, ∃ r : ℝ, x i = (r : EReal) := by
  intro i
  have e := Host.reduce_andi_all _ _ hr hS ValueIdx.ix0 h i
  exact real_of_cmp (x i) e

end Cert.Proof.Finite

end
-- ==== Proof.Finite.lean ====
/-
  From the precondition to the arrays' entries: the precondition says that, for every float argument a,
  the conjunction over all of a's entries of |a i| < +∞ is true; hence every entry of every float
  argument is a real number.
-/
import proofs.«128899_j82635170775050_2_alg».proof.Defs
import proofs.«128899_j82635170775050_2_alg».proof.Proof.Spec
import proofs.«128899_j82635170775050_2_alg».proof.Proof.ParamsOf
import proofs.«128899_j82635170775050_2_alg».proof.Proof.FiniteLib

noncomputable section

namespace Cert.Proof.Finite

open Idealize.ShloMosaic Idealize.SL.Sem
open Cert.Pre_finite_inputs Cert.Pre_finite_inputs.Facts

variable [Cert.Pre_finite_inputs.Facts]

/-- The printed predicate, true at its one index, read back: each of its thirteen conjuncts is a whole-array
    test |a i| < +∞, so each float argument has only real entries. -/
theorem fn_reals (a0 : FVec Ideal S50000x128 .f32) (a1 : IVec S2x800000 32) (a2 a3 : FVec Ideal S256x128 .f32)
    (a4 : FVec Ideal S256 .f32) (a5 a6 : FVec Ideal S64x256 .f32) (a7 : FVec Ideal S64 .f32)
    (a8 a9 : FVec Ideal S256x64 .f32) (a10 : FVec Ideal S256 .f32) (a11 a12 : FVec Ideal S128x256 .f32)
    (a13 : FVec Ideal S128 .f32)
    (h : Cert.Pre_finite_inputs.fn (F := Ideal) a0 a1 a2 a3 a4 a5 a6 a7 a8 a9 a10 a11 a12 a13 = (fun _ => 1#1)) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧ (∀ i, ∃ r : ℝ, a12 i = (r : EReal)) ∧
    (∀ i, ∃ r : ℝ, a13 i = (r : EReal)) := by
  have h1 := congrFun h ValueIdx.ix0
  dsimp only [Cert.Pre_finite_inputs.fn, Cert.Pre_finite_inputs.fn_part1, Cert.Pre_finite_inputs.fn_part2,
    Cert.Pre_finite_inputs.fn_part3] at h1
  simp only [Idealize.ShloMosaic.andi, IntOp.andi_eq_one] at h1
  obtain ⟨⟨⟨⟨⟨⟨⟨⟨⟨⟨⟨⟨h0, h2⟩, h3⟩, h4⟩, h5⟩, h6⟩, h7⟩, h8⟩, h9⟩, h10⟩, h11⟩, h12⟩, h13⟩ := h1
  exact ⟨real_of_all _ _ _ _ h0, real_of_all _ _ _ _ h2, real_of_all _ _ _ _ h3, real_of_all _ _ _ _ h4,
    real_of_all _ _ _ _ h5, real_of_all _ _ _ _ h6, real_of_all _ _ _ _ h7, real_of_all _ _ _ _ h8,
    real_of_all _ _ _ _ h9, real_of_all _ _ _ _ h10, real_of_all _ _ _ _ h11, real_of_all _ _ _ _ h12,
    real_of_all _ _ _ _ h13⟩

/-- Under the precondition, on every core the feature array and the twelve weight and bias arrays hold only real numbers. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.GC.Real2 ((m ((c.tc : Thread Cert.KernelIdeal.nD Cert.KernelIdeal.τ).loc Cert.KernelIdeal.main_arg0)) : Cert.GC.A2 50000 128) ∧ (Cert.Proof.paramsOf m c).Real := by
  obtain ⟨h0, h2, h3, h4, h5, h6, h7, h8, h9, h10, h11, h12, h13⟩ := fn_reals _ _ _ _ _ _ _ _ _ _ _ _ _ _ (h c)
  exact ⟨h0, ⟨h2, h3, h4, h5, h6, h7, h8, h9, h10, h11, h12, h13⟩⟩

end Cert.Proof.Finite

end
-- ==== Proof.LibEdges.lean ====
/-
  The host's gather of node rows along edges and its accumulating scatter back onto nodes, read at an
  index: for a [n, c] operand, one index per edge ([e, 1]) and [e, c] rows.
-/
import proofs.«128899_j82635170775050_2_alg».proof.Proof.Spec
import Idealize.ShloMosaic.PureOps.ShapeOps
import Idealize.ShloMosaic.PureOps.Contract

noncomputable section

namespace Cert.GC

open Idealize.ShloMosaic Idealize.ShloMosaic.ValueIdx

/-- Gathering rows of a [n, c] array at one start index per edge: offset axis 1, collapsed axis 0. -/
abbrev rowGather (n c e : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- Scattering [e, c] rows into a [n, c] array at one index per edge: window axis 1, inserted axis 0. -/
abbrev rowScatter (n c e : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- The landing node of an edge is r exactly when its index, read signed, is r. -/
theorem landOf_eq_some {n e : Nat} (idx : EI e) (j : Fin e) (r : Fin n) :
    landOf n idx j = some r ↔ (idx (ix2 j (0 : Fin 1))).toInt = (r.val : Int) := by
  have hr := r.isLt
  unfold landOf
  split
  · rename_i h
    rw [Option.some.injEq, Fin.ext_iff]
    simp only
    omega
  · rename_i h
    constructor
    · intro h'; cases h'
    · intro h'; exfalso; apply h; omega

/-- An update index lands on i exactly when start plus window coordinate is i's coordinate on every axis. -/
theorem resultIdx?_eq_some {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i h
    rw [Option.some.injEq]
    constructor
    · intro hf a
      rw [← hf]
      exact (Int.toNat_of_nonneg (h a).1).symm
    · intro H
      funext a
      refine Fin.ext ?_
      show (d.start j idx a + d.window j a).toNat = (i a).val
      rw [H a]; rfl
  · rename_i h
    constructor
    · intro h'; cases h'
    · intro H; exfalso; apply h; intro a
      rw [H a]
      exact ⟨Int.natCast_nonneg _, Int.ofNat_lt.mpr (i a).isLt⟩

/-- Which entry an [e, c] row entry lands on: the edge's node on axis 0, its own column on axis 1. -/
theorem rowScatter_lands {n c e : Nat}
    (wf : ScatterDims.WF ⟨2, ![n, c]⟩ ⟨2, ![e, 1]⟩ ⟨2, ![e, c]⟩ [1] [0] [0] 1)
    (idx : EI e) (j : (⟨2, ![e, c]⟩ : Shape).Idx) (i : (⟨2, ![n, c]⟩ : Shape).Idx) :
    (rowScatter n c e wf).resultIdx? j idx = some i ↔
      landOf n idx ⟨(j 0).val, idx2_lt0 j⟩ = some ⟨(i 0).val, idx2_lt0 i⟩ ∧ (j 1).val = (i 1).val := by
  rw [resultIdx?_eq_some, landOf_eq_some]
  have hs0 : (rowScatter n c e wf).start j idx 0
      = (idx (ix2 ⟨(j 0).val, idx2_lt0 j⟩ (0 : Fin 1))).toInt := by
    unfold ScatterDims.start
    rw [dif_pos (show (0 : Fin 2) ∈ ([0] : List (Fin 2)) from List.mem_singleton.mpr rfl)]
    have hsi : (rowScatter n c e wf).siIdx j ⟨List.idxOf (0 : Fin 2) (rowScatter n c e wf).scatterDimsToOperandDims,
        List.idxOf_lt_length_iff.2 (List.mem_singleton.mpr rfl)⟩
        = ix2 ⟨(j 0).val, idx2_lt0 j⟩ (0 : Fin 1) := by
      funext b; refine Fin.ext ?_
      match b with
      | ⟨0, _⟩ => rfl
      | ⟨1, _⟩ => rfl
    rw [hsi]
  have hw0 : (rowScatter n c e wf).window j 0 = 0 := by
    unfold ScatterDims.window
    rw [dif_neg (show (0 : Fin 2) ∉ (⟨2, ![n, c]⟩ : Shape).kept ([0] : List (Fin 2)) by
      simp [Shape.kept])]
  have hs1 : (rowScatter n c e wf).start j idx 1 = 0 := by
    unfold ScatterDims.start
    rw [dif_neg (show (1 : Fin 2) ∉ ([0] : List (Fin 2)) by decide)]
  have hw1 : (rowScatter n c e wf).window j 1 = (j 1).val := by
    unfold ScatterDims.window
    rw [dif_pos (show (1 : Fin 2) ∈ (⟨2, ![n, c]⟩ : Shape).kept ([0] : List (Fin 2)) by
      simp [Shape.kept])]
    rfl
  rw [Fin.forall_fin_two, hs0, hw0, hs1, hw1]
  simp only [Nat.cast_zero, Int.add_zero, Int.zero_add, Nat.cast_inj]

/-- The gather reads, for edge j and column q, the operand's row at the edge's clamped index. -/
theorem gather_rows {n c e : Nat} (hn : 0 < n)
    (wf : GatherDims.WF ⟨2, ![n, c]⟩ ⟨2, ![e, 1]⟩ ⟨2, ![e, c]⟩ [1] [0] [] [0] [] 1 ![1, c])
    (x : A2 n c) (idx : EI e) :
    Host.gather (rowGather n c e wf) x idx = gat hn x idx := by
  funext j
  unfold Host.gather gat
  refine congrArg x ?_
  funext a
  refine Fin.ext ?_
  match a with
  | ⟨0, _⟩ =>
    show (rowGather n c e wf).start j idx 0 + (rowGather n c e wf).batchCoord j 0
      + (rowGather n c e wf).offCoord j 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGather n c e wf).startIndexMap from List.mem_singleton.mpr rfl)]
    have hsi : (rowGather n c e wf).siIdx j ⟨List.idxOf (0 : Fin 2) (rowGather n c e wf).startIndexMap,
        List.idxOf_lt_length_iff.2 (List.mem_singleton.mpr rfl)⟩
        = ix2 ⟨(j 0).val, idx2_lt0 j⟩ (0 : Fin 1) := by
      funext b; refine Fin.ext ?_
      match b with
      | ⟨0, _⟩ => rfl
      | ⟨1, _⟩ => rfl
    rw [hsi]
    rfl
  | ⟨1, _⟩ =>
    show (rowGather n c e wf).start j idx 1 + (rowGather n c e wf).batchCoord j 1
      + (rowGather n c e wf).offCoord j 1 = (j 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨(by decide : (1 : Fin 2) ∉ ([0] : List (Fin 2))), List.not_mem_nil⟩)]
    simp only [Nat.zero_add, Nat.add_zero]
    rfl

/-- The accumulating scatter adds to each operand entry the rows of the edges landing on its node. -/
theorem scatterAdd_rows {n c e : Nat}
    (wf : ScatterDims.WF ⟨2, ![n, c]⟩ ⟨2, ![e, 1]⟩ ⟨2, ![e, c]⟩ [1] [0] [0] 1)
    (z : A2 n c) (idx : EI e) (u : A2 e c) :
    Ideal.hostScatterAdd (rowScatter n c e wf) z idx u = fun i => z i + sca idx u i := by
  funext i
  unfold Ideal.hostScatterAdd sca
  refine congrArg (z i + ·) ?_
  have hback : ∀ a : (⟨2, ![e, c]⟩ : Shape).Idx, (a 1).val = (i 1).val →
      ix2 (⟨(a 0).val, idx2_lt0 a⟩ : Fin e) (⟨(i 1).val, idx2_lt1 i⟩ : Fin c) = a := by
    intro a ha
    conv_rhs => rw [eq_ix2 a]
    congr 1
    exact Fin.ext ha.symm
  refine Finset.sum_nbij' (fun a => (⟨(a 0).val, idx2_lt0 a⟩ : Fin e))
    (fun b => ix2 b (⟨(i 1).val, idx2_lt1 i⟩ : Fin c)) ?_ ?_ ?_ ?_ ?_
  · intro a ha
    rw [Finset.mem_filter] at ha ⊢
    exact ⟨Finset.mem_univ _, ((rowScatter_lands wf idx a i).mp ha.2).1⟩
  · intro b hb
    rw [Finset.mem_filter] at hb ⊢
    exact ⟨Finset.mem_univ _, (rowScatter_lands wf idx _ i).mpr ⟨hb.2, rfl⟩⟩
  · intro a ha
    rw [Finset.mem_filter] at ha
    exact hback a ((rowScatter_lands wf idx a i).mp ha.2).2
  · intro b hb
    rfl
  · intro a ha
    rw [Finset.mem_filter] at ha
    exact congrArg u (hback a ((rowScatter_lands wf idx a i).mp ha.2).2).symm

end Cert.GC

end
-- ==== Proof.LibLayout.lean ====
/-
  Host operations of both programs read as the specification's functions: a matrix transposed, a bias
  vector viewed as one row, a float array widened (the identity on extended reals), and the gather of node
  rows along edges followed by the accumulating scatter into a zero array, which is the aggregation.
-/
import proofs.«128899_j82635170775050_2_alg».proof.Proof.Spec
import proofs.«128899_j82635170775050_2_alg».proof.Proof.LibEdges
import Idealize.ShloMosaic.Lib.ValueLayout
import Idealize.ShloMosaic.Lib.Pipeline.Value

noncomputable section

namespace Cert.GC

open Idealize.ShloMosaic Idealize.ShloMosaic.ValueIdx

/-- A matrix transposed by the permutation [1, 0] is the specification's transpose. -/
theorem transpose_eq_tr {a b : Nat} (w : A2 a b)
    (h : (⟨2, ![a, b]⟩ : Shape).Transposes [1, 0] ⟨2, ![b, a]⟩) :
    transpose ⟨2, ![b, a]⟩ [1, 0] w h = tr w := by
  funext j
  rw [eq_ix2 j]
  exact transpose_ix2_apply w h (j 0) (j 1)

/-- A bias vector viewed as a [1, a] row, read along that row, is the vector. -/
theorem row_of_cast {a : Nat} (b : A1 a) (h : (⟨1, ![a]⟩ : Shape).ShapeCasts ⟨2, ![1, a]⟩) :
    (fun i : (⟨1, ![a]⟩ : Shape).Idx => shapeCast ⟨2, ![1, a]⟩ b h (ix2 (0 : Fin 1) ⟨(i 0).val, (i 0).isLt⟩)) = b := by
  funext i
  refine (shapeCast_a_1a_apply b h 0 ⟨(i 0).val, (i 0).isLt⟩).trans ?_
  exact congrArg b (eq_ix1 i).symm

/-- Widening a float array changes no extended real. -/
theorem extf_id {s : Shape} {φ ψ : FTy} (x : FVec Ideal s φ) (h : φ.bits < ψ.bits) : extf (F := Ideal) ψ x h = x := rfl

/-- Narrowing a float array changes no extended real. -/
theorem truncf_id {s : Shape} {φ ψ : FTy} (x : FVec Ideal s φ) (h : ψ.bits < φ.bits) : truncf (F := Ideal) ψ x h = x := rfl

/-- Gathering node rows along the edges and scattering them, accumulated, into a zero array is the aggregation. -/
theorem segsum_host {C : Nat}
    (wfg : GatherDims.WF ⟨2, ![50000, C]⟩ ⟨2, ![800000, 1]⟩ ⟨2, ![800000, C]⟩ [1] [0] [] [0] [] 1 ![1, C])
    (wfs : ScatterDims.WF ⟨2, ![50000, C]⟩ ⟨2, ![800000, 1]⟩ ⟨2, ![800000, C]⟩ [1] [0] [0] 1)
    (hb : (⟨0, ![]⟩ : Shape).BroadcastsInDim ⟨2, ![50000, C]⟩ (![] : Fin 0 → Fin 2))
    (x : A2 50000 C) (src dst : EI 800000) :
    Host.scatterAdd (F := Ideal) (φ := .f32) (rowScatter 50000 C 800000 wfs)
      (broadcastInDim ⟨2, ![50000, C]⟩ ![] hb (constant (F := Ideal) ⟨0, ![]⟩ .f32 0x00000000#32)) dst
      (Host.gather (rowGather 50000 C 800000 wfg) x src) = segsum hN src dst x := by
  show Ideal.hostScatterAdd (rowScatter 50000 C 800000 wfs) _ dst _ = _
  rw [scatterAdd_rows, gather_rows hN]
  funext i
  show Ideal.ofBits .f32 0x00000000#32 + _ = _
  rw [Ideal.ofBits_zero_f32, zero_add]
  rfl

theorem layerA_congr {n k m : Nat} {a a' x x' : A2 n k} {wr wr' ws ws' : A2 k m} {b b' : A1 m}
    (h1 : a = a') (h2 : x = x') (h3 : wr = wr') (h4 : ws = ws') (h5 : b = b') :
    layerA a x wr ws b = layerA a' x' wr' ws' b' := by subst h1 h2 h3 h4 h5; rfl

theorem layerC_congr {n k m : Nat} {a a' : A2 n m} {x x' : A2 n k} {ws ws' : A2 k m} {b b' : A1 m}
    (h1 : a = a') (h2 : x = x') (h4 : ws = ws') (h5 : b = b') :
    layerC a x ws b = layerC a' x' ws' b' := by subst h1 h2 h4 h5; rfl

theorem layerR_congr {n k m : Nat} {a a' x x' : A2 n k} {wr wr' ws ws' : A2 k m} {b b' : A1 m}
    (h1 : a = a') (h2 : x = x') (h3 : wr = wr') (h4 : ws = ws') (h5 : b = b') :
    layerR a x wr ws b = layerR a' x' wr' ws' b' := by subst h1 h2 h3 h4 h5; rfl

theorem mm_congr {n k m : Nat} {x x' : A2 n k} {w w' : A2 k m} (h1 : x = x') (h2 : w = w') : mm x w = mm x' w' := by
  subst h1 h2; rfl

end Cert.GC

end
-- ==== Proof.EdgeIdx.lean ====
/-
  The two node indices of every edge, as the [800000, 1] index arrays the gather and the scatter read:
  row 0 of the [2, 800000] edge array is the source node, wrapped once by the node count when negative;
  row 1 is the target node, taken as it is.
-/
import proofs.«128899_j82635170775050_2_alg».proof.Proof.Spec
import Idealize.ShloMosaic.PureOps

noncomputable section

namespace Cert.GC

open Idealize.ShloMosaic

/-- The [2, 800000] array of 32-bit integers: row 0 the sources, row 1 the targets. -/
abbrev EdgeArr : Type := (⟨2, ![2, 800000]⟩ : Shape).Idx → BitVec 32

theorem edge_slices_row0 : (⟨2, ![2, 800000]⟩ : Shape).Slices ![0, 0] ⟨2, ![1, 800000]⟩ := by decide
theorem edge_slices_row1 : (⟨2, ![2, 800000]⟩ : Shape).Slices ![1, 0] ⟨2, ![1, 800000]⟩ := by decide
theorem edge_shapeCasts : (⟨2, ![1, 800000]⟩ : Shape).ShapeCasts ⟨1, ![800000]⟩ := by decide
theorem edge_bcast_scalar : (⟨0, ![]⟩ : Shape).BroadcastsInDim ⟨1, ![800000]⟩ (![] : Fin 0 → Fin 1) := by decide
theorem edge_bcast_col : (⟨1, ![800000]⟩ : Shape).BroadcastsInDim ⟨2, ![800000, 1]⟩ (![0] : Fin 1 → Fin 2) := by decide

/-- Row 0 of the edge array, flattened to [800000]. -/
def edgeRow0 (ei : EdgeArr) : (⟨1, ![800000]⟩ : Shape).Idx → BitVec 32 :=
  shapeCast ⟨1, ![800000]⟩ (extractStridedSlice ⟨2, ![1, 800000]⟩ ![0, 0] ei edge_slices_row0) edge_shapeCasts

/-- Row 1 of the edge array, flattened to [800000]. -/
def edgeRow1 (ei : EdgeArr) : (⟨1, ![800000]⟩ : Shape).Idx → BitVec 32 :=
  shapeCast ⟨1, ![800000]⟩ (extractStridedSlice ⟨2, ![1, 800000]⟩ ![1, 0] ei edge_slices_row1) edge_shapeCasts

/-- The source indices as an [800000, 1] array: a negative index has the node count added once. -/
def srcOf (ei : EdgeArr) : EI 800000 :=
  broadcastInDim ⟨2, ![800000, 1]⟩ ![0] edge_bcast_col
    (select
      (cmpi .slt (edgeRow0 ei) (broadcastInDim ⟨1, ![800000]⟩ ![] edge_bcast_scalar (constantI ⟨0, ![]⟩ 32 0#32)))
      (addi (edgeRow0 ei) (broadcastInDim ⟨1, ![800000]⟩ ![] edge_bcast_scalar (constantI ⟨0, ![]⟩ 32 50000#32)))
      (edgeRow0 ei))

/-- The target indices as an [800000, 1] array, unchanged. -/
def dstOf (ei : EdgeArr) : EI 800000 :=
  broadcastInDim ⟨2, ![800000, 1]⟩ ![0] edge_bcast_col (edgeRow1 ei)

end Cert.GC

end
-- ==== Proof.KernelCarry.lean ====
/-
  Which buffers each segment of the idealized kernel's @main leaves alone.

  A stretch of host operations changes only the buffers its operations write; a pipelined region changes
  only its output arrays (an input array is read through its window and ends as entered, every other
  buffer is not touched).  So the contents of a buffer at a later segment boundary are its contents at
  the boundary where it was last written.
-/
import proofs.«128899_j82635170775050_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL.Sem
open Cert.KernelIdeal Cert.KernelIdeal.Gen

variable {F : FTy → Type} [FloatOps F]

variable (m : (ℓ : Loc nD τ sig) → Buf (Elt F) ℓ) (ρ : Dev nD → PrngReg) (c : Dev nD)

/-- No operation of the named stretch writes the buffer: each operation's one written buffer is another one. -/
macro "stretch_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_arg0_1 : W1 m ρ c (Proc.devRef .tc main_arg0) = W0 m ρ c (Proc.devRef .tc main_arg0) := by
  stretch_keeps hostOps0
theorem at_arg0_1 : W1 m ρ c (Proc.devRef .tc main_arg0) = m ((c : Thread nD τ).loc main_arg0) :=
  ((keep_arg0_1 m ρ c)).trans rfl

theorem keep_arg5_1 : W1 m ρ c (Proc.devRef .tc main_arg5) = W0 m ρ c (Proc.devRef .tc main_arg5) := by
  stretch_keeps hostOps0
theorem keep_arg5_2 : W2 m ρ c (Proc.devRef .tc main_arg5) = W1 m ρ c (Proc.devRef .tc main_arg5) :=
  W2_of_ne m ρ c main_arg5 (by decide)
theorem at_arg5_1 : W1 m ρ c (Proc.devRef .tc main_arg5) = m ((c : Thread nD τ).loc main_arg5) :=
  ((keep_arg5_1 m ρ c)).trans rfl
theorem at_arg5_2 : W2 m ρ c (Proc.devRef .tc main_arg5) = m ((c : Thread nD τ).loc main_arg5) :=
  ((keep_arg5_2 m ρ c).trans (keep_arg5_1 m ρ c)).trans rfl

theorem keep_arg6_1 : W1 m ρ c (Proc.devRef .tc main_arg6) = W0 m ρ c (Proc.devRef .tc main_arg6) := by
  stretch_keeps hostOps0
theorem keep_arg6_2 : W2 m ρ c (Proc.devRef .tc main_arg6) = W1 m ρ c (Proc.devRef .tc main_arg6) :=
  W2_of_ne m ρ c main_arg6 (by decide)
theorem keep_arg6_3 : W3 m ρ c (Proc.devRef .tc main_arg6) = W2 m ρ c (Proc.devRef .tc main_arg6) := by
  stretch_keeps hostOps1
theorem keep_arg6_4 : W4 m ρ c (Proc.devRef .tc main_arg6) = W3 m ρ c (Proc.devRef .tc main_arg6) :=
  W4_of_ne m ρ c main_arg6 (by decide)
theorem at_arg6_1 : W1 m ρ c (Proc.devRef .tc main_arg6) = m ((c : Thread nD τ).loc main_arg6) :=
  ((keep_arg6_1 m ρ c)).trans rfl
theorem at_arg6_2 : W2 m ρ c (Proc.devRef .tc main_arg6) = m ((c : Thread nD τ).loc main_arg6) :=
  ((keep_arg6_2 m ρ c).trans (keep_arg6_1 m ρ c)).trans rfl
theorem at_arg6_3 : W3 m ρ c (Proc.devRef .tc main_arg6) = m ((c : Thread nD τ).loc main_arg6) :=
  (((keep_arg6_3 m ρ c).trans (keep_arg6_2 m ρ c)).trans (keep_arg6_1 m ρ c)).trans rfl
theorem at_arg6_4 : W4 m ρ c (Proc.devRef .tc main_arg6) = m ((c : Thread nD τ).loc main_arg6) :=
  ((((keep_arg6_4 m ρ c).trans (keep_arg6_3 m ρ c)).trans (keep_arg6_2 m ρ c)).trans (keep_arg6_1 m ρ c)).trans rfl

theorem keep_arg7_1 : W1 m ρ c (Proc.devRef .tc main_arg7) = W0 m ρ c (Proc.devRef .tc main_arg7) := by
  stretch_keeps hostOps0
theorem keep_arg7_2 : W2 m ρ c (Proc.devRef .tc main_arg7) = W1 m ρ c (Proc.devRef .tc main_arg7) :=
  W2_of_ne m ρ c main_arg7 (by decide)
theorem keep_arg7_3 : W3 m ρ c (Proc.devRef .tc main_arg7) = W2 m ρ c (Proc.devRef .tc main_arg7) := by
  stretch_keeps hostOps1
theorem keep_arg7_4 : W4 m ρ c (Proc.devRef .tc main_arg7) = W3 m ρ c (Proc.devRef .tc main_arg7) :=
  W4_of_ne m ρ c main_arg7 (by decide)
theorem at_arg7_1 : W1 m ρ c (Proc.devRef .tc main_arg7) = m ((c : Thread nD τ).loc main_arg7) :=
  ((keep_arg7_1 m ρ c)).trans rfl
theorem at_arg7_2 : W2 m ρ c (Proc.devRef .tc main_arg7) = m ((c : Thread nD τ).loc main_arg7) :=
  ((keep_arg7_2 m ρ c).trans (keep_arg7_1 m ρ c)).trans rfl
theorem at_arg7_3 : W3 m ρ c (Proc.devRef .tc main_arg7) = m ((c : Thread nD τ).loc main_arg7) :=
  (((keep_arg7_3 m ρ c).trans (keep_arg7_2 m ρ c)).trans (keep_arg7_1 m ρ c)).trans rfl
theorem at_arg7_4 : W4 m ρ c (Proc.devRef .tc main_arg7) = m ((c : Thread nD τ).loc main_arg7) :=
  ((((keep_arg7_4 m ρ c).trans (keep_arg7_3 m ρ c)).trans (keep_arg7_2 m ρ c)).trans (keep_arg7_1 m ρ c)).trans rfl

theorem keep_arg8_1 : W1 m ρ c (Proc.devRef .tc main_arg8) = W0 m ρ c (Proc.devRef .tc main_arg8) := by
  stretch_keeps hostOps0
theorem keep_arg8_2 : W2 m ρ c (Proc.devRef .tc main_arg8) = W1 m ρ c (Proc.devRef .tc main_arg8) :=
  W2_of_ne m ρ c main_arg8 (by decide)
theorem keep_arg8_3 : W3 m ρ c (Proc.devRef .tc main_arg8) = W2 m ρ c (Proc.devRef .tc main_arg8) := by
  stretch_keeps hostOps1
theorem keep_arg8_4 : W4 m ρ c (Proc.devRef .tc main_arg8) = W3 m ρ c (Proc.devRef .tc main_arg8) :=
  W4_of_ne m ρ c main_arg8 (by decide)
theorem keep_arg8_5 : W5 m ρ c (Proc.devRef .tc main_arg8) = W4 m ρ c (Proc.devRef .tc main_arg8) := by
  stretch_keeps hostOps2
theorem keep_arg8_6 : W6 m ρ c (Proc.devRef .tc main_arg8) = W5 m ρ c (Proc.devRef .tc main_arg8) :=
  W6_of_ne m ρ c main_arg8 (by decide)
theorem at_arg8_1 : W1 m ρ c (Proc.devRef .tc main_arg8) = m ((c : Thread nD τ).loc main_arg8) :=
  ((keep_arg8_1 m ρ c)).trans rfl
theorem at_arg8_2 : W2 m ρ c (Proc.devRef .tc main_arg8) = m ((c : Thread nD τ).loc main_arg8) :=
  ((keep_arg8_2 m ρ c).trans (keep_arg8_1 m ρ c)).trans rfl
theorem at_arg8_3 : W3 m ρ c (Proc.devRef .tc main_arg8) = m ((c : Thread nD τ).loc main_arg8) :=
  (((keep_arg8_3 m ρ c).trans (keep_arg8_2 m ρ c)).trans (keep_arg8_1 m ρ c)).trans rfl
theorem at_arg8_4 : W4 m ρ c (Proc.devRef .tc main_arg8) = m ((c : Thread nD τ).loc main_arg8) :=
  ((((keep_arg8_4 m ρ c).trans (keep_arg8_3 m ρ c)).trans (keep_arg8_2 m ρ c)).trans (keep_arg8_1 m ρ c)).trans rfl
theorem at_arg8_5 : W5 m ρ c (Proc.devRef .tc main_arg8) = m ((c : Thread nD τ).loc main_arg8) :=
  (((((keep_arg8_5 m ρ c).trans (keep_arg8_4 m ρ c)).trans (keep_arg8_3 m ρ c)).trans (keep_arg8_2 m ρ c)).trans (keep_arg8_1 m ρ c)).trans rfl
theorem at_arg8_6 : W6 m ρ c (Proc.devRef .tc main_arg8) = m ((c : Thread nD τ).loc main_arg8) :=
  ((((((keep_arg8_6 m ρ c).trans (keep_arg8_5 m ρ c)).trans (keep_arg8_4 m ρ c)).trans (keep_arg8_3 m ρ c)).trans (keep_arg8_2 m ρ c)).trans (keep_arg8_1 m ρ c)).trans rfl

theorem keep_arg9_1 : W1 m ρ c (Proc.devRef .tc main_arg9) = W0 m ρ c (Proc.devRef .tc main_arg9) := by
  stretch_keeps hostOps0
theorem keep_arg9_2 : W2 m ρ c (Proc.devRef .tc main_arg9) = W1 m ρ c (Proc.devRef .tc main_arg9) :=
  W2_of_ne m ρ c main_arg9 (by decide)
theorem keep_arg9_3 : W3 m ρ c (Proc.devRef .tc main_arg9) = W2 m ρ c (Proc.devRef .tc main_arg9) := by
  stretch_keeps hostOps1
theorem keep_arg9_4 : W4 m ρ c (Proc.devRef .tc main_arg9) = W3 m ρ c (Proc.devRef .tc main_arg9) :=
  W4_of_ne m ρ c main_arg9 (by decide)
theorem keep_arg9_5 : W5 m ρ c (Proc.devRef .tc main_arg9) = W4 m ρ c (Proc.devRef .tc main_arg9) := by
  stretch_keeps hostOps2
theorem keep_arg9_6 : W6 m ρ c (Proc.devRef .tc main_arg9) = W5 m ρ c (Proc.devRef .tc main_arg9) :=
  W6_of_ne m ρ c main_arg9 (by decide)
theorem at_arg9_1 : W1 m ρ c (Proc.devRef .tc main_arg9) = m ((c : Thread nD τ).loc main_arg9) :=
  ((keep_arg9_1 m ρ c)).trans rfl
theorem at_arg9_2 : W2 m ρ c (Proc.devRef .tc main_arg9) = m ((c : Thread nD τ).loc main_arg9) :=
  ((keep_arg9_2 m ρ c).trans (keep_arg9_1 m ρ c)).trans rfl
theorem at_arg9_3 : W3 m ρ c (Proc.devRef .tc main_arg9) = m ((c : Thread nD τ).loc main_arg9) :=
  (((keep_arg9_3 m ρ c).trans (keep_arg9_2 m ρ c)).trans (keep_arg9_1 m ρ c)).trans rfl
theorem at_arg9_4 : W4 m ρ c (Proc.devRef .tc main_arg9) = m ((c : Thread nD τ).loc main_arg9) :=
  ((((keep_arg9_4 m ρ c).trans (keep_arg9_3 m ρ c)).trans (keep_arg9_2 m ρ c)).trans (keep_arg9_1 m ρ c)).trans rfl
theorem at_arg9_5 : W5 m ρ c (Proc.devRef .tc main_arg9) = m ((c : Thread nD τ).loc main_arg9) :=
  (((((keep_arg9_5 m ρ c).trans (keep_arg9_4 m ρ c)).trans (keep_arg9_3 m ρ c)).trans (keep_arg9_2 m ρ c)).trans (keep_arg9_1 m ρ c)).trans rfl
theorem at_arg9_6 : W6 m ρ c (Proc.devRef .tc main_arg9) = m ((c : Thread nD τ).loc main_arg9) :=
  ((((((keep_arg9_6 m ρ c).trans (keep_arg9_5 m ρ c)).trans (keep_arg9_4 m ρ c)).trans (keep_arg9_3 m ρ c)).trans (keep_arg9_2 m ρ c)).trans (keep_arg9_1 m ρ c)).trans rfl

theorem keep_arg10_1 : W1 m ρ c (Proc.devRef .tc main_arg10) = W0 m ρ c (Proc.devRef .tc main_arg10) := by
  stretch_keeps hostOps0
theorem keep_arg10_2 : W2 m ρ c (Proc.devRef .tc main_arg10) = W1 m ρ c (Proc.devRef .tc main_arg10) :=
  W2_of_ne m ρ c main_arg10 (by decide)
theorem keep_arg10_3 : W3 m ρ c (Proc.devRef .tc main_arg10) = W2 m ρ c (Proc.devRef .tc main_arg10) := by
  stretch_keeps hostOps1
theorem keep_arg10_4 : W4 m ρ c (Proc.devRef .tc main_arg10) = W3 m ρ c (Proc.devRef .tc main_arg10) :=
  W4_of_ne m ρ c main_arg10 (by decide)
theorem keep_arg10_5 : W5 m ρ c (Proc.devRef .tc main_arg10) = W4 m ρ c (Proc.devRef .tc main_arg10) := by
  stretch_keeps hostOps2
theorem keep_arg10_6 : W6 m ρ c (Proc.devRef .tc main_arg10) = W5 m ρ c (Proc.devRef .tc main_arg10) :=
  W6_of_ne m ρ c main_arg10 (by decide)
theorem at_arg10_1 : W1 m ρ c (Proc.devRef .tc main_arg10) = m ((c : Thread nD τ).loc main_arg10) :=
  ((keep_arg10_1 m ρ c)).trans rfl
theorem at_arg10_2 : W2 m ρ c (Proc.devRef .tc main_arg10) = m ((c : Thread nD τ).loc main_arg10) :=
  ((keep_arg10_2 m ρ c).trans (keep_arg10_1 m ρ c)).trans rfl
theorem at_arg10_3 : W3 m ρ c (Proc.devRef .tc main_arg10) = m ((c : Thread nD τ).loc main_arg10) :=
  (((keep_arg10_3 m ρ c).trans (keep_arg10_2 m ρ c)).trans (keep_arg10_1 m ρ c)).trans rfl
theorem at_arg10_4 : W4 m ρ c (Proc.devRef .tc main_arg10) = m ((c : Thread nD τ).loc main_arg10) :=
  ((((keep_arg10_4 m ρ c).trans (keep_arg10_3 m ρ c)).trans (keep_arg10_2 m ρ c)).trans (keep_arg10_1 m ρ c)).trans rfl
theorem at_arg10_5 : W5 m ρ c (Proc.devRef .tc main_arg10) = m ((c : Thread nD τ).loc main_arg10) :=
  (((((keep_arg10_5 m ρ c).trans (keep_arg10_4 m ρ c)).trans (keep_arg10_3 m ρ c)).trans (keep_arg10_2 m ρ c)).trans (keep_arg10_1 m ρ c)).trans rfl
theorem at_arg10_6 : W6 m ρ c (Proc.devRef .tc main_arg10) = m ((c : Thread nD τ).loc main_arg10) :=
  ((((((keep_arg10_6 m ρ c).trans (keep_arg10_5 m ρ c)).trans (keep_arg10_4 m ρ c)).trans (keep_arg10_3 m ρ c)).trans (keep_arg10_2 m ρ c)).trans (keep_arg10_1 m ρ c)).trans rfl

theorem keep_arg11_1 : W1 m ρ c (Proc.devRef .tc main_arg11) = W0 m ρ c (Proc.devRef .tc main_arg11) := by
  stretch_keeps hostOps0
theorem keep_arg11_2 : W2 m ρ c (Proc.devRef .tc main_arg11) = W1 m ρ c (Proc.devRef .tc main_arg11) :=
  W2_of_ne m ρ c main_arg11 (by decide)
theorem keep_arg11_3 : W3 m ρ c (Proc.devRef .tc main_arg11) = W2 m ρ c (Proc.devRef .tc main_arg11) := by
  stretch_keeps hostOps1
theorem keep_arg11_4 : W4 m ρ c (Proc.devRef .tc main_arg11) = W3 m ρ c (Proc.devRef .tc main_arg11) :=
  W4_of_ne m ρ c main_arg11 (by decide)
theorem keep_arg11_5 : W5 m ρ c (Proc.devRef .tc main_arg11) = W4 m ρ c (Proc.devRef .tc main_arg11) := by
  stretch_keeps hostOps2
theorem keep_arg11_6 : W6 m ρ c (Proc.devRef .tc main_arg11) = W5 m ρ c (Proc.devRef .tc main_arg11) :=
  W6_of_ne m ρ c main_arg11 (by decide)
theorem keep_arg11_7 : W7 m ρ c (Proc.devRef .tc main_arg11) = W6 m ρ c (Proc.devRef .tc main_arg11) := by
  stretch_keeps hostOps3
theorem keep_arg11_8 : W8 m ρ c (Proc.devRef .tc main_arg11) = W7 m ρ c (Proc.devRef .tc main_arg11) :=
  W8_of_ne m ρ c main_arg11 (by decide)
theorem at_arg11_1 : W1 m ρ c (Proc.devRef .tc main_arg11) = m ((c : Thread nD τ).loc main_arg11) :=
  ((keep_arg11_1 m ρ c)).trans rfl
theorem at_arg11_2 : W2 m ρ c (Proc.devRef .tc main_arg11) = m ((c : Thread nD τ).loc main_arg11) :=
  ((keep_arg11_2 m ρ c).trans (keep_arg11_1 m ρ c)).trans rfl
theorem at_arg11_3 : W3 m ρ c (Proc.devRef .tc main_arg11) = m ((c : Thread nD τ).loc main_arg11) :=
  (((keep_arg11_3 m ρ c).trans (keep_arg11_2 m ρ c)).trans (keep_arg11_1 m ρ c)).trans rfl
theorem at_arg11_4 : W4 m ρ c (Proc.devRef .tc main_arg11) = m ((c : Thread nD τ).loc main_arg11) :=
  ((((keep_arg11_4 m ρ c).trans (keep_arg11_3 m ρ c)).trans (keep_arg11_2 m ρ c)).trans (keep_arg11_1 m ρ c)).trans rfl
theorem at_arg11_5 : W5 m ρ c (Proc.devRef .tc main_arg11) = m ((c : Thread nD τ).loc main_arg11) :=
  (((((keep_arg11_5 m ρ c).trans (keep_arg11_4 m ρ c)).trans (keep_arg11_3 m ρ c)).trans (keep_arg11_2 m ρ c)).trans (keep_arg11_1 m ρ c)).trans rfl
theorem at_arg11_6 : W6 m ρ c (Proc.devRef .tc main_arg11) = m ((c : Thread nD τ).loc main_arg11) :=
  ((((((keep_arg11_6 m ρ c).trans (keep_arg11_5 m ρ c)).trans (keep_arg11_4 m ρ c)).trans (keep_arg11_3 m ρ c)).trans (keep_arg11_2 m ρ c)).trans (keep_arg11_1 m ρ c)).trans rfl
theorem at_arg11_7 : W7 m ρ c (Proc.devRef .tc main_arg11) = m ((c : Thread nD τ).loc main_arg11) :=
  (((((((keep_arg11_7 m ρ c).trans (keep_arg11_6 m ρ c)).trans (keep_arg11_5 m ρ c)).trans (keep_arg11_4 m ρ c)).trans (keep_arg11_3 m ρ c)).trans (keep_arg11_2 m ρ c)).trans (keep_arg11_1 m ρ c)).trans rfl
theorem at_arg11_8 : W8 m ρ c (Proc.devRef .tc main_arg11) = m ((c : Thread nD τ).loc main_arg11) :=
  ((((((((keep_arg11_8 m ρ c).trans (keep_arg11_7 m ρ c)).trans (keep_arg11_6 m ρ c)).trans (keep_arg11_5 m ρ c)).trans (keep_arg11_4 m ρ c)).trans (keep_arg11_3 m ρ c)).trans (keep_arg11_2 m ρ c)).trans (keep_arg11_1 m ρ c)).trans rfl

theorem keep_arg12_1 : W1 m ρ c (Proc.devRef .tc main_arg12) = W0 m ρ c (Proc.devRef .tc main_arg12) := by
  stretch_keeps hostOps0
theorem keep_arg12_2 : W2 m ρ c (Proc.devRef .tc main_arg12) = W1 m ρ c (Proc.devRef .tc main_arg12) :=
  W2_of_ne m ρ c main_arg12 (by decide)
theorem keep_arg12_3 : W3 m ρ c (Proc.devRef .tc main_arg12) = W2 m ρ c (Proc.devRef .tc main_arg12) := by
  stretch_keeps hostOps1
theorem keep_arg12_4 : W4 m ρ c (Proc.devRef .tc main_arg12) = W3 m ρ c (Proc.devRef .tc main_arg12) :=
  W4_of_ne m ρ c main_arg12 (by decide)
theorem keep_arg12_5 : W5 m ρ c (Proc.devRef .tc main_arg12) = W4 m ρ c (Proc.devRef .tc main_arg12) := by
  stretch_keeps hostOps2
theorem keep_arg12_6 : W6 m ρ c (Proc.devRef .tc main_arg12) = W5 m ρ c (Proc.devRef .tc main_arg12) :=
  W6_of_ne m ρ c main_arg12 (by decide)
theorem keep_arg12_7 : W7 m ρ c (Proc.devRef .tc main_arg12) = W6 m ρ c (Proc.devRef .tc main_arg12) := by
  stretch_keeps hostOps3
theorem keep_arg12_8 : W8 m ρ c (Proc.devRef .tc main_arg12) = W7 m ρ c (Proc.devRef .tc main_arg12) :=
  W8_of_ne m ρ c main_arg12 (by decide)
theorem keep_arg12_9 : W9 m ρ c (Proc.devRef .tc main_arg12) = W8 m ρ c (Proc.devRef .tc main_arg12) := by
  stretch_keeps hostOps4
theorem keep_arg12_10 : W10 m ρ c (Proc.devRef .tc main_arg12) = W9 m ρ c (Proc.devRef .tc main_arg12) :=
  W10_of_ne m ρ c main_arg12 (by decide)
theorem at_arg12_1 : W1 m ρ c (Proc.devRef .tc main_arg12) = m ((c : Thread nD τ).loc main_arg12) :=
  ((keep_arg12_1 m ρ c)).trans rfl
theorem at_arg12_2 : W2 m ρ c (Proc.devRef .tc main_arg12) = m ((c : Thread nD τ).loc main_arg12) :=
  ((keep_arg12_2 m ρ c).trans (keep_arg12_1 m ρ c)).trans rfl
theorem at_arg12_3 : W3 m ρ c (Proc.devRef .tc main_arg12) = m ((c : Thread nD τ).loc main_arg12) :=
  (((keep_arg12_3 m ρ c).trans (keep_arg12_2 m ρ c)).trans (keep_arg12_1 m ρ c)).trans rfl
theorem at_arg12_4 : W4 m ρ c (Proc.devRef .tc main_arg12) = m ((c : Thread nD τ).loc main_arg12) :=
  ((((keep_arg12_4 m ρ c).trans (keep_arg12_3 m ρ c)).trans (keep_arg12_2 m ρ c)).trans (keep_arg12_1 m ρ c)).trans rfl
theorem at_arg12_5 : W5 m ρ c (Proc.devRef .tc main_arg12) = m ((c : Thread nD τ).loc main_arg12) :=
  (((((keep_arg12_5 m ρ c).trans (keep_arg12_4 m ρ c)).trans (keep_arg12_3 m ρ c)).trans (keep_arg12_2 m ρ c)).trans (keep_arg12_1 m ρ c)).trans rfl
theorem at_arg12_6 : W6 m ρ c (Proc.devRef .tc main_arg12) = m ((c : Thread nD τ).loc main_arg12) :=
  ((((((keep_arg12_6 m ρ c).trans (keep_arg12_5 m ρ c)).trans (keep_arg12_4 m ρ c)).trans (keep_arg12_3 m ρ c)).trans (keep_arg12_2 m ρ c)).trans (keep_arg12_1 m ρ c)).trans rfl
theorem at_arg12_7 : W7 m ρ c (Proc.devRef .tc main_arg12) = m ((c : Thread nD τ).loc main_arg12) :=
  (((((((keep_arg12_7 m ρ c).trans (keep_arg12_6 m ρ c)).trans (keep_arg12_5 m ρ c)).trans (keep_arg12_4 m ρ c)).trans (keep_arg12_3 m ρ c)).trans (keep_arg12_2 m ρ c)).trans (keep_arg12_1 m ρ c)).trans rfl
theorem at_arg12_8 : W8 m ρ c (Proc.devRef .tc main_arg12) = m ((c : Thread nD τ).loc main_arg12) :=
  ((((((((keep_arg12_8 m ρ c).trans (keep_arg12_7 m ρ c)).trans (keep_arg12_6 m ρ c)).trans (keep_arg12_5 m ρ c)).trans (keep_arg12_4 m ρ c)).trans (keep_arg12_3 m ρ c)).trans (keep_arg12_2 m ρ c)).trans (keep_arg12_1 m ρ c)).trans rfl
theorem at_arg12_9 : W9 m ρ c (Proc.devRef .tc main_arg12) = m ((c : Thread nD τ).loc main_arg12) :=
  (((((((((keep_arg12_9 m ρ c).trans (keep_arg12_8 m ρ c)).trans (keep_arg12_7 m ρ c)).trans (keep_arg12_6 m ρ c)).trans (keep_arg12_5 m ρ c)).trans (keep_arg12_4 m ρ c)).trans (keep_arg12_3 m ρ c)).trans (keep_arg12_2 m ρ c)).trans (keep_arg12_1 m ρ c)).trans rfl
theorem at_arg12_10 : W10 m ρ c (Proc.devRef .tc main_arg12) = m ((c : Thread nD τ).loc main_arg12) :=
  ((((((((((keep_arg12_10 m ρ c).trans (keep_arg12_9 m ρ c)).trans (keep_arg12_8 m ρ c)).trans (keep_arg12_7 m ρ c)).trans (keep_arg12_6 m ρ c)).trans (keep_arg12_5 m ρ c)).trans (keep_arg12_4 m ρ c)).trans (keep_arg12_3 m ρ c)).trans (keep_arg12_2 m ρ c)).trans (keep_arg12_1 m ρ c)).trans rfl

theorem keep_arg13_1 : W1 m ρ c (Proc.devRef .tc main_arg13) = W0 m ρ c (Proc.devRef .tc main_arg13) := by
  stretch_keeps hostOps0
theorem keep_arg13_2 : W2 m ρ c (Proc.devRef .tc main_arg13) = W1 m ρ c (Proc.devRef .tc main_arg13) :=
  W2_of_ne m ρ c main_arg13 (by decide)
theorem keep_arg13_3 : W3 m ρ c (Proc.devRef .tc main_arg13) = W2 m ρ c (Proc.devRef .tc main_arg13) := by
  stretch_keeps hostOps1
theorem keep_arg13_4 : W4 m ρ c (Proc.devRef .tc main_arg13) = W3 m ρ c (Proc.devRef .tc main_arg13) :=
  W4_of_ne m ρ c main_arg13 (by decide)
theorem keep_arg13_5 : W5 m ρ c (Proc.devRef .tc main_arg13) = W4 m ρ c (Proc.devRef .tc main_arg13) := by
  stretch_keeps hostOps2
theorem keep_arg13_6 : W6 m ρ c (Proc.devRef .tc main_arg13) = W5 m ρ c (Proc.devRef .tc main_arg13) :=
  W6_of_ne m ρ c main_arg13 (by decide)
theorem keep_arg13_7 : W7 m ρ c (Proc.devRef .tc main_arg13) = W6 m ρ c (Proc.devRef .tc main_arg13) := by
  stretch_keeps hostOps3
theorem keep_arg13_8 : W8 m ρ c (Proc.devRef .tc main_arg13) = W7 m ρ c (Proc.devRef .tc main_arg13) :=
  W8_of_ne m ρ c main_arg13 (by decide)
theorem keep_arg13_9 : W9 m ρ c (Proc.devRef .tc main_arg13) = W8 m ρ c (Proc.devRef .tc main_arg13) := by
  stretch_keeps hostOps4
theorem keep_arg13_10 : W10 m ρ c (Proc.devRef .tc main_arg13) = W9 m ρ c (Proc.devRef .tc main_arg13) :=
  W10_of_ne m ρ c main_arg13 (by decide)
theorem at_arg13_1 : W1 m ρ c (Proc.devRef .tc main_arg13) = m ((c : Thread nD τ).loc main_arg13) :=
  ((keep_arg13_1 m ρ c)).trans rfl
theorem at_arg13_2 : W2 m ρ c (Proc.devRef .tc main_arg13) = m ((c : Thread nD τ).loc main_arg13) :=
  ((keep_arg13_2 m ρ c).trans (keep_arg13_1 m ρ c)).trans rfl
theorem at_arg13_3 : W3 m ρ c (Proc.devRef .tc main_arg13) = m ((c : Thread nD τ).loc main_arg13) :=
  (((keep_arg13_3 m ρ c).trans (keep_arg13_2 m ρ c)).trans (keep_arg13_1 m ρ c)).trans rfl
theorem at_arg13_4 : W4 m ρ c (Proc.devRef .tc main_arg13) = m ((c : Thread nD τ).loc main_arg13) :=
  ((((keep_arg13_4 m ρ c).trans (keep_arg13_3 m ρ c)).trans (keep_arg13_2 m ρ c)).trans (keep_arg13_1 m ρ c)).trans rfl
theorem at_arg13_5 : W5 m ρ c (Proc.devRef .tc main_arg13) = m ((c : Thread nD τ).loc main_arg13) :=
  (((((keep_arg13_5 m ρ c).trans (keep_arg13_4 m ρ c)).trans (keep_arg13_3 m ρ c)).trans (keep_arg13_2 m ρ c)).trans (keep_arg13_1 m ρ c)).trans rfl
theorem at_arg13_6 : W6 m ρ c (Proc.devRef .tc main_arg13) = m ((c : Thread nD τ).loc main_arg13) :=
  ((((((keep_arg13_6 m ρ c).trans (keep_arg13_5 m ρ c)).trans (keep_arg13_4 m ρ c)).trans (keep_arg13_3 m ρ c)).trans (keep_arg13_2 m ρ c)).trans (keep_arg13_1 m ρ c)).trans rfl
theorem at_arg13_7 : W7 m ρ c (Proc.devRef .tc main_arg13) = m ((c : Thread nD τ).loc main_arg13) :=
  (((((((keep_arg13_7 m ρ c).trans (keep_arg13_6 m ρ c)).trans (keep_arg13_5 m ρ c)).trans (keep_arg13_4 m ρ c)).trans (keep_arg13_3 m ρ c)).trans (keep_arg13_2 m ρ c)).trans (keep_arg13_1 m ρ c)).trans rfl
theorem at_arg13_8 : W8 m ρ c (Proc.devRef .tc main_arg13) = m ((c : Thread nD τ).loc main_arg13) :=
  ((((((((keep_arg13_8 m ρ c).trans (keep_arg13_7 m ρ c)).trans (keep_arg13_6 m ρ c)).trans (keep_arg13_5 m ρ c)).trans (keep_arg13_4 m ρ c)).trans (keep_arg13_3 m ρ c)).trans (keep_arg13_2 m ρ c)).trans (keep_arg13_1 m ρ c)).trans rfl
theorem at_arg13_9 : W9 m ρ c (Proc.devRef .tc main_arg13) = m ((c : Thread nD τ).loc main_arg13) :=
  (((((((((keep_arg13_9 m ρ c).trans (keep_arg13_8 m ρ c)).trans (keep_arg13_7 m ρ c)).trans (keep_arg13_6 m ρ c)).trans (keep_arg13_5 m ρ c)).trans (keep_arg13_4 m ρ c)).trans (keep_arg13_3 m ρ c)).trans (keep_arg13_2 m ρ c)).trans (keep_arg13_1 m ρ c)).trans rfl
theorem at_arg13_10 : W10 m ρ c (Proc.devRef .tc main_arg13) = m ((c : Thread nD τ).loc main_arg13) :=
  ((((((((((keep_arg13_10 m ρ c).trans (keep_arg13_9 m ρ c)).trans (keep_arg13_8 m ρ c)).trans (keep_arg13_7 m ρ c)).trans (keep_arg13_6 m ρ c)).trans (keep_arg13_5 m ρ c)).trans (keep_arg13_4 m ρ c)).trans (keep_arg13_3 m ρ c)).trans (keep_arg13_2 m ρ c)).trans (keep_arg13_1 m ρ c)).trans rfl

theorem keep_v1_2 : W2 m ρ c (Proc.devRef .tc main_v1) = W1 m ρ c (Proc.devRef .tc main_v1) :=
  W2_of_ne m ρ c main_v1 (by decide)
theorem keep_v1_3 : W3 m ρ c (Proc.devRef .tc main_v1) = W2 m ρ c (Proc.devRef .tc main_v1) := by
  stretch_keeps hostOps1
theorem keep_v1_4 : W4 m ρ c (Proc.devRef .tc main_v1) = W3 m ρ c (Proc.devRef .tc main_v1) :=
  W4_of_ne m ρ c main_v1 (by decide)
theorem keep_v1_5 : W5 m ρ c (Proc.devRef .tc main_v1) = W4 m ρ c (Proc.devRef .tc main_v1) := by
  stretch_keeps hostOps2
theorem keep_v1_6 : W6 m ρ c (Proc.devRef .tc main_v1) = W5 m ρ c (Proc.devRef .tc main_v1) :=
  W6_of_ne m ρ c main_v1 (by decide)
theorem keep_v1_7 : W7 m ρ c (Proc.devRef .tc main_v1) = W6 m ρ c (Proc.devRef .tc main_v1) := by
  stretch_keeps hostOps3
theorem keep_v1_8 : W8 m ρ c (Proc.devRef .tc main_v1) = W7 m ρ c (Proc.devRef .tc main_v1) :=
  W8_of_ne m ρ c main_v1 (by decide)
theorem keep_v1_9 : W9 m ρ c (Proc.devRef .tc main_v1) = W8 m ρ c (Proc.devRef .tc main_v1) := by
  stretch_keeps hostOps4
theorem keep_v1_10 : W10 m ρ c (Proc.devRef .tc main_v1) = W9 m ρ c (Proc.devRef .tc main_v1) :=
  W10_of_ne m ρ c main_v1 (by decide)
theorem at_v1_2 : W2 m ρ c (Proc.devRef .tc main_v1) = W1 m ρ c (Proc.devRef .tc main_v1) :=
  (keep_v1_2 m ρ c)
theorem at_v1_3 : W3 m ρ c (Proc.devRef .tc main_v1) = W1 m ρ c (Proc.devRef .tc main_v1) :=
  (keep_v1_3 m ρ c).trans (keep_v1_2 m ρ c)
theorem at_v1_4 : W4 m ρ c (Proc.devRef .tc main_v1) = W1 m ρ c (Proc.devRef .tc main_v1) :=
  ((keep_v1_4 m ρ c).trans (keep_v1_3 m ρ c)).trans (keep_v1_2 m ρ c)
theorem at_v1_5 : W5 m ρ c (Proc.devRef .tc main_v1) = W1 m ρ c (Proc.devRef .tc main_v1) :=
  (((keep_v1_5 m ρ c).trans (keep_v1_4 m ρ c)).trans (keep_v1_3 m ρ c)).trans (keep_v1_2 m ρ c)
theorem at_v1_6 : W6 m ρ c (Proc.devRef .tc main_v1) = W1 m ρ c (Proc.devRef .tc main_v1) :=
  ((((keep_v1_6 m ρ c).trans (keep_v1_5 m ρ c)).trans (keep_v1_4 m ρ c)).trans (keep_v1_3 m ρ c)).trans (keep_v1_2 m ρ c)
theorem at_v1_7 : W7 m ρ c (Proc.devRef .tc main_v1) = W1 m ρ c (Proc.devRef .tc main_v1) :=
  (((((keep_v1_7 m ρ c).trans (keep_v1_6 m ρ c)).trans (keep_v1_5 m ρ c)).trans (keep_v1_4 m ρ c)).trans (keep_v1_3 m ρ c)).trans (keep_v1_2 m ρ c)
theorem at_v1_8 : W8 m ρ c (Proc.devRef .tc main_v1) = W1 m ρ c (Proc.devRef .tc main_v1) :=
  ((((((keep_v1_8 m ρ c).trans (keep_v1_7 m ρ c)).trans (keep_v1_6 m ρ c)).trans (keep_v1_5 m ρ c)).trans (keep_v1_4 m ρ c)).trans (keep_v1_3 m ρ c)).trans (keep_v1_2 m ρ c)
theorem at_v1_9 : W9 m ρ c (Proc.devRef .tc main_v1) = W1 m ρ c (Proc.devRef .tc main_v1) :=
  (((((((keep_v1_9 m ρ c).trans (keep_v1_8 m ρ c)).trans (keep_v1_7 m ρ c)).trans (keep_v1_6 m ρ c)).trans (keep_v1_5 m ρ c)).trans (keep_v1_4 m ρ c)).trans (keep_v1_3 m ρ c)).trans (keep_v1_2 m ρ c)
theorem at_v1_10 : W10 m ρ c (Proc.devRef .tc main_v1) = W1 m ρ c (Proc.devRef .tc main_v1) :=
  ((((((((keep_v1_10 m ρ c).trans (keep_v1_9 m ρ c)).trans (keep_v1_8 m ρ c)).trans (keep_v1_7 m ρ c)).trans (keep_v1_6 m ρ c)).trans (keep_v1_5 m ρ c)).trans (keep_v1_4 m ρ c)).trans (keep_v1_3 m ρ c)).trans (keep_v1_2 m ρ c)

theorem keep_v3_2 : W2 m ρ c (Proc.devRef .tc main_v3) = W1 m ρ c (Proc.devRef .tc main_v3) :=
  W2_of_ne m ρ c main_v3 (by decide)
theorem keep_v3_3 : W3 m ρ c (Proc.devRef .tc main_v3) = W2 m ρ c (Proc.devRef .tc main_v3) := by
  stretch_keeps hostOps1
theorem keep_v3_4 : W4 m ρ c (Proc.devRef .tc main_v3) = W3 m ρ c (Proc.devRef .tc main_v3) :=
  W4_of_ne m ρ c main_v3 (by decide)
theorem keep_v3_5 : W5 m ρ c (Proc.devRef .tc main_v3) = W4 m ρ c (Proc.devRef .tc main_v3) := by
  stretch_keeps hostOps2
theorem keep_v3_6 : W6 m ρ c (Proc.devRef .tc main_v3) = W5 m ρ c (Proc.devRef .tc main_v3) :=
  W6_of_ne m ρ c main_v3 (by decide)
theorem keep_v3_7 : W7 m ρ c (Proc.devRef .tc main_v3) = W6 m ρ c (Proc.devRef .tc main_v3) := by
  stretch_keeps hostOps3
theorem keep_v3_8 : W8 m ρ c (Proc.devRef .tc main_v3) = W7 m ρ c (Proc.devRef .tc main_v3) :=
  W8_of_ne m ρ c main_v3 (by decide)
theorem keep_v3_9 : W9 m ρ c (Proc.devRef .tc main_v3) = W8 m ρ c (Proc.devRef .tc main_v3) := by
  stretch_keeps hostOps4
theorem keep_v3_10 : W10 m ρ c (Proc.devRef .tc main_v3) = W9 m ρ c (Proc.devRef .tc main_v3) :=
  W10_of_ne m ρ c main_v3 (by decide)
theorem at_v3_2 : W2 m ρ c (Proc.devRef .tc main_v3) = W1 m ρ c (Proc.devRef .tc main_v3) :=
  (keep_v3_2 m ρ c)
theorem at_v3_3 : W3 m ρ c (Proc.devRef .tc main_v3) = W1 m ρ c (Proc.devRef .tc main_v3) :=
  (keep_v3_3 m ρ c).trans (keep_v3_2 m ρ c)
theorem at_v3_4 : W4 m ρ c (Proc.devRef .tc main_v3) = W1 m ρ c (Proc.devRef .tc main_v3) :=
  ((keep_v3_4 m ρ c).trans (keep_v3_3 m ρ c)).trans (keep_v3_2 m ρ c)
theorem at_v3_5 : W5 m ρ c (Proc.devRef .tc main_v3) = W1 m ρ c (Proc.devRef .tc main_v3) :=
  (((keep_v3_5 m ρ c).trans (keep_v3_4 m ρ c)).trans (keep_v3_3 m ρ c)).trans (keep_v3_2 m ρ c)
theorem at_v3_6 : W6 m ρ c (Proc.devRef .tc main_v3) = W1 m ρ c (Proc.devRef .tc main_v3) :=
  ((((keep_v3_6 m ρ c).trans (keep_v3_5 m ρ c)).trans (keep_v3_4 m ρ c)).trans (keep_v3_3 m ρ c)).trans (keep_v3_2 m ρ c)
theorem at_v3_7 : W7 m ρ c (Proc.devRef .tc main_v3) = W1 m ρ c (Proc.devRef .tc main_v3) :=
  (((((keep_v3_7 m ρ c).trans (keep_v3_6 m ρ c)).trans (keep_v3_5 m ρ c)).trans (keep_v3_4 m ρ c)).trans (keep_v3_3 m ρ c)).trans (keep_v3_2 m ρ c)
theorem at_v3_8 : W8 m ρ c (Proc.devRef .tc main_v3) = W1 m ρ c (Proc.devRef .tc main_v3) :=
  ((((((keep_v3_8 m ρ c).trans (keep_v3_7 m ρ c)).trans (keep_v3_6 m ρ c)).trans (keep_v3_5 m ρ c)).trans (keep_v3_4 m ρ c)).trans (keep_v3_3 m ρ c)).trans (keep_v3_2 m ρ c)
theorem at_v3_9 : W9 m ρ c (Proc.devRef .tc main_v3) = W1 m ρ c (Proc.devRef .tc main_v3) :=
  (((((((keep_v3_9 m ρ c).trans (keep_v3_8 m ρ c)).trans (keep_v3_7 m ρ c)).trans (keep_v3_6 m ρ c)).trans (keep_v3_5 m ρ c)).trans (keep_v3_4 m ρ c)).trans (keep_v3_3 m ρ c)).trans (keep_v3_2 m ρ c)
theorem at_v3_10 : W10 m ρ c (Proc.devRef .tc main_v3) = W1 m ρ c (Proc.devRef .tc main_v3) :=
  ((((((((keep_v3_10 m ρ c).trans (keep_v3_9 m ρ c)).trans (keep_v3_8 m ρ c)).trans (keep_v3_7 m ρ c)).trans (keep_v3_6 m ρ c)).trans (keep_v3_5 m ρ c)).trans (keep_v3_4 m ρ c)).trans (keep_v3_3 m ρ c)).trans (keep_v3_2 m ρ c)

theorem keep_v17_3 : W3 m ρ c (Proc.devRef .tc main_v17) = W2 m ρ c (Proc.devRef .tc main_v17) := by
  stretch_keeps hostOps1
theorem keep_v17_4 : W4 m ρ c (Proc.devRef .tc main_v17) = W3 m ρ c (Proc.devRef .tc main_v17) :=
  (W4_arr m ρ c 0).trans (((dat1 (V3 m ρ) c).arrAt_in 0 rfl _).trans (A_eq1 (V3 m ρ) c 0))
theorem keep_v17_5 : W5 m ρ c (Proc.devRef .tc main_v17) = W4 m ρ c (Proc.devRef .tc main_v17) := by
  stretch_keeps hostOps2
theorem at_v17_3 : W3 m ρ c (Proc.devRef .tc main_v17) = W2 m ρ c (Proc.devRef .tc main_v17) :=
  (keep_v17_3 m ρ c)
theorem at_v17_4 : W4 m ρ c (Proc.devRef .tc main_v17) = W2 m ρ c (Proc.devRef .tc main_v17) :=
  (keep_v17_4 m ρ c).trans (keep_v17_3 m ρ c)
theorem at_v17_5 : W5 m ρ c (Proc.devRef .tc main_v17) = W2 m ρ c (Proc.devRef .tc main_v17) :=
  ((keep_v17_5 m ρ c).trans (keep_v17_4 m ρ c)).trans (keep_v17_3 m ρ c)

theorem keep_v33_7 : W7 m ρ c (Proc.devRef .tc main_v33) = W6 m ρ c (Proc.devRef .tc main_v33) := by
  stretch_keeps hostOps3
theorem at_v33_7 : W7 m ρ c (Proc.devRef .tc main_v33) = W6 m ρ c (Proc.devRef .tc main_v33) :=
  (keep_v33_7 m ρ c)

theorem keep_v49_9 : W9 m ρ c (Proc.devRef .tc main_v49) = W8 m ρ c (Proc.devRef .tc main_v49) := by
  stretch_keeps hostOps4
theorem keep_v49_10 : W10 m ρ c (Proc.devRef .tc main_v49) = W9 m ρ c (Proc.devRef .tc main_v49) :=
  (W10_arr m ρ c 0).trans (((dat4 (V9 m ρ) c).arrAt_in 0 rfl _).trans (A_eq4 (V9 m ρ) c 0))
theorem keep_v49_11 : W11 m ρ c (Proc.devRef .tc main_v49) = W10 m ρ c (Proc.devRef .tc main_v49) := by
  stretch_keeps hostOps5
theorem at_v49_9 : W9 m ρ c (Proc.devRef .tc main_v49) = W8 m ρ c (Proc.devRef .tc main_v49) :=
  (keep_v49_9 m ρ c)
theorem at_v49_10 : W10 m ρ c (Proc.devRef .tc main_v49) = W8 m ρ c (Proc.devRef .tc main_v49) :=
  (keep_v49_10 m ρ c).trans (keep_v49_9 m ρ c)
theorem at_v49_11 : W11 m ρ c (Proc.devRef .tc main_v49) = W8 m ρ c (Proc.devRef .tc main_v49) :=
  ((keep_v49_11 m ρ c).trans (keep_v49_10 m ρ c)).trans (keep_v49_9 m ρ c)

theorem keep_v34_8 : W8 m ρ c (Proc.devRef .tc main_v34) = W7 m ρ c (Proc.devRef .tc main_v34) :=
  W8_of_ne m ρ c main_v34 (by decide)
theorem keep_v34_9 : W9 m ρ c (Proc.devRef .tc main_v34) = W8 m ρ c (Proc.devRef .tc main_v34) := by
  stretch_keeps hostOps4
theorem keep_v34_10 : W10 m ρ c (Proc.devRef .tc main_v34) = W9 m ρ c (Proc.devRef .tc main_v34) :=
  W10_of_ne m ρ c main_v34 (by decide)
theorem keep_v34_11 : W11 m ρ c (Proc.devRef .tc main_v34) = W10 m ρ c (Proc.devRef .tc main_v34) := by
  stretch_keeps hostOps5
theorem keep_v34_12 : W12 m ρ c (Proc.devRef .tc main_v34) = W11 m ρ c (Proc.devRef .tc main_v34) :=
  W12_of_ne m ρ c main_v34 (by decide)
theorem keep_v34_13 : W13 m ρ c (Proc.devRef .tc main_v34) = W12 m ρ c (Proc.devRef .tc main_v34) := by
  stretch_keeps hostOps6
theorem at_v34_8 : W8 m ρ c (Proc.devRef .tc main_v34) = W7 m ρ c (Proc.devRef .tc main_v34) :=
  (keep_v34_8 m ρ c)
theorem at_v34_9 : W9 m ρ c (Proc.devRef .tc main_v34) = W7 m ρ c (Proc.devRef .tc main_v34) :=
  (keep_v34_9 m ρ c).trans (keep_v34_8 m ρ c)
theorem at_v34_10 : W10 m ρ c (Proc.devRef .tc main_v34) = W7 m ρ c (Proc.devRef .tc main_v34) :=
  ((keep_v34_10 m ρ c).trans (keep_v34_9 m ρ c)).trans (keep_v34_8 m ρ c)
theorem at_v34_11 : W11 m ρ c (Proc.devRef .tc main_v34) = W7 m ρ c (Proc.devRef .tc main_v34) :=
  (((keep_v34_11 m ρ c).trans (keep_v34_10 m ρ c)).trans (keep_v34_9 m ρ c)).trans (keep_v34_8 m ρ c)
theorem at_v34_12 : W12 m ρ c (Proc.devRef .tc main_v34) = W7 m ρ c (Proc.devRef .tc main_v34) :=
  ((((keep_v34_12 m ρ c).trans (keep_v34_11 m ρ c)).trans (keep_v34_10 m ρ c)).trans (keep_v34_9 m ρ c)).trans (keep_v34_8 m ρ c)
theorem at_v34_13 : W13 m ρ c (Proc.devRef .tc main_v34) = W7 m ρ c (Proc.devRef .tc main_v34) :=
  (((((keep_v34_13 m ρ c).trans (keep_v34_12 m ρ c)).trans (keep_v34_11 m ρ c)).trans (keep_v34_10 m ρ c)).trans (keep_v34_9 m ρ c)).trans (keep_v34_8 m ρ c)

end Cert.KernelIdeal.RunValue

end
-- ==== Proof.KernelHost.lean ====
/-
  The host stretches of the idealized kernel's @main, read as the specification's functions of the launched
  arrays: the edge rows and their index arrays, the transposed weights, the biases as rows, and — before
  regions 0, 2, 3 and 5 — the aggregation of a node array along the edges.
-/
import proofs.«128899_j82635170775050_2_alg».proof.Proof.Gen.KernelIdeal.Frame
import proofs.«128899_j82635170775050_2_alg».proof.Proof.Spec
import proofs.«128899_j82635170775050_2_alg».proof.Proof.LibEdges
import proofs.«128899_j82635170775050_2_alg».proof.Proof.LibLayout
import proofs.«128899_j82635170775050_2_alg».proof.Proof.EdgeIdx
import proofs.«128899_j82635170775050_2_alg».proof.Proof.ParamsOf
import proofs.«128899_j82635170775050_2_alg».proof.Proof.KernelCarry

set_option maxRecDepth 16384

noncomputable section

namespace Cert.KernelIdeal.RunValue

open Idealize.ShloMosaic Idealize.ShloMosaic.TcCoe Idealize.ShloMosaic.Tactic Idealize.ShloMosaic.ValueIdx
open Idealize.SL.Sem
open Cert.KernelIdeal Cert.KernelIdeal.Gen Cert.GC Cert.Proof

variable (m : (ℓ : Loc nD τ sig) → Buf (Elt Ideal) ℓ) (ρ : Dev nD → PrngReg) (c : Dev nD)

/-- The node features as launched. -/
abbrev xOf : A2 50000 128 := m ((c.tc : Thread nD τ).loc main_arg0)
/-- The edge array as launched: row 0 the sources, row 1 the targets. -/
abbrev eiOf : EdgeArr := m ((c.tc : Thread nD τ).loc main_arg1)
/-- Every edge's source node index (a negative one wrapped once) and target node index. -/
abbrev srcK : EI 800000 := srcOf (eiOf m c)
abbrev dstK : EI 800000 := dstOf (eiOf m c)

/-! ## Stretch 0: the edge rows -/

theorem row0_at1 : @Eq ((⟨1, ![800000]⟩ : Shape).Idx → BitVec 32) (W1 m ρ c (Proc.devRef .tc main_v1)) (edgeRow0 (eiOf m c)) := by
  dsimp only [W1, hostOps0]; after_results; rfl

theorem row1_at1 : @Eq ((⟨1, ![800000]⟩ : Shape).Idx → BitVec 32) (W1 m ρ c (Proc.devRef .tc main_v3)) (edgeRow1 (eiOf m c)) := by
  dsimp only [W1, hostOps0]; after_results; rfl

/-- The aggregation of the node features, before region 0. -/
theorem agg_at1 : @Eq (A2 50000 128) (W1 m ρ c (Proc.devRef .tc main_v13)) (segsum hN (srcK m c) (dstK m c) (xOf m c)) := by
  dsimp only [W1, hostOps0]; after_results
  exact segsum_host _ _ _ _ _ _

/-! ## The transposed weights -/

theorem wrel0T_at1 : @Eq (A2 128 256) (W1 m ρ c (Proc.devRef .tc main_v14)) (tr (paramsOf m c).wrel0) := by
  dsimp only [W1, hostOps0]; after_results
  exact transpose_eq_tr _ _

theorem wroot0T_at1 : @Eq (A2 128 256) (W1 m ρ c (Proc.devRef .tc main_v15)) (tr (paramsOf m c).wroot0) := by
  dsimp only [W1, hostOps0]; after_results
  exact transpose_eq_tr _ _

theorem wrel1T_at3 : @Eq (A2 256 64) (W3 m ρ c (Proc.devRef .tc main_v18)) (tr (paramsOf m c).wrel1) := by
  dsimp only [W3, hostOps1]; after_results
  rw [at_arg5_2 m ρ c]
  exact transpose_eq_tr _ _

theorem wroot1T_at5 : @Eq (A2 256 64) (W5 m ρ c (Proc.devRef .tc main_v31)) (tr (paramsOf m c).wroot1) := by
  dsimp only [W5, hostOps2]; after_results
  rw [at_arg6_4 m ρ c]
  exact transpose_eq_tr _ _

theorem wrel2T_at7 : @Eq (A2 64 256) (W7 m ρ c (Proc.devRef .tc main_v46)) (tr (paramsOf m c).wrel2) := by
  dsimp only [W7, hostOps3]; after_results
  rw [at_arg8_6 m ρ c]
  exact transpose_eq_tr _ _

theorem wroot2T_at7 : @Eq (A2 64 256) (W7 m ρ c (Proc.devRef .tc main_v47)) (tr (paramsOf m c).wroot2) := by
  dsimp only [W7, hostOps3]; after_results
  rw [at_arg9_6 m ρ c]
  exact transpose_eq_tr _ _

theorem wrel3T_at9 : @Eq (A2 256 128) (W9 m ρ c (Proc.devRef .tc main_v50)) (tr (paramsOf m c).wrel3) := by
  dsimp only [W9, hostOps4]; after_results
  rw [at_arg11_8 m ρ c]
  exact transpose_eq_tr _ _

theorem wroot3T_at11 : @Eq (A2 256 128) (W11 m ρ c (Proc.devRef .tc main_v63)) (tr (paramsOf m c).wroot3) := by
  dsimp only [W11, hostOps5]; after_results
  rw [at_arg12_10 m ρ c]
  exact transpose_eq_tr _ _

/-! ## The biases as rows -/

theorem b0row_at1 : @Eq (A2 1 256) (W1 m ρ c (Proc.devRef .tc main_v16))
    (shapeCast ⟨2, ![1, 256]⟩ ((paramsOf m c).b0) shapeCasts_S256_S1x256) := by
  dsimp only [W1, hostOps0]; after_results
  rfl

theorem b0_at1 : (fun i : (⟨1, ![256]⟩ : Shape).Idx => (W1 m ρ c (Proc.devRef .tc main_v16) : A2 1 256) (ix2 (0 : Fin 1) ⟨(i 0).val, (i 0).isLt⟩))
    = (paramsOf m c).b0 :=
  (congrArg (fun (B : A2 1 256) => fun i : (⟨1, ![256]⟩ : Shape).Idx => B (ix2 (0 : Fin 1) ⟨(i 0).val, (i 0).isLt⟩)) (b0row_at1 m ρ c)).trans
    (row_of_cast _ _)

theorem b1row_at5 : @Eq (A2 1 64) (W5 m ρ c (Proc.devRef .tc main_v32))
    (shapeCast ⟨2, ![1, 64]⟩ ((paramsOf m c).b1) shapeCasts_S64_S1x64) := by
  dsimp only [W5, hostOps2]; after_results
  rw [at_arg7_4 m ρ c]
  rfl

theorem b1_at5 : (fun i : (⟨1, ![64]⟩ : Shape).Idx => (W5 m ρ c (Proc.devRef .tc main_v32) : A2 1 64) (ix2 (0 : Fin 1) ⟨(i 0).val, (i 0).isLt⟩))
    = (paramsOf m c).b1 :=
  (congrArg (fun (B : A2 1 64) => fun i : (⟨1, ![64]⟩ : Shape).Idx => B (ix2 (0 : Fin 1) ⟨(i 0).val, (i 0).isLt⟩)) (b1row_at5 m ρ c)).trans
    (row_of_cast _ _)

theorem b2row_at7 : @Eq (A2 1 256) (W7 m ρ c (Proc.devRef .tc main_v48))
    (shapeCast ⟨2, ![1, 256]⟩ ((paramsOf m c).b2) shapeCasts_S256_S1x256) := by
  dsimp only [W7, hostOps3]; after_results
  rw [at_arg10_6 m ρ c]
  rfl

theorem b2_at7 : (fun i : (⟨1, ![256]⟩ : Shape).Idx => (W7 m ρ c (Proc.devRef .tc main_v48) : A2 1 256) (ix2 (0 : Fin 1) ⟨(i 0).val, (i 0).isLt⟩))
    = (paramsOf m c).b2 :=
  (congrArg (fun (B : A2 1 256) => fun i : (⟨1, ![256]⟩ : Shape).Idx => B (ix2 (0 : Fin 1) ⟨(i 0).val, (i 0).isLt⟩)) (b2row_at7 m ρ c)).trans
    (row_of_cast _ _)

theorem b3row_at11 : @Eq (A2 1 128) (W11 m ρ c (Proc.devRef .tc main_v64))
    (shapeCast ⟨2, ![1, 128]⟩ ((paramsOf m c).b3) shapeCasts_S128_S1x128) := by
  dsimp only [W11, hostOps5]; after_results
  rw [at_arg13_10 m ρ c]
  rfl

theorem b3_at11 : (fun i : (⟨1, ![128]⟩ : Shape).Idx => (W11 m ρ c (Proc.devRef .tc main_v64) : A2 1 128) (ix2 (0 : Fin 1) ⟨(i 0).val, (i 0).isLt⟩))
    = (paramsOf m c).b3 :=
  (congrArg (fun (B : A2 1 128) => fun i : (⟨1, ![128]⟩ : Shape).Idx => B (ix2 (0 : Fin 1) ⟨(i 0).val, (i 0).isLt⟩)) (b3row_at11 m ρ c)).trans
    (row_of_cast _ _)

/-! ## The aggregations before regions 2, 3 and 5: of whatever array the previous region left -/

theorem agg_at5 (A : A2 50000 64) (hA : @Eq (A2 50000 64) (W4 m ρ c (Proc.devRef .tc main_v19)) A) :
    @Eq (A2 50000 64) (W5 m ρ c (Proc.devRef .tc main_v30)) (segsum hN (srcK m c) (dstK m c) A) := by
  dsimp only [W5, hostOps2]; after_results
  rw [at_v1_4 m ρ c, at_v3_4 m ρ c, row0_at1 m ρ c, row1_at1 m ρ c, hA]
  exact segsum_host _ _ _ _ _ _

set_option maxHeartbeats 4000000 in
theorem agg_at7 (A : A2 50000 64) (hA : @Eq (A2 50000 64) (W6 m ρ c (Proc.devRef .tc main_v33)) A) :
    @Eq (A2 50000 64) (W7 m ρ c (Proc.devRef .tc main_v45)) (segsum hN (srcK m c) (dstK m c) A) := by
  dsimp only [W7, hostOps3]; after_results
  rw [at_v1_6 m ρ c, at_v3_6 m ρ c, row0_at1 m ρ c, row1_at1 m ρ c, hA]
  exact segsum_host _ _ _ _ _ _

set_option maxHeartbeats 4000000 in
theorem agg_at11 (A : A2 50000 128) (hA : @Eq (A2 50000 128) (W10 m ρ c (Proc.devRef .tc main_v51)) A) :
    @Eq (A2 50000 128) (W11 m ρ c (Proc.devRef .tc main_v62)) (segsum hN (srcK m c) (dstK m c) A) := by
  dsimp only [W11, hostOps5]; after_results
  rw [at_v1_10 m ρ c, at_v3_10 m ρ c, row0_at1 m ρ c, row1_at1 m ρ c, hA]
  exact segsum_host _ _ _ _ _ _

/-! ## The two widenings to the results -/

theorem emb_at7 (A : A2 50000 64) (hA : @Eq (A2 50000 64) (W6 m ρ c (Proc.devRef .tc main_v33)) A) :
    @Eq (A2 50000 64) (W7 m ρ c (Proc.devRef .tc main_v34)) A := by
  dsimp only [W7, hostOps3]; after_results
  rw [hA]; rfl

theorem out_at13 (A : A2 50000 128) (hA : @Eq (A2 50000 128) (W12 m ρ c (Proc.devRef .tc main_v65)) A) :
    @Eq (A2 50000 128) (W13 m ρ c (Proc.devRef .tc main_v66)) A := by
  dsimp only [W13, hostOps6]; after_results
  rw [hA]; rfl

end Cert.KernelIdeal.RunValue

end
-- ==== Proof.KernelRun.lean ====
/-
  The idealized kernel program's run, with its two result arrays named.

  @main is thirteen segments: seven stretches of host operations around six pipelined regions.  The
  buffer contents at the segment boundaries are a fold from the launch memory; every weakly fair
  execution terminates without a fault in a state whose unscoped buffers hold the last boundary's
  contents.  Read at the two result buffers and at the fourteen arguments, this is the run the value
  claim needs: the results at the fold's last contents, the arguments as launched.
-/
import proofs.«128899_j82635170775050_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the reconstruction and the
    embedding at the last boundary's contents of their buffers and every argument array as launched. -/
theorem run_results : θ_run defs (onTc (τ := τ) (main (F := F))) ⟨m, fun _ => 0, ρ⟩ (fun r => ∀ c : Dev nD,
      r.2.mem ((c.tc : Thread nD τ).loc main_v66) = W13 m ρ c (Proc.devRef .tc main_v66)
      ∧ r.2.mem ((c.tc : Thread nD τ).loc main_v34) = W13 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v66 (by decide)),
       h c _ (mem_uc main_v34 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.RunValue

end
-- ==== Proof.RegionLibA.lean ====
/-
  Pointwise readings shared by the two layers that aggregate before multiplying: a product into the zero
  accumulator read at an entry, a [1, m] row broadcast down the rows read at an entry, the comparison,
  scaling and selection that make up the leaky map, and from these each layer's payload at an entry of a block.
-/
import proofs.«128899_j82635170775050_2_alg».proof.Proof.Spec
import proofs.«128899_j82635170775050_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.RegionValue

open Idealize.ShloMosaic Idealize.ShloMosaic.ValueIdx Cert.GC

/-- Comparing against the zero word, scaling by the slope word and selecting between the two is the leaky map. -/
theorem leaky_at (a : Ideal .f32) :
    Scalar.select (FloatOps.cmpf .oge a (Scalar.ofBits (F := Ideal) .f32 0x00000000#32)) a
      (FloatOps.mulf (Scalar.ofBits (F := Ideal) .f32 0x3C23D70A#32) a) = lk a := by
  unfold Cert.GC.lk Cert.GC.slope
  rw [Ideal.cmpf_def, Ideal.mulf_def, Ideal.ofBits_def, Ideal.ofBits_def, Ideal.ofBits_zero_f32]

/-- A [1, m] row broadcast down n rows reads, at (p, q), the row's entry (0, q). -/
theorem bias_at {n m : Nat} {α : Type} (b : (⟨2, ![1, m]⟩ : Shape).Idx → α)
    (h : (⟨2, ![1, m]⟩ : Shape).Broadcasts ⟨2, ![n, m]⟩) (hm : m ≠ 1) (p : Fin n) (q : Fin m) :
    broadcastTo (⟨2, ![n, m]⟩ : Shape) b h (ix2 p q) = b (ix2 (0 : Fin 1) q) := by
  refine broadcastTo_apply b h (ix2 p q) (ix2 (0 : Fin 1) q) fun a => ?_
  match a with
  | ⟨0, _⟩ => rfl
  | ⟨1, _⟩ => exact (if_neg hm).symm

/-- A product into the zero accumulator, read at (p, q), is the sum over the contracted coordinate of the entries' products. -/
theorem mm128_at {φ₁ φ₂ : FTy} (A : FVec Ideal S2000x128 φ₁) (B : FVec Ideal S128x256 φ₂) (p : Fin 2000) (q : Fin 256) :
    matmul dot_S2000x128_S128x256_S2000x256_1_0_0_1_n_n none A B (constant (F := Ideal) S2000x256 .f32 0x00000000#32) (ix2 p q)
      = ∑ l : Fin 128, A (ix2 p l) * B (ix2 l q) := by
  show FloatOps.matmul dot_S2000x128_S128x256_S2000x256_1_0_0_1_n_n none A B _ (ix2 p q) = _
  rw [Ideal.matmul_constant_zero_apply, ← Equiv.sum_comp (contrEquiv1 dot_S2000x128_S128x256_S2000x256_1_0_0_1_n_n 128 rfl rfl).symm]
  refine Finset.sum_congr rfl fun c _ => ?_
  have c2 := contrEquiv1_symm_val dot_S2000x128_S128x256_S2000x256_1_0_0_1_n_n 128 rfl rfl c
  have l2 : (dot_S2000x128_S128x256_S2000x256_1_0_0_1_n_n).lhsIdx (ix2 p q) ((contrEquiv1 _ 128 rfl rfl).symm c) = ix2 p c := by
    funext ax; apply Fin.ext
    match ax with
    | ⟨0, _⟩ => simp [DotDims.lhsIdx, dot_S2000x128_S128x256_S2000x256_1_0_0_1_n_n]; rfl
    | ⟨1, _⟩ => simp [DotDims.lhsIdx, dot_S2000x128_S128x256_S2000x256_1_0_0_1_n_n]; exact c2
  have r2 : (dot_S2000x128_S128x256_S2000x256_1_0_0_1_n_n).rhsIdx (ix2 p q) ((contrEquiv1 _ 128 rfl rfl).symm c) = ix2 c q := by
    funext ax; apply Fin.ext
    match ax with
    | ⟨0, _⟩ => simp [DotDims.rhsIdx, dot_S2000x128_S128x256_S2000x256_1_0_0_1_n_n]; exact c2
    | ⟨1, _⟩ => simp [DotDims.rhsIdx, dot_S2000x128_S128x256_S2000x256_1_0_0_1_n_n]; rfl
  rw [l2, r2]

/-- A product into the zero accumulator, read at (p, q), is the sum over the contracted coordinate of the entries' products. -/
theorem mm64_at {φ₁ φ₂ : FTy} (A : FVec Ideal S2000x64 φ₁) (B : FVec Ideal S64x256 φ₂) (p : Fin 2000) (q : Fin 256) :
    matmul dot_S2000x64_S64x256_S2000x256_1_0_0_1_n_n none A B (constant (F := Ideal) S2000x256 .f32 0x00000000#32) (ix2 p q)
      = ∑ l : Fin 64, A (ix2 p l) * B (ix2 l q) := by
  show FloatOps.matmul dot_S2000x64_S64x256_S2000x256_1_0_0_1_n_n none A B _ (ix2 p q) = _
  rw [Ideal.matmul_constant_zero_apply, ← Equiv.sum_comp (contrEquiv1 dot_S2000x64_S64x256_S2000x256_1_0_0_1_n_n 64 rfl rfl).symm]
  refine Finset.sum_congr rfl fun c _ => ?_
  have c2 := contrEquiv1_symm_val dot_S2000x64_S64x256_S2000x256_1_0_0_1_n_n 64 rfl rfl c
  have l2 : (dot_S2000x64_S64x256_S2000x256_1_0_0_1_n_n).lhsIdx (ix2 p q) ((contrEquiv1 _ 64 rfl rfl).symm c) = ix2 p c := by
    funext ax; apply Fin.ext
    match ax with
    | ⟨0, _⟩ => simp [DotDims.lhsIdx, dot_S2000x64_S64x256_S2000x256_1_0_0_1_n_n]; rfl
    | ⟨1, _⟩ => simp [DotDims.lhsIdx, dot_S2000x64_S64x256_S2000x256_1_0_0_1_n_n]; exact c2
  have r2 : (dot_S2000x64_S64x256_S2000x256_1_0_0_1_n_n).rhsIdx (ix2 p q) ((contrEquiv1 _ 64 rfl rfl).symm c) = ix2 c q := by
    funext ax; apply Fin.ext
    match ax with
    | ⟨0, _⟩ => simp [DotDims.rhsIdx, dot_S2000x64_S64x256_S2000x256_1_0_0_1_n_n]; exact c2
    | ⟨1, _⟩ => simp [DotDims.rhsIdx, dot_S2000x64_S64x256_S2000x256_1_0_0_1_n_n]; rfl
  rw [l2, r2]

/-- The layer's payload at an entry of a block: the two products' sums over the contracted coordinate, the bias
    row's entry, and the leaky map of their sum. Narrowing and same-shape casts change nothing on extended reals. -/
theorem pay0_at (x0 : Vec Ideal S2000x128 .f32) (x1 : Vec Ideal S2000x128 .f32) (x2 x3 : Vec Ideal S128x256 .f32)
    (x4 : Vec Ideal S1x256 .f32) (p : Fin 2000) (q : Fin 256) :
    Gen.k0_pay1 (F := Ideal) x0 x1 x2 x3 x4 (ix2 p q)
      = lk ((∑ l : Fin 128, x0 (ix2 p l) * x2 (ix2 l q) + ∑ l : Fin 128, x1 (ix2 p l) * x3 (ix2 l q))
          + x4 (ix2 (0 : Fin 1) q)) := by
  unfold Gen.k0_pay1
  refine (leaky_at _).trans ?_
  refine congrArg lk ?_
  refine (addf_apply _ _ _).trans ?_
  refine congrArg₂ (· + ·) ((addf_apply _ _ _).trans (congrArg₂ (· + ·) ?_ ?_)) ?_
  · exact (mm128_at _ _ p q).trans (Finset.sum_congr rfl fun l _ =>
      congrArg₂ (· * ·) (congrFun (shapeCast_self x0 _) (ix2 p l)) (congrFun (shapeCast_self x2 _) (ix2 l q)))
  · exact (mm128_at _ _ p q).trans (Finset.sum_congr rfl fun l _ =>
      congrArg₂ (· * ·) rfl (congrFun (shapeCast_self x3 _) (ix2 l q)))
  · exact (bias_at _ _ (by decide) p q).trans (congrFun (shapeCast_self x4 _) (ix2 (0 : Fin 1) q))

/-- The layer's payload at an entry of a block: the two products' sums over the contracted coordinate, the bias
    row's entry, and the leaky map of their sum. Narrowing and same-shape casts change nothing on extended reals. -/
theorem pay3_at (x0 : Vec Ideal S2000x64 .f32) (x1 : Vec Ideal S2000x64 .bf16) (x2 x3 : Vec Ideal S64x256 .f32)
    (x4 : Vec Ideal S1x256 .f32) (p : Fin 2000) (q : Fin 256) :
    Gen.k3_pay1 (F := Ideal) x0 x1 x2 x3 x4 (ix2 p q)
      = lk ((∑ l : Fin 64, x0 (ix2 p l) * x2 (ix2 l q) + ∑ l : Fin 64, x1 (ix2 p l) * x3 (ix2 l q))
          + x4 (ix2 (0 : Fin 1) q)) := by
  unfold Gen.k3_pay1
  refine (leaky_at _).trans ?_
  refine congrArg lk ?_
  refine (addf_apply _ _ _).trans ?_
  refine congrArg₂ (· + ·) ((addf_apply _ _ _).trans (congrArg₂ (· + ·) ?_ ?_)) ?_
  · exact (mm64_at _ _ p q).trans (Finset.sum_congr rfl fun l _ =>
      congrArg₂ (· * ·) (congrFun (shapeCast_self x0 _) (ix2 p l)) (congrFun (shapeCast_self x2 _) (ix2 l q)))
  · exact (mm64_at _ _ p q).trans (Finset.sum_congr rfl fun l _ =>
      congrArg₂ (· * ·) (congrFun (shapeCast_self x1 _) (ix2 p l)) (congrFun (shapeCast_self x3 _) (ix2 l q)))
  · exact (bias_at _ _ (by decide) p q).trans (congrFun (shapeCast_self x4 _) (ix2 (0 : Fin 1) q))

/-- The same at any index of the block, its coordinates spelt out. -/
theorem pay0_idx (x0 : Vec Ideal S2000x128 .f32) (x1 : Vec Ideal S2000x128 .f32) (x2 x3 : Vec Ideal S128x256 .f32)
    (x4 : Vec Ideal S1x256 .f32) (j : S2000x256.Idx) :
    Gen.k0_pay1 (F := Ideal) x0 x1 x2 x3 x4 j
      = lk ((∑ l : Fin 128, x0 (ix2 ⟨(j 0).val, idx2_lt0 j⟩ l) * x2 (ix2 l ⟨(j 1).val, idx2_lt1 j⟩)
            + ∑ l : Fin 128, x1 (ix2 ⟨(j 0).val, idx2_lt0 j⟩ l) * x3 (ix2 l ⟨(j 1).val, idx2_lt1 j⟩))
          + x4 (ix2 (0 : Fin 1) ⟨(j 1).val, idx2_lt1 j⟩)) := by
  obtain ⟨p, q, rfl⟩ : ∃ (p : Fin 2000) (q : Fin 256), j = ix2 p q := ⟨j 0, j 1, eq_ix2 j⟩
  exact pay0_at x0 x1 x2 x3 x4 p q

/-- If, along row j₀ of the block and column j₁, the five blocks hold what the whole arrays hold along row i₀ and
    column i₁ — the aggregate and the features row by row, the two weight matrices column by column, the bias at
    the column — then the payload at j is the layer's value at i. -/
theorem block0_entry (agg x : A2 50000 128) (wr wo : A2 128 256) (bias : A2 1 256)
    (x0 : Vec Ideal S2000x128 .f32) (x1 : Vec Ideal S2000x128 .f32) (x2 x3 : Vec Ideal S128x256 .f32)
    (x4 : Vec Ideal S1x256 .f32) (j : S2000x256.Idx) (i : S50000x256.Idx)
    (h0 : ∀ l : Fin 128, x0 (ix2 ⟨(j 0).val, idx2_lt0 j⟩ l) = agg (ix2 ⟨(i 0).val, idx2_lt0 i⟩ l))
    (h1 : ∀ l : Fin 128, x1 (ix2 ⟨(j 0).val, idx2_lt0 j⟩ l) = x (ix2 ⟨(i 0).val, idx2_lt0 i⟩ l))
    (h2 : ∀ l : Fin 128, x2 (ix2 l ⟨(j 1).val, idx2_lt1 j⟩) = wr (ix2 l ⟨(i 1).val, idx2_lt1 i⟩))
    (h3 : ∀ l : Fin 128, x3 (ix2 l ⟨(j 1).val, idx2_lt1 j⟩) = wo (ix2 l ⟨(i 1).val, idx2_lt1 i⟩))
    (h4 : x4 (ix2 (0 : Fin 1) ⟨(j 1).val, idx2_lt1 j⟩) = bias (ix2 (0 : Fin 1) ⟨(i 1).val, idx2_lt1 i⟩)) :
    Gen.k0_pay1 (F := Ideal) x0 x1 x2 x3 x4 j
      = layerA agg x wr wo (fun k => bias (ix2 (0 : Fin 1) ⟨(k 0).val, (k 0).isLt⟩)) i := by
  refine (pay0_idx x0 x1 x2 x3 x4 j).trans ?_
  exact congrArg lk (congrArg₂ (· + ·)
    (congrArg₂ (· + ·) (Finset.sum_congr rfl fun l _ => congrArg₂ (· * ·) (h0 l) (h2 l))
      (Finset.sum_congr rfl fun l _ => congrArg₂ (· * ·) (h1 l) (h3 l))) h4)

/-- The same at any index of the block, its coordinates spelt out. -/
theorem pay3_idx (x0 : Vec Ideal S2000x64 .f32) (x1 : Vec Ideal S2000x64 .bf16) (x2 x3 : Vec Ideal S64x256 .f32)
    (x4 : Vec Ideal S1x256 .f32) (j : S2000x256.Idx) :
    Gen.k3_pay1 (F := Ideal) x0 x1 x2 x3 x4 j
      = lk ((∑ l : Fin 64, x0 (ix2 ⟨(j 0).val, idx2_lt0 j⟩ l) * x2 (ix2 l ⟨(j 1).val, idx2_lt1 j⟩)
            + ∑ l : Fin 64, x1 (ix2 ⟨(j 0).val, idx2_lt0 j⟩ l) * x3 (ix2 l ⟨(j 1).val, idx2_lt1 j⟩))
          + x4 (ix2 (0 : Fin 1) ⟨(j 1).val, idx2_lt1 j⟩)) := by
  obtain ⟨p, q, rfl⟩ : ∃ (p : Fin 2000) (q : Fin 256), j = ix2 p q := ⟨j 0, j 1, eq_ix2 j⟩
  exact pay3_at x0 x1 x2 x3 x4 p q

/-- If, along row j₀ of the block and column j₁, the five blocks hold what the whole arrays hold along row i₀ and
    column i₁ — the aggregate and the features row by row, the two weight matrices column by column, the bias at
    the column — then the payload at j is the layer's value at i. -/
theorem block3_entry (agg x : A2 50000 64) (wr wo : A2 64 256) (bias : A2 1 256)
    (x0 : Vec Ideal S2000x64 .f32) (x1 : Vec Ideal S2000x64 .bf16) (x2 x3 : Vec Ideal S64x256 .f32)
    (x4 : Vec Ideal S1x256 .f32) (j : S2000x256.Idx) (i : S50000x256.Idx)
    (h0 : ∀ l : Fin 64, x0 (ix2 ⟨(j 0).val, idx2_lt0 j⟩ l) = agg (ix2 ⟨(i 0).val, idx2_lt0 i⟩ l))
    (h1 : ∀ l : Fin 64, x1 (ix2 ⟨(j 0).val, idx2_lt0 j⟩ l) = x (ix2 ⟨(i 0).val, idx2_lt0 i⟩ l))
    (h2 : ∀ l : Fin 64, x2 (ix2 l ⟨(j 1).val, idx2_lt1 j⟩) = wr (ix2 l ⟨(i 1).val, idx2_lt1 i⟩))
    (h3 : ∀ l : Fin 64, x3 (ix2 l ⟨(j 1).val, idx2_lt1 j⟩) = wo (ix2 l ⟨(i 1).val, idx2_lt1 i⟩))
    (h4 : x4 (ix2 (0 : Fin 1) ⟨(j 1).val, idx2_lt1 j⟩) = bias (ix2 (0 : Fin 1) ⟨(i 1).val, idx2_lt1 i⟩)) :
    Gen.k3_pay1 (F := Ideal) x0 x1 x2 x3 x4 j
      = layerA agg x wr wo (fun k => bias (ix2 (0 : Fin 1) ⟨(k 0).val, (k 0).isLt⟩)) i := by
  refine (pay3_idx x0 x1 x2 x3 x4 j).trans ?_
  exact congrArg lk (congrArg₂ (· + ·)
    (congrArg₂ (· + ·) (Finset.sum_congr rfl fun l _ => congrArg₂ (· * ·) (h0 l) (h2 l))
      (Finset.sum_congr rfl fun l _ => congrArg₂ (· * ·) (h1 l) (h3 l))) h4)

end Cert.KernelIdeal.RegionValue

end
-- ==== Proof.Region0.lean ====
/-
  The array the layer's region leaves: from what each grid point writes back — block t of the output, rows
  2000·t … 2000·t + 1999 — to the whole [50000, 256] array as one function of the arrays the region found.
  The aggregate's and the features' blocks move with the output's block down the rows; the weight matrices and
  the bias row are whole at every point.
-/
import proofs.«128899_j82635170775050_2_alg».proof.Proof.RegionLibA
import proofs.«128899_j82635170775050_2_alg».proof.Proof.Gen.KernelIdeal.Frame
import Idealize.ShloMosaic.Lib.Pipeline.Value

set_option maxRecDepth 16384

noncomputable section

namespace Cert.KernelIdeal.RegionValue

open Idealize.ShloMosaic Idealize.ShloMosaic.TcCoe Idealize.ShloMosaic.ValueIdx Cert.GC

variable (V : (c : Dev nD) → (b : Ref sig .tc) → Buf (Elt Ideal) ((c : Thread nD τ).loc b))

/-- The origin of a rank-2 buffer. -/
theorem origin0 : (![0, 0] : Fin 2 → Nat) = fun _ => 0 := funext fun a => by fin_cases a <;> rfl

/-- The layer's value as one function of the arrays the region finds. -/
abbrev layer0 (c : Dev nD) : A2 50000 256 :=
  layerA (V c (Pipeline.arrRef spec0 0) : A2 50000 128) (V c (Pipeline.arrRef spec0 1) : A2 50000 128)
    (V c (Pipeline.arrRef spec0 2) : A2 128 256) (V c (Pipeline.arrRef spec0 3) : A2 128 256)
    (fun i => (V c (Pipeline.arrRef spec0 4) : A2 1 256) (ix2 (0 : Fin 1) ⟨(i 0).val, (i 0).isLt⟩))

/-- The printed index maps, decided over the grid: the aggregate's and the features' block rows are the output's,
    every other block index is zero, and the output's block row stays in its range. -/
theorem blockIdx0 : ∀ t : Fin cfg0.N, win0_0.index t (0 : Fin 2) = win0_5.index t (0 : Fin 2)
    ∧ win0_1.index t (0 : Fin 2) = win0_5.index t (0 : Fin 2)
    ∧ win0_0.index t (1 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every block row of the output is some point's. -/
theorem blockOnto0 : ∀ q0 : Fin 25, ∃ t : Fin cfg0.N, win0_5.index t = ![q0.val, 0] :=
  (by decide +kernel : ∀ q0 : Fin 25, ∃ t : Fin grid0.N, win0_5.index t = ![q0.val, 0])

/-- What point t writes back is block t of the layer's value. -/
theorem flushed0_eq (c : Dev nD) (t : Fin cfg0.N) :
    (Gen.dat0 (F := Ideal) V c).flushed 5 t = ((cfg0.win 5).blk t).view.read (Elt Ideal) (layer0 V c) := by
  show (cfg0.win 5).cut (grid0.coords t) ((Gen.dat0 V c).after 5 t) = _
  rw [Gen.after0_5]
  unfold Gen.out0_5
  rw [View.canon_unit_zero origin0]
  simp only [View.ld_unit_zero (S := S2000x128) origin0, View.ld_unit_zero (S := S128x256) origin0,
    View.ld_unit_zero (S := S1x256) origin0]
  obtain ⟨e0, e1, e2, e3, e4, e5, e6, e7, e8, e9, e10, e11⟩ := blockIdx0 t
  funext y
  have hy0 : (y 0).val < 2000 := (y 0).isLt
  have hy1 : (y 1).val < 256 := (y 1).isLt
  refine block0_entry (V c (Pipeline.arrRef spec0 0)) (V c (Pipeline.arrRef spec0 1)) (V c (Pipeline.arrRef spec0 2))
    (V c (Pipeline.arrRef spec0 3)) (V c (Pipeline.arrRef spec0 4))
    (Gen.iblk0 V c 0 t) (Gen.iblk0 V c 1 t) (Gen.iblk0 V c 2 t) (Gen.iblk0 V c 3 t) (Gen.iblk0 V c 4 t)
    y (((cfg0.win 5).blk t).view.emb y) (fun l => ?_) (fun l => ?_) (fun l => ?_) (fun l => ?_) ?_
  · show V c (Pipeline.arrRef spec0 0) (((cfg0.win 0).blk t).view.emb (ix2 ⟨(y 0).val, hy0⟩ l)) = _
    refine congrArg _ (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 128 + 1 * l.val = l.val; omega
  · show V c (Pipeline.arrRef spec0 1) (((cfg0.win 1).blk t).view.emb (ix2 ⟨(y 0).val, hy0⟩ l)) = _
    refine congrArg _ (funext fun a => Fin.ext ?_)
    match a with
    | ⟨0, _⟩ => show win0_1.index t (0 : Fin 2) * 2000 + 1 * (y 0).val = win0_5.index t (0 : Fin 2) * 2000 + 1 * (y 0).val; omega
    | ⟨1, _⟩ => show win0_1.index t (1 : Fin 2) * 128 + 1 * l.val = l.val; omega
  · show V c (Pipeline.arrRef spec0 2) (((cfg0.win 2).blk t).view.emb (ix2 l ⟨(y 1).val, hy1⟩)) = _
    refine congrArg _ (funext fun a => Fin.ext ?_)
    match a with
    | ⟨0, _⟩ => show win0_2.index t (0 : Fin 2) * 128 + 1 * l.val = l.val; omega
    | ⟨1, _⟩ => show win0_2.index t (1 : Fin 2) * 256 + 1 * (y 1).val = win0_5.index t (1 : Fin 2) * 256 + 1 * (y 1).val; omega
  · show V c (Pipeline.arrRef spec0 3) (((cfg0.win 3).blk t).view.emb (ix2 l ⟨(y 1).val, hy1⟩)) = _
    refine congrArg _ (funext fun a => Fin.ext ?_)
    match a with
    | ⟨0, _⟩ => show win0_3.index t (0 : Fin 2) * 128 + 1 * l.val = l.val; omega
    | ⟨1, _⟩ => show win0_3.index t (1 : Fin 2) * 256 + 1 * (y 1).val = win0_5.index t (1 : Fin 2) * 256 + 1 * (y 1).val; omega
  · show V c (Pipeline.arrRef spec0 4) (((cfg0.win 4).blk t).view.emb (ix2 (0 : Fin 1) ⟨(y 1).val, hy1⟩)) = _
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * (y 1).val = win0_5.index t (1 : Fin 2) * 256 + 1 * (y 1).val; omega

/-- An index of the array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v17).slice (win0_5.rect t)).set ↔ _
  rw [View.set_slice_whole, Rect.mem_set_unit]
  exact Iff.rfl

/-- Every index of the array is in the block of the point its row falls in: row r in block r / 2000. -/
theorem covered0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := blockOnto0 ⟨(i 0).val / 2000, by omega⟩
  have q0 : win0_5.index t (0 : Fin 2) = (i 0).val / 2000 := congrFun ht 0
  have q1 : win0_5.index t (1 : Fin 2) = 0 := congrFun ht 1
  refine ⟨t, Gen.flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The array after the region is the layer's value of the arrays the region found. -/
theorem final0 (c : Dev nD) :
    ((Gen.dat0 (F := Ideal) V c).arrAt 5 cfg0.N : A2 50000 256) =
      layerA (V c (Pipeline.arrRef spec0 0) : A2 50000 128) (V c (Pipeline.arrRef spec0 1) : A2 50000 128)
        (V c (Pipeline.arrRef spec0 2) : A2 128 256) (V c (Pipeline.arrRef spec0 3) : A2 128 256)
        (fun i => (V c (Pipeline.arrRef spec0 4) : A2 1 256) (ix2 (0 : Fin 1) ⟨(i 0).val, (i 0).isLt⟩)) :=
  (Gen.dat0 (F := Ideal) V c).arrAt_eq_of_cover 5 (layer0 V c) (fun t _ => flushed0_eq V c t) (covered0)

end Cert.KernelIdeal.RegionValue

end
-- ==== Proof.RegionLibB.lean ====
/-
  Two readings of kernel operations at an index, at the ideal values, shared by the per-region modules:
  a matrix product accumulated into the zero splat is the sum over the contracted coordinate of the products of the
  entries; and the comparison-select tail "a if 0 ≤ a else slope · a" read at an index.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.ValueIdx

/-- An [m, k] by [k, n] product (contracting the left operand's axis 1 with the right operand's axis 0, no batch axes)
    into the zero accumulator, read at (a, b): Σ_c A[a, c] · B[c, b]. -/
theorem matmul_zero_at {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.RegionValue

end
-- ==== Proof.Region1.lean ====
/-
  Region 1 (the projection body: one matrix product per block of 2000 rows).  After the region its output array
  [50000, 64] is the product of the [50000, 256] feature array and the [256, 64] weight array the region found:
  the body's payload read at (p, q) is Σ_l x[p, l] · w[l, q]; point t writes rows 2000 t … 2000 t + 1999; the 25
  points cover the 50000 rows.
-/
import proofs.«128899_j82635170775050_2_alg».proof.Proof.Spec
import proofs.«128899_j82635170775050_2_alg».proof.Proof.Gen.KernelIdeal.Frame
import proofs.«128899_j82635170775050_2_alg».proof.Proof.RegionLibB
import Idealize.ShloMosaic.Lib.Pipeline.Value

noncomputable section

namespace Cert.KernelIdeal.RegionValue

open Cert.KernelIdeal Cert.KernelIdeal.Gen Cert.GC
open Idealize.ShloMosaic Idealize.ShloMosaic.TcCoe Idealize.SL.Sem Idealize.ShloMosaic.ValueIdx
open Idealize.ShloMosaic.Pipeline (Dat)

/-- The zero offsets, however spelt. -/
theorem zero_offsets1 : (![0, 0] : Fin 2 → Nat) = fun _ => 0 := funext fun a => by fin_cases a <;> rfl

/-- The projection body's payload read at (p, q): row p of the feature block times column q of the weight. -/
theorem project1_at (x0 : FVec Ideal S2000x256 .bf16) (x1 : FVec Ideal S256x64 .f32) (p : Fin 2000) (q : Fin 64) :
    k1_pay1 (F := Ideal) x0 x1 (ix2 p q) = ∑ l : Fin 256, x0 (ix2 p l) * x1 (ix2 l q) := by
  unfold k1_pay1
  refine (matmul_zero_at dot_S2000x256_S256x64_S2000x64_1_0_0_1_n_n_wf none _ _ p q).trans ?_
  simp only [shapeCast_self]
  rfl

/-- The index maps over the grid: the feature and output windows move down the rows with the point, the weight
    window stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the two arrays the region found. -/
theorem flushed1 (c : Dev nD) (t : Fin cfg1.N) :
    (dat1 (F := Ideal) V c).flushed 2 t = ((cfg1.win 2).blk t).view.read (Elt Ideal)
      (mm (V c (Pipeline.arrRef spec1 0) : A2 50000 256) (V c (Pipeline.arrRef spec1 1) : A2 256 64) : A2 50000 64) := by
  show (cfg1.win 2).cut (grid1.coords t) ((dat1 V c).after 2 t) = _
  rw [after1_2]
  unfold out1_2
  rw [View.canon_unit_zero zero_offsets1]
  simp only [View.ld_unit_zero (S := S2000x256) zero_offsets1, View.ld_unit_zero (S := S256x64) zero_offsets1]
  obtain ⟨e0, e1, e2, e3, e4, e5⟩ := idx_facts1 t
  funext j
  obtain ⟨p, q, rfl⟩ : ∃ (p : Fin 2000) (q : Fin 64), j = ix2 p q := ⟨j 0, j 1, eq_ix2 j⟩
  refine (project1_at (iblk1 V c 0 t) (iblk1 V c 1 t) p q).trans ?_
  show _ = mm (V c (Pipeline.arrRef spec1 0) : A2 50000 256) (V c (Pipeline.arrRef spec1 1) : A2 256 64) (((cfg1.win 2).blk t).view.emb (ix2 p q))
  unfold mm
  refine Finset.sum_congr rfl fun l _ => ?_
  have h0 : ((cfg1.win 0).blk t).view.emb (ix2 p l)
      = ix2 ⟨(((cfg1.win 2).blk t).view.emb (ix2 p q) 0).val, idx2_lt0 _⟩ l := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * l.val = l.val; omega
  have h1 : ((cfg1.win 1).blk t).view.emb (ix2 l q)
      = ix2 l ⟨(((cfg1.win 2).blk t).view.emb (ix2 p q) 1).val, idx2_lt1 _⟩ := by
    funext a; apply Fin.ext
    match a with
    | ⟨0, _⟩ => show win1_1.index t (0 : Fin 2) * 256 + 1 * l.val = l.val; omega
    | ⟨1, _⟩ => show win1_1.index t (1 : Fin 2) * 64 + 1 * q.val = win1_2.index t (1 : Fin 2) * 64 + 1 * q.val; omega
  exact congrArg₂ (· * ·) (congrArg (V c (Pipeline.arrRef spec1 0) : A2 50000 256) h0)
    (congrArg (V c (Pipeline.arrRef spec1 1) : A2 256 64) h1)

/-- An index of the output array is in point t's block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v19).slice (win1_2.rect t)).set ↔ _
  rw [View.set_slice_whole, Rect.mem_set_unit]
  exact Iff.rfl

/-- Row r of the output is in the block of point r / 2000: the 25 blocks of 2000 rows cover the 50000 rows. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After region 1 its output array is the product of the feature array and the weight array the region found. -/
theorem final1 (c : Dev nD) :
    ((Gen.dat1 (F := Ideal) V c).arrAt 2 cfg1.N : A2 50000 64)
      = mm (V c (Pipeline.arrRef spec1 0) : A2 50000 256) (V c (Pipeline.arrRef spec1 1) : A2 256 64) :=
  (dat1 (F := Ideal) V c).arrAt_eq_of_cover 2 _ (fun t _ => flushed1 V c t) cover1

end Cert.KernelIdeal.RegionValue

end
-- ==== Proof.Region2.lean ====
/-
  The layer whose aggregate arrives already multiplied, region 2: what the output array holds after the region,
  as one function of the arrays the region found. A block's payload at an entry is
  leaky((aggp[p, q] + Σ_l x[p, l] · w[l, q]) + bias[0, q]); the blocks are rows 2000·t … 2000·t + 1999 of the arrays,
  the weights and the bias whole at every point; and the 25 blocks cover the 50000 rows.
-/
import proofs.«128899_j82635170775050_2_alg».proof.Proof.Spec
import proofs.«128899_j82635170775050_2_alg».proof.Proof.Gen.KernelIdeal.Frame
import proofs.«128899_j82635170775050_2_alg».proof.Proof.RegionLibA
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue

open Idealize.ShloMosaic Idealize.ShloMosaic.ValueIdx Idealize.ShloMosaic.TcCoe Idealize.SL.Sem Cert.GC
open Idealize.ShloMosaic.Pipeline (Dat)

/-- A [2000, 256] by [256, 64] product into the zero accumulator, read at (p, q), is the sum over the contracted
    coordinate of the entries' products. -/
theorem mm256x64_at {φ₁ φ₂ : FTy} (A : FVec Ideal S2000x256 φ₁) (B : FVec Ideal S256x64 φ₂) (p : Fin 2000) (q : Fin 64) :
    matmul dot_S2000x256_S256x64_S2000x64_1_0_0_1_n_n none A B (constant (F := Ideal) S2000x64 .f32 0x00000000#32) (ix2 p q)
      = ∑ l : Fin 256, A (ix2 p l) * B (ix2 l q) := by
  show FloatOps.matmul dot_S2000x256_S256x64_S2000x64_1_0_0_1_n_n none A B _ (ix2 p q) = _
  rw [Ideal.matmul_constant_zero_apply, ← Equiv.sum_comp (contrEquiv1 dot_S2000x256_S256x64_S2000x64_1_0_0_1_n_n 256 rfl rfl).symm]
  refine Finset.sum_congr rfl fun c _ => ?_
  have c2 := contrEquiv1_symm_val dot_S2000x256_S256x64_S2000x64_1_0_0_1_n_n 256 rfl rfl c
  have l2 : (dot_S2000x256_S256x64_S2000x64_1_0_0_1_n_n).lhsIdx (ix2 p q) ((contrEquiv1 _ 256 rfl rfl).symm c) = ix2 p c := by
    funext ax; apply Fin.ext
    match ax with
    | ⟨0, _⟩ => simp [DotDims.lhsIdx, dot_S2000x256_S256x64_S2000x64_1_0_0_1_n_n]; rfl
    | ⟨1, _⟩ => simp [DotDims.lhsIdx, dot_S2000x256_S256x64_S2000x64_1_0_0_1_n_n]; exact c2
  have r2 : (dot_S2000x256_S256x64_S2000x64_1_0_0_1_n_n).rhsIdx (ix2 p q) ((contrEquiv1 _ 256 rfl rfl).symm c) = ix2 c q := by
    funext ax; apply Fin.ext
    match ax with
    | ⟨0, _⟩ => simp [DotDims.rhsIdx, dot_S2000x256_S256x64_S2000x64_1_0_0_1_n_n]; exact c2
    | ⟨1, _⟩ => simp [DotDims.rhsIdx, dot_S2000x256_S256x64_S2000x64_1_0_0_1_n_n]; rfl
  rw [l2, r2]

/-- The payload at an entry of a block: the multiplied aggregate's entry, the product's sum over the contracted
    coordinate, the bias row's entry, and the leaky map of their sum. Narrowing and same-shape casts change nothing
    on extended reals. -/
theorem pay2_at (x0 : Vec Ideal S2000x64 .f32) (x1 : Vec Ideal S2000x256 .bf16) (x2 : Vec Ideal S256x64 .f32)
    (x3 : Vec Ideal S1x64 .f32) (p : Fin 2000) (q : Fin 64) :
    Gen.k2_pay1 (F := Ideal) x0 x1 x2 x3 (ix2 p q)
      = lk ((x0 (ix2 p q) + ∑ l : Fin 256, x1 (ix2 p l) * x2 (ix2 l q)) + x3 (ix2 (0 : Fin 1) q)) := by
  unfold Gen.k2_pay1
  refine (leaky_at _).trans ?_
  refine congrArg lk ?_
  refine (addf_apply _ _ _).trans ?_
  refine congrArg₂ (· + ·) ((addf_apply _ _ _).trans (congrArg₂ (· + ·) ?_ ?_)) ?_
  · exact congrFun (shapeCast_self x0 _) (ix2 p q)
  · exact (mm256x64_at _ _ p q).trans (Finset.sum_congr rfl fun l _ =>
      congrArg₂ (· * ·) (congrFun (shapeCast_self x1 _) (ix2 p l)) (congrFun (shapeCast_self x2 _) (ix2 l q)))
  · exact (bias_at _ _ (by decide) p q).trans (congrFun (shapeCast_self x3 _) (ix2 (0 : Fin 1) q))

/-- The same at any index of the block, its coordinates spelt out. -/
theorem pay2_idx (x0 : Vec Ideal S2000x64 .f32) (x1 : Vec Ideal S2000x256 .bf16) (x2 : Vec Ideal S256x64 .f32)
    (x3 : Vec Ideal S1x64 .f32) (j : S2000x64.Idx) :
    Gen.k2_pay1 (F := Ideal) x0 x1 x2 x3 j
      = lk ((x0 (ix2 ⟨(j 0).val, idx2_lt0 j⟩ ⟨(j 1).val, idx2_lt1 j⟩)
            + ∑ l : Fin 256, x1 (ix2 ⟨(j 0).val, idx2_lt0 j⟩ l) * x2 (ix2 l ⟨(j 1).val, idx2_lt1 j⟩))
          + x3 (ix2 (0 : Fin 1) ⟨(j 1).val, idx2_lt1 j⟩)) := by
  obtain ⟨p, q, rfl⟩ : ∃ (p : Fin 2000) (q : Fin 64), j = ix2 p q := ⟨j 0, j 1, eq_ix2 j⟩
  exact pay2_at x0 x1 x2 x3 p q

/-- If, along row j₀ of the block and column j₁, the four blocks hold what the whole arrays hold along row i₀ and
    column i₁ — the multiplied aggregate at the entry, the features row by row, the weight matrix column by column,
    the bias at the column — then the payload at j is the layer's value at i. -/
theorem block2_entry (aggp : A2 50000 64) (x : A2 50000 256) (wo : A2 256 64) (bias : A2 1 64)
    (x0 : Vec Ideal S2000x64 .f32) (x1 : Vec Ideal S2000x256 .bf16) (x2 : Vec Ideal S256x64 .f32)
    (x3 : Vec Ideal S1x64 .f32) (j : S2000x64.Idx) (i : S50000x64.Idx)
    (h0 : x0 (ix2 ⟨(j 0).val, idx2_lt0 j⟩ ⟨(j 1).val, idx2_lt1 j⟩) = aggp i)
    (h1 : ∀ l : Fin 256, x1 (ix2 ⟨(j 0).val, idx2_lt0 j⟩ l) = x (ix2 ⟨(i 0).val, idx2_lt0 i⟩ l))
    (h2 : ∀ l : Fin 256, x2 (ix2 l ⟨(j 1).val, idx2_lt1 j⟩) = wo (ix2 l ⟨(i 1).val, idx2_lt1 i⟩))
    (h3 : x3 (ix2 (0 : Fin 1) ⟨(j 1).val, idx2_lt1 j⟩) = bias (ix2 (0 : Fin 1) ⟨(i 1).val, idx2_lt1 i⟩)) :
    Gen.k2_pay1 (F := Ideal) x0 x1 x2 x3 j
      = layerC aggp x wo (fun k => bias (ix2 (0 : Fin 1) ⟨(k 0).val, (k 0).isLt⟩)) i := by
  refine (pay2_idx x0 x1 x2 x3 j).trans ?_
  exact congrArg lk (congrArg₂ (· + ·)
    (congrArg₂ (· + ·) h0 (Finset.sum_congr rfl fun l _ => congrArg₂ (· * ·) (h1 l) (h2 l))) h3)

variable (V : (c : Dev nD) → (b : Ref sig .tc) → Buf (Elt Ideal) ((c : Thread nD τ).loc b))

/-- The zero offsets of a whole-buffer access. -/
theorem zero_off2 : (![0, 0] : Fin 2 → Nat) = fun _ => 0 := funext fun a => by fin_cases a <;> rfl

/-- The layer's value as one function of the arrays the region finds: the multiplied aggregate, the features,
    the transposed root weights and the bias row. -/
abbrev layer2 (c : Dev nD) : A2 50000 64 :=
  layerC (V c (Pipeline.arrRef spec2 0)) (V c (Pipeline.arrRef spec2 1)) (V c (Pipeline.arrRef spec2 2))
    (fun i => (V c (Pipeline.arrRef spec2 3) : A2 1 64) (ix2 (0 : Fin 1) ⟨(i 0).val, (i 0).isLt⟩))

/-- The printed index maps, decided over the grid: the aggregate's, the features' and the output's blocks are the
    point's rows; the weights and the bias are whole at every point. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the layer's value. -/
theorem flushed2_eq (c : Dev nD) (t : Fin cfg2.N) :
    (Gen.dat2 (F := Ideal) V c).flushed 4 t = ((cfg2.win 4).blk t).view.read (Elt Ideal) (layer2 V c) := by
  show (cfg2.win 4).cut (grid2.coords t) ((Gen.dat2 (F := Ideal) V c).after 4 t) = _
  rw [Gen.after2_4]
  unfold Gen.out2_4
  rw [View.canon_unit_zero zero_off2]
  simp only [View.ld_unit_zero (S := S2000x64) zero_off2, View.ld_unit_zero (S := S2000x256) zero_off2,
    View.ld_unit_zero (S := S256x64) zero_off2, View.ld_unit_zero (S := S1x64) zero_off2]
  obtain ⟨e00, e01, e10, e11, e20, e21, e30, e31, e40, e41⟩ := block_index2 t
  funext j
  show Gen.k2_pay1 (F := Ideal) (Gen.iblk2 V c 0 t) (Gen.iblk2 V c 1 t) (Gen.iblk2 V c 2 t) (Gen.iblk2 V c 3 t) j
      = layer2 V c (((cfg2.win 4).blk t).view.emb j)
  have hj0 : (j 0).val < 2000 := (j 0).isLt
  have hj1 : (j 1).val < 64 := (j 1).isLt
  refine block2_entry _ _ _ _ _ _ _ _ j _ ?_ ?_ ?_ ?_
  · show V c (Pipeline.arrRef spec2 0) (((cfg2.win 0).blk t).view.emb _) = V c (Pipeline.arrRef spec2 0) (((cfg2.win 4).blk t).view.emb j)
    refine congrArg _ (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 64 + 1 * (j 1).val = win2_4.index t (1 : Fin 2) * 64 + 1 * (j 1).val; omega
  · intro l
    show V c (Pipeline.arrRef spec2 1) (((cfg2.win 1).blk t).view.emb _) = V c (Pipeline.arrRef spec2 1) _
    refine congrArg _ (funext fun a => Fin.ext ?_)
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 256 + 1 * l.val = l.val; omega
  · intro l
    show V c (Pipeline.arrRef spec2 2) (((cfg2.win 2).blk t).view.emb _) = V c (Pipeline.arrRef spec2 2) _
    refine congrArg _ (funext fun a => Fin.ext ?_)
    match a with
    | ⟨0, _⟩ => show win2_2.index t (0 : Fin 2) * 256 + 1 * l.val = l.val; omega
    | ⟨1, _⟩ => show win2_2.index t (1 : Fin 2) * 64 + 1 * (j 1).val = win2_4.index t (1 : Fin 2) * 64 + 1 * (j 1).val; omega
  · show V c (Pipeline.arrRef spec2 3) (((cfg2.win 3).blk t).view.emb _) = V c (Pipeline.arrRef spec2 3) _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega

/-- An index of the output array is in point t's block iff each coordinate is in the block's range on its axis. -/
theorem mem_block2 (t : Fin cfg2.N) (i : S50000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v33).slice (win2_4.rect t)).set ↔ _
  rw [View.set_slice_whole, Rect.mem_set_unit]
  exact Iff.rfl

/-- Row r of the output lies in the block of point r / 2000: the 25 blocks cover the array. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := rfl
  have ht : (i 0).val / 2000 < cfg2.N := by rw [hN]; omega
  refine ⟨⟨(i 0).val / 2000, ht⟩, Gen.flush2_4 _, ?_⟩
  rw [mem_block2]
  obtain ⟨-, -, -, -, -, -, -, -, e40, e41⟩ := block_index2 ⟨(i 0).val / 2000, ht⟩
  have e40' : win2_4.index ⟨(i 0).val / 2000, ht⟩ (0 : Fin 2) = (i 0).val / 2000 := e40
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    omega
  | ⟨1, _⟩ =>
    show win2_4.index ⟨(i 0).val / 2000, ht⟩ (1 : Fin 2) * 64 ≤ (i 1).val
      ∧ (i 1).val < win2_4.index ⟨(i 0).val / 2000, ht⟩ (1 : Fin 2) * 64 + 64
    omega

/-- The output array after the region is the layer's value of the arrays the region found. -/
theorem final2 (c : Dev nD) :
    @Eq (A2 50000 64) ((Gen.dat2 (F := Ideal) V c).arrAt 4 cfg2.N)
      (layerC (V c (Pipeline.arrRef spec2 0)) (V c (Pipeline.arrRef spec2 1)) (V c (Pipeline.arrRef spec2 2))
        (fun i => (V c (Pipeline.arrRef spec2 3) : A2 1 64) (ix2 (0 : Fin 1) ⟨(i 0).val, (i 0).isLt⟩))) :=
  (Gen.dat2 (F := Ideal) V c).arrAt_eq_of_cover 4 (layer2 V c) (fun t _ => flushed2_eq V c t) (cover2)

end Cert.KernelIdeal.RegionValue

end
-- ==== Proof.Region3.lean ====
/-
  The array the layer's region leaves: from what each grid point writes back — block t of the output, rows
  2000·t … 2000·t + 1999 — to the whole [50000, 256] array as one function of the arrays the region found.
  The aggregate's and the features' blocks move with the output's block down the rows; the weight matrices and
  the bias row are whole at every point.
-/
import proofs.«128899_j82635170775050_2_alg».proof.Proof.RegionLibA
import proofs.«128899_j82635170775050_2_alg».proof.Proof.Gen.KernelIdeal.Frame
import Idealize.ShloMosaic.Lib.Pipeline.Value

set_option maxRecDepth 16384

noncomputable section

namespace Cert.KernelIdeal.RegionValue

open Idealize.ShloMosaic Idealize.ShloMosaic.TcCoe Idealize.ShloMosaic.ValueIdx Cert.GC

variable (V : (c : Dev nD) → (b : Ref sig .tc) → Buf (Elt Ideal) ((c : Thread nD τ).loc b))

/-- The origin of a rank-2 buffer. -/
theorem origin3 : (![0, 0] : Fin 2 → Nat) = fun _ => 0 := funext fun a => by fin_cases a <;> rfl

/-- The layer's value as one function of the arrays the region finds. -/
abbrev layer3 (c : Dev nD) : A2 50000 256 :=
  layerA (V c (Pipeline.arrRef spec3 0) : A2 50000 64) (V c (Pipeline.arrRef spec3 1) : A2 50000 64)
    (V c (Pipeline.arrRef spec3 2) : A2 64 256) (V c (Pipeline.arrRef spec3 3) : A2 64 256)
    (fun i => (V c (Pipeline.arrRef spec3 4) : A2 1 256) (ix2 (0 : Fin 1) ⟨(i 0).val, (i 0).isLt⟩))

/-- The printed index maps, decided over the grid: the aggregate's and the features' block rows are the output's,
    every other block index is zero, and the output's block row stays in its range. -/
theorem blockIdx3 : ∀ t : Fin cfg3.N, win3_0.index t (0 : Fin 2) = win3_5.index t (0 : Fin 2)
    ∧ win3_1.index t (0 : Fin 2) = win3_5.index t (0 : Fin 2)
    ∧ win3_0.index t (1 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 24 :=
  (by decide +kernel : ∀ t : Fin grid3.N, _)

/-- Every block row of the output is some point's. -/
theorem blockOnto3 : ∀ q0 : Fin 25, ∃ t : Fin cfg3.N, win3_5.index t = ![q0.val, 0] :=
  (by decide +kernel : ∀ q0 : Fin 25, ∃ t : Fin grid3.N, win3_5.index t = ![q0.val, 0])

set_option maxHeartbeats 1000000 in
/-- What point t writes back is block t of the layer's value. -/
theorem flushed3_eq (c : Dev nD) (t : Fin cfg3.N) :
    (Gen.dat3 (F := Ideal) V c).flushed 5 t = ((cfg3.win 5).blk t).view.read (Elt Ideal) (layer3 V c) := by
  show (cfg3.win 5).cut (grid3.coords t) ((Gen.dat3 V c).after 5 t) = _
  rw [Gen.after3_5]
  unfold Gen.out3_5
  rw [View.canon_unit_zero origin3]
  simp only [View.ld_unit_zero (S := S2000x64) origin3, View.ld_unit_zero (S := S64x256) origin3,
    View.ld_unit_zero (S := S1x256) origin3]
  obtain ⟨e0, e1, e2, e3, e4, e5, e6, e7, e8, e9, e10, e11⟩ := blockIdx3 t
  funext y
  have hy0 : (y 0).val < 2000 := (y 0).isLt
  have hy1 : (y 1).val < 256 := (y 1).isLt
  refine block3_entry (V c (Pipeline.arrRef spec3 0)) (V c (Pipeline.arrRef spec3 1)) (V c (Pipeline.arrRef spec3 2))
    (V c (Pipeline.arrRef spec3 3)) (V c (Pipeline.arrRef spec3 4))
    (Gen.iblk3 V c 0 t) (Gen.iblk3 V c 1 t) (Gen.iblk3 V c 2 t) (Gen.iblk3 V c 3 t) (Gen.iblk3 V c 4 t)
    y (((cfg3.win 5).blk t).view.emb y) (fun l => ?_) (fun l => ?_) (fun l => ?_) (fun l => ?_) ?_
  · show V c (Pipeline.arrRef spec3 0) (((cfg3.win 0).blk t).view.emb (ix2 ⟨(y 0).val, hy0⟩ l)) = _
    refine congrArg (V c (Pipeline.arrRef spec3 0)) (funext fun a => Fin.ext ?_)
    match a with
    | ⟨0, _⟩ => show win3_0.index t (0 : Fin 2) * 2000 + 1 * (y 0).val = win3_5.index t (0 : Fin 2) * 2000 + 1 * (y 0).val; omega
    | ⟨1, _⟩ => show win3_0.index t (1 : Fin 2) * 64 + 1 * l.val = l.val; omega
  · show V c (Pipeline.arrRef spec3 1) (((cfg3.win 1).blk t).view.emb (ix2 ⟨(y 0).val, hy0⟩ l)) = _
    refine congrArg (V c (Pipeline.arrRef spec3 1)) (funext fun a => Fin.ext ?_)
    match a with
    | ⟨0, _⟩ => show win3_1.index t (0 : Fin 2) * 2000 + 1 * (y 0).val = win3_5.index t (0 : Fin 2) * 2000 + 1 * (y 0).val; omega
    | ⟨1, _⟩ => show win3_1.index t (1 : Fin 2) * 64 + 1 * l.val = l.val; omega
  · show V c (Pipeline.arrRef spec3 2) (((cfg3.win 2).blk t).view.emb (ix2 l ⟨(y 1).val, hy1⟩)) = _
    refine congrArg (V c (Pipeline.arrRef spec3 2)) (funext fun a => Fin.ext ?_)
    match a with
    | ⟨0, _⟩ => show win3_2.index t (0 : Fin 2) * 64 + 1 * l.val = l.val; omega
    | ⟨1, _⟩ => show win3_2.index t (1 : Fin 2) * 256 + 1 * (y 1).val = win3_5.index t (1 : Fin 2) * 256 + 1 * (y 1).val; omega
  · show V c (Pipeline.arrRef spec3 3) (((cfg3.win 3).blk t).view.emb (ix2 l ⟨(y 1).val, hy1⟩)) = _
    refine congrArg (V c (Pipeline.arrRef spec3 3)) (funext fun a => Fin.ext ?_)
    match a with
    | ⟨0, _⟩ => show win3_3.index t (0 : Fin 2) * 64 + 1 * l.val = l.val; omega
    | ⟨1, _⟩ => show win3_3.index t (1 : Fin 2) * 256 + 1 * (y 1).val = win3_5.index t (1 : Fin 2) * 256 + 1 * (y 1).val; omega
  · show V c (Pipeline.arrRef spec3 4) (((cfg3.win 4).blk t).view.emb (ix2 (0 : Fin 1) ⟨(y 1).val, hy1⟩)) = _
    refine congrArg (V c (Pipeline.arrRef spec3 4)) (funext fun a => Fin.ext ?_)
    match a with
    | ⟨0, _⟩ => show win3_4.index t (0 : Fin 2) * 1 + 1 * 0 = 0; omega
    | ⟨1, _⟩ => show win3_4.index t (1 : Fin 2) * 256 + 1 * (y 1).val = win3_5.index t (1 : Fin 2) * 256 + 1 * (y 1).val; omega

/-- An index of the array is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v49).slice (win3_5.rect t)).set ↔ _
  rw [View.set_slice_whole, Rect.mem_set_unit]
  exact Iff.rfl

/-- Every index of the array is in the block of the point its row falls in: row r in block r / 2000. -/
theorem covered3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ := blockOnto3 ⟨(i 0).val / 2000, by omega⟩
  have q0 : win3_5.index t (0 : Fin 2) = (i 0).val / 2000 := congrFun ht 0
  have q1 : win3_5.index t (1 : Fin 2) = 0 := congrFun ht 1
  refine ⟨t, Gen.flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- The array after the region is the layer's value of the arrays the region found. -/
theorem final3 (c : Dev nD) :
    ((Gen.dat3 (F := Ideal) V c).arrAt 5 cfg3.N : A2 50000 256) =
      layerA (V c (Pipeline.arrRef spec3 0) : A2 50000 64) (V c (Pipeline.arrRef spec3 1) : A2 50000 64)
        (V c (Pipeline.arrRef spec3 2) : A2 64 256) (V c (Pipeline.arrRef spec3 3) : A2 64 256)
        (fun i => (V c (Pipeline.arrRef spec3 4) : A2 1 256) (ix2 (0 : Fin 1) ⟨(i 0).val, (i 0).isLt⟩)) :=
  (Gen.dat3 (F := Ideal) V c).arrAt_eq_of_cover 5 (layer3 V c) (fun t _ => flushed3_eq V c t) (covered3)

end Cert.KernelIdeal.RegionValue

end
-- ==== Proof.Region4.lean ====
/-
  Region 4 (the projection body: one matrix product per block of 2000 rows).  After the region its output array
  [50000, 128] is the product of the [50000, 256] feature array and the [256, 128] weight array the region found:
  the body's payload read at (p, q) is Σ_l x[p, l] · w[l, q]; point t writes rows 2000 t … 2000 t + 1999; the 25
  points cover the 50000 rows.
-/
import proofs.«128899_j82635170775050_2_alg».proof.Proof.Spec
import proofs.«128899_j82635170775050_2_alg».proof.Proof.Gen.KernelIdeal.Frame
import proofs.«128899_j82635170775050_2_alg».proof.Proof.RegionLibB
import Idealize.ShloMosaic.Lib.Pipeline.Value

noncomputable section

namespace Cert.KernelIdeal.RegionValue

open Cert.KernelIdeal Cert.KernelIdeal.Gen Cert.GC
open Idealize.ShloMosaic Idealize.ShloMosaic.TcCoe Idealize.SL.Sem Idealize.ShloMosaic.ValueIdx
open Idealize.ShloMosaic.Pipeline (Dat)

/-- The zero offsets, however spelt. -/
theorem zero_offsets4 : (![0, 0] : Fin 2 → Nat) = fun _ => 0 := funext fun a => by fin_cases a <;> rfl

/-- The projection body's payload read at (p, q): row p of the feature block times column q of the weight. -/
theorem project4_at (x0 : FVec Ideal S2000x256 .bf16) (x1 : FVec Ideal S256x128 .f32) (p : Fin 2000) (q : Fin 128) :
    k4_pay1 (F := Ideal) x0 x1 (ix2 p q) = ∑ l : Fin 256, x0 (ix2 p l) * x1 (ix2 l q) := by
  unfold k4_pay1
  refine (matmul_zero_at dot_S2000x256_S256x128_S2000x128_1_0_0_1_n_n_wf none _ _ p q).trans ?_
  simp only [shapeCast_self]
  rfl

/-- The index maps over the grid: the feature and output windows move down the rows with the point, the weight
    window stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

set_option maxHeartbeats 1600000 in
/-- What point t writes back is block t of the product of the two arrays the region found. -/
theorem flushed4 (c : Dev nD) (t : Fin cfg4.N) :
    (dat4 (F := Ideal) V c).flushed 2 t = ((cfg4.win 2).blk t).view.read (Elt Ideal)
      (mm (V c (Pipeline.arrRef spec4 0) : A2 50000 256) (V c (Pipeline.arrRef spec4 1) : A2 256 128) : A2 50000 128) := by
  show (cfg4.win 2).cut (grid4.coords t) ((dat4 V c).after 2 t) = _
  rw [after4_2]
  unfold out4_2
  rw [View.canon_unit_zero zero_offsets4]
  simp only [View.ld_unit_zero (S := S2000x256) zero_offsets4, View.ld_unit_zero (S := S256x128) zero_offsets4]
  obtain ⟨e0, e1, e2, e3, e4, e5⟩ := idx_facts4 t
  funext j
  obtain ⟨p, q, rfl⟩ : ∃ (p : Fin 2000) (q : Fin 128), j = ix2 p q := ⟨j 0, j 1, eq_ix2 j⟩
  refine (project4_at (iblk4 V c 0 t) (iblk4 V c 1 t) p q).trans ?_
  show _ = mm (V c (Pipeline.arrRef spec4 0) : A2 50000 256) (V c (Pipeline.arrRef spec4 1) : A2 256 128) (((cfg4.win 2).blk t).view.emb (ix2 p q))
  unfold mm
  refine Finset.sum_congr rfl fun l _ => ?_
  have h0 : ((cfg4.win 0).blk t).view.emb (ix2 p l)
      = ix2 ⟨(((cfg4.win 2).blk t).view.emb (ix2 p q) 0).val, idx2_lt0 _⟩ l := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 256 + 1 * l.val = l.val; omega
  have h1 : ((cfg4.win 1).blk t).view.emb (ix2 l q)
      = ix2 l ⟨(((cfg4.win 2).blk t).view.emb (ix2 p q) 1).val, idx2_lt1 _⟩ := by
    funext a; apply Fin.ext
    match a with
    | ⟨0, _⟩ => show win4_1.index t (0 : Fin 2) * 256 + 1 * l.val = l.val; omega
    | ⟨1, _⟩ => show win4_1.index t (1 : Fin 2) * 128 + 1 * q.val = win4_2.index t (1 : Fin 2) * 128 + 1 * q.val; omega
  exact congrArg₂ (· * ·) (congrArg (V c (Pipeline.arrRef spec4 0) : A2 50000 256) h0)
    (congrArg (V c (Pipeline.arrRef spec4 1) : A2 256 128) h1)

/-- An index of the output array is in point t's block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v51).slice (win4_2.rect t)).set ↔ _
  rw [View.set_slice_whole, Rect.mem_set_unit]
  exact Iff.rfl

/-- Row r of the output is in the block of point r / 2000: the 25 blocks of 2000 rows cover the 50000 rows. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After region 4 its output array is the product of the feature array and the weight array the region found. -/
theorem final4 (c : Dev nD) :
    ((Gen.dat4 (F := Ideal) V c).arrAt 2 cfg4.N : A2 50000 128)
      = mm (V c (Pipeline.arrRef spec4 0) : A2 50000 256) (V c (Pipeline.arrRef spec4 1) : A2 256 128) :=
  (dat4 (F := Ideal) V c).arrAt_eq_of_cover 2 _ (fun t _ => flushed4 V c t) cover4

end Cert.KernelIdeal.RegionValue

end
-- ==== Proof.Region5.lean ====
/-
  The layer whose aggregate arrives already multiplied, region 5: what the output array holds after the region,
  as one function of the arrays the region found. A block's payload at an entry is
  leaky((aggp[p, q] + Σ_l x[p, l] · w[l, q]) + bias[0, q]); the blocks are rows 2000·t … 2000·t + 1999 of the arrays,
  the weights and the bias whole at every point; and the 25 blocks cover the 50000 rows.
-/
import proofs.«128899_j82635170775050_2_alg».proof.Proof.Spec
import proofs.«128899_j82635170775050_2_alg».proof.Proof.Gen.KernelIdeal.Frame
import proofs.«128899_j82635170775050_2_alg».proof.Proof.RegionLibA
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionValue

open Idealize.ShloMosaic Idealize.ShloMosaic.ValueIdx Idealize.ShloMosaic.TcCoe Idealize.SL.Sem Cert.GC
open Idealize.ShloMosaic.Pipeline (Dat)

/-- A [2000, 256] by [256, 128] product into the zero accumulator, read at (p, q), is the sum over the contracted
    coordinate of the entries' products. -/
theorem mm256x128_at {φ₁ φ₂ : FTy} (A : FVec Ideal S2000x256 φ₁) (B : FVec Ideal S256x128 φ₂) (p : Fin 2000) (q : Fin 128) :
    matmul dot_S2000x256_S256x128_S2000x128_1_0_0_1_n_n none A B (constant (F := Ideal) S2000x128 .f32 0x00000000#32) (ix2 p q)
      = ∑ l : Fin 256, A (ix2 p l) * B (ix2 l q) := by
  show FloatOps.matmul dot_S2000x256_S256x128_S2000x128_1_0_0_1_n_n none A B _ (ix2 p q) = _
  rw [Ideal.matmul_constant_zero_apply, ← Equiv.sum_comp (contrEquiv1 dot_S2000x256_S256x128_S2000x128_1_0_0_1_n_n 256 rfl rfl).symm]
  refine Finset.sum_congr rfl fun c _ => ?_
  have c2 := contrEquiv1_symm_val dot_S2000x256_S256x128_S2000x128_1_0_0_1_n_n 256 rfl rfl c
  have l2 : (dot_S2000x256_S256x128_S2000x128_1_0_0_1_n_n).lhsIdx (ix2 p q) ((contrEquiv1 _ 256 rfl rfl).symm c) = ix2 p c := by
    funext ax; apply Fin.ext
    match ax with
    | ⟨0, _⟩ => simp [DotDims.lhsIdx, dot_S2000x256_S256x128_S2000x128_1_0_0_1_n_n]; rfl
    | ⟨1, _⟩ => simp [DotDims.lhsIdx, dot_S2000x256_S256x128_S2000x128_1_0_0_1_n_n]; exact c2
  have r2 : (dot_S2000x256_S256x128_S2000x128_1_0_0_1_n_n).rhsIdx (ix2 p q) ((contrEquiv1 _ 256 rfl rfl).symm c) = ix2 c q := by
    funext ax; apply Fin.ext
    match ax with
    | ⟨0, _⟩ => simp [DotDims.rhsIdx, dot_S2000x256_S256x128_S2000x128_1_0_0_1_n_n]; exact c2
    | ⟨1, _⟩ => simp [DotDims.rhsIdx, dot_S2000x256_S256x128_S2000x128_1_0_0_1_n_n]; rfl
  rw [l2, r2]

/-- The payload at an entry of a block: the multiplied aggregate's entry, the product's sum over the contracted
    coordinate, the bias row's entry, and the leaky map of their sum. Narrowing and same-shape casts change nothing
    on extended reals. -/
theorem pay5_at (x0 : Vec Ideal S2000x128 .f32) (x1 : Vec Ideal S2000x256 .bf16) (x2 : Vec Ideal S256x128 .f32)
    (x3 : Vec Ideal S1x128 .f32) (p : Fin 2000) (q : Fin 128) :
    Gen.k5_pay1 (F := Ideal) x0 x1 x2 x3 (ix2 p q)
      = lk ((x0 (ix2 p q) + ∑ l : Fin 256, x1 (ix2 p l) * x2 (ix2 l q)) + x3 (ix2 (0 : Fin 1) q)) := by
  unfold Gen.k5_pay1
  refine (leaky_at _).trans ?_
  refine congrArg lk ?_
  refine (addf_apply _ _ _).trans ?_
  refine congrArg₂ (· + ·) ((addf_apply _ _ _).trans (congrArg₂ (· + ·) ?_ ?_)) ?_
  · exact congrFun (shapeCast_self x0 _) (ix2 p q)
  · exact (mm256x128_at _ _ p q).trans (Finset.sum_congr rfl fun l _ =>
      congrArg₂ (· * ·) (congrFun (shapeCast_self x1 _) (ix2 p l)) (congrFun (shapeCast_self x2 _) (ix2 l q)))
  · exact (bias_at _ _ (by decide) p q).trans (congrFun (shapeCast_self x3 _) (ix2 (0 : Fin 1) q))

/-- The same at any index of the block, its coordinates spelt out. -/
theorem pay5_idx (x0 : Vec Ideal S2000x128 .f32) (x1 : Vec Ideal S2000x256 .bf16) (x2 : Vec Ideal S256x128 .f32)
    (x3 : Vec Ideal S1x128 .f32) (j : S2000x128.Idx) :
    Gen.k5_pay1 (F := Ideal) x0 x1 x2 x3 j
      = lk ((x0 (ix2 ⟨(j 0).val, idx2_lt0 j⟩ ⟨(j 1).val, idx2_lt1 j⟩)
            + ∑ l : Fin 256, x1 (ix2 ⟨(j 0).val, idx2_lt0 j⟩ l) * x2 (ix2 l ⟨(j 1).val, idx2_lt1 j⟩))
          + x3 (ix2 (0 : Fin 1) ⟨(j 1).val, idx2_lt1 j⟩)) := by
  obtain ⟨p, q, rfl⟩ : ∃ (p : Fin 2000) (q : Fin 128), j = ix2 p q := ⟨j 0, j 1, eq_ix2 j⟩
  exact pay5_at x0 x1 x2 x3 p q

/-- If, along row j₀ of the block and column j₁, the four blocks hold what the whole arrays hold along row i₀ and
    column i₁ — the multiplied aggregate at the entry, the features row by row, the weight matrix column by column,
    the bias at the column — then the payload at j is the layer's value at i. -/
theorem block5_entry (aggp : A2 50000 128) (x : A2 50000 256) (wo : A2 256 128) (bias : A2 1 128)
    (x0 : Vec Ideal S2000x128 .f32) (x1 : Vec Ideal S2000x256 .bf16) (x2 : Vec Ideal S256x128 .f32)
    (x3 : Vec Ideal S1x128 .f32) (j : S2000x128.Idx) (i : S50000x128.Idx)
    (h0 : x0 (ix2 ⟨(j 0).val, idx2_lt0 j⟩ ⟨(j 1).val, idx2_lt1 j⟩) = aggp i)
    (h1 : ∀ l : Fin 256, x1 (ix2 ⟨(j 0).val, idx2_lt0 j⟩ l) = x (ix2 ⟨(i 0).val, idx2_lt0 i⟩ l))
    (h2 : ∀ l : Fin 256, x2 (ix2 l ⟨(j 1).val, idx2_lt1 j⟩) = wo (ix2 l ⟨(i 1).val, idx2_lt1 i⟩))
    (h3 : x3 (ix2 (0 : Fin 1) ⟨(j 1).val, idx2_lt1 j⟩) = bias (ix2 (0 : Fin 1) ⟨(i 1).val, idx2_lt1 i⟩)) :
    Gen.k5_pay1 (F := Ideal) x0 x1 x2 x3 j
      = layerC aggp x wo (fun k => bias (ix2 (0 : Fin 1) ⟨(k 0).val, (k 0).isLt⟩)) i := by
  refine (pay5_idx x0 x1 x2 x3 j).trans ?_
  exact congrArg lk (congrArg₂ (· + ·)
    (congrArg₂ (· + ·) h0 (Finset.sum_congr rfl fun l _ => congrArg₂ (· * ·) (h1 l) (h2 l))) h3)

variable (V : (c : Dev nD) → (b : Ref sig .tc) → Buf (Elt Ideal) ((c : Thread nD τ).loc b))

/-- The zero offsets of a whole-buffer access. -/
theorem zero_off5 : (![0, 0] : Fin 2 → Nat) = fun _ => 0 := funext fun a => by fin_cases a <;> rfl

/-- The layer's value as one function of the arrays the region finds: the multiplied aggregate, the features,
    the transposed root weights and the bias row. -/
abbrev layer5 (c : Dev nD) : A2 50000 128 :=
  layerC (V c (Pipeline.arrRef spec5 0)) (V c (Pipeline.arrRef spec5 1)) (V c (Pipeline.arrRef spec5 2))
    (fun i => (V c (Pipeline.arrRef spec5 3) : A2 1 128) (ix2 (0 : Fin 1) ⟨(i 0).val, (i 0).isLt⟩))

/-- The printed index maps, decided over the grid: the aggregate's, the features' and the output's blocks are the
    point's rows; the weights and the bias are whole at every point. -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the layer's value. -/
theorem flushed5_eq (c : Dev nD) (t : Fin cfg5.N) :
    (Gen.dat5 (F := Ideal) V c).flushed 4 t = ((cfg5.win 4).blk t).view.read (Elt Ideal) (layer5 V c) := by
  show (cfg5.win 4).cut (grid5.coords t) ((Gen.dat5 (F := Ideal) V c).after 4 t) = _
  rw [Gen.after5_4]
  unfold Gen.out5_4
  rw [View.canon_unit_zero zero_off5]
  simp only [View.ld_unit_zero (S := S2000x128) zero_off5, View.ld_unit_zero (S := S2000x256) zero_off5,
    View.ld_unit_zero (S := S256x128) zero_off5, View.ld_unit_zero (S := S1x128) zero_off5]
  obtain ⟨e00, e01, e10, e11, e20, e21, e30, e31, e40, e41⟩ := block_index5 t
  funext j
  show Gen.k5_pay1 (F := Ideal) (Gen.iblk5 V c 0 t) (Gen.iblk5 V c 1 t) (Gen.iblk5 V c 2 t) (Gen.iblk5 V c 3 t) j
      = layer5 V c (((cfg5.win 4).blk t).view.emb j)
  have hj0 : (j 0).val < 2000 := (j 0).isLt
  have hj1 : (j 1).val < 128 := (j 1).isLt
  refine block5_entry _ _ _ _ _ _ _ _ j _ ?_ ?_ ?_ ?_
  · show V c (Pipeline.arrRef spec5 0) (((cfg5.win 0).blk t).view.emb _) = V c (Pipeline.arrRef spec5 0) (((cfg5.win 4).blk t).view.emb j)
    refine congrArg _ (funext fun a => Fin.ext ?_)
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 128 + 1 * (j 1).val = win5_4.index t (1 : Fin 2) * 128 + 1 * (j 1).val; omega
  · intro l
    show V c (Pipeline.arrRef spec5 1) (((cfg5.win 1).blk t).view.emb _) = V c (Pipeline.arrRef spec5 1) _
    refine congrArg _ (funext fun a => Fin.ext ?_)
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 256 + 1 * l.val = l.val; omega
  · intro l
    show V c (Pipeline.arrRef spec5 2) (((cfg5.win 2).blk t).view.emb _) = V c (Pipeline.arrRef spec5 2) _
    refine congrArg _ (funext fun a => Fin.ext ?_)
    match a with
    | ⟨0, _⟩ => show win5_2.index t (0 : Fin 2) * 256 + 1 * l.val = l.val; omega
    | ⟨1, _⟩ => show win5_2.index t (1 : Fin 2) * 128 + 1 * (j 1).val = win5_4.index t (1 : Fin 2) * 128 + 1 * (j 1).val; omega
  · show V c (Pipeline.arrRef spec5 3) (((cfg5.win 3).blk t).view.emb _) = V c (Pipeline.arrRef spec5 3) _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega

/-- An index of the output array is in point t's block iff each coordinate is in the block's range on its axis. -/
theorem mem_block5 (t : Fin cfg5.N) (i : S50000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v65).slice (win5_4.rect t)).set ↔ _
  rw [View.set_slice_whole, Rect.mem_set_unit]
  exact Iff.rfl

/-- Row r of the output lies in the block of point r / 2000: the 25 blocks cover the array. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 25 := rfl
  have ht : (i 0).val / 2000 < cfg5.N := by rw [hN]; omega
  refine ⟨⟨(i 0).val / 2000, ht⟩, Gen.flush5_4 _, ?_⟩
  rw [mem_block5]
  obtain ⟨-, -, -, -, -, -, -, -, e40, e41⟩ := block_index5 ⟨(i 0).val / 2000, ht⟩
  have e40' : win5_4.index ⟨(i 0).val / 2000, ht⟩ (0 : Fin 2) = (i 0).val / 2000 := e40
  intro a
  match a with
  | ⟨0, _⟩ =>
    show win5_4.index ⟨(i 0).val / 2000, ht⟩ (0 : Fin 2) * 2000 ≤ (i 0).val
      ∧ (i 0).val < win5_4.index ⟨(i 0).val / 2000, ht⟩ (0 : Fin 2) * 2000 + 2000
    omega
  | ⟨1, _⟩ =>
    show win5_4.index ⟨(i 0).val / 2000, ht⟩ (1 : Fin 2) * 128 ≤ (i 1).val
      ∧ (i 1).val < win5_4.index ⟨(i 0).val / 2000, ht⟩ (1 : Fin 2) * 128 + 128
    omega

/-- The output array after the region is the layer's value of the arrays the region found. -/
theorem final5 (c : Dev nD) :
    @Eq (A2 50000 128) ((Gen.dat5 (F := Ideal) V c).arrAt 4 cfg5.N)
      (layerC (V c (Pipeline.arrRef spec5 0)) (V c (Pipeline.arrRef spec5 1)) (V c (Pipeline.arrRef spec5 2))
        (fun i => (V c (Pipeline.arrRef spec5 3) : A2 1 128) (ix2 (0 : Fin 1) ⟨(i 0).val, (i 0).isLt⟩))) :=
  (Gen.dat5 (F := Ideal) V c).arrAt_eq_of_cover 4 (layer5 V c) (fun t _ => flushed5_eq V c t) (cover5)

end Cert.KernelIdeal.RegionValue

end
-- ==== Proof.KernelValue.lean ====
/-
  The idealized kernel's two results as the specification's stack.

  Region by region: each region's output array is its layer function of the arrays the region found
  (the regions' own lemmas), the arrays it found are the host stretches' functions of what earlier
  segments left (the stretches' lemmas and the "left alone" lemmas), and so the six outputs are, in order,
  k1, kp1, k2, k3, kp3, k4 of the launched arrays.  The embedding is k2 widened after region 2 and kept to
  the end; the reconstruction is k4 widened after region 5.
-/
import proofs.«128899_j82635170775050_2_alg».proof.Proof.Gen.KernelIdeal.Frame
import proofs.«128899_j82635170775050_2_alg».proof.Proof.Spec
import proofs.«128899_j82635170775050_2_alg».proof.Proof.LibEdges
import proofs.«128899_j82635170775050_2_alg».proof.Proof.LibLayout
import proofs.«128899_j82635170775050_2_alg».proof.Proof.EdgeIdx
import proofs.«128899_j82635170775050_2_alg».proof.Proof.ParamsOf
import proofs.«128899_j82635170775050_2_alg».proof.Proof.KernelCarry
import proofs.«128899_j82635170775050_2_alg».proof.Proof.KernelHost
import proofs.«128899_j82635170775050_2_alg».proof.Proof.KernelRun
import proofs.«128899_j82635170775050_2_alg».proof.Proof.Region0
import proofs.«128899_j82635170775050_2_alg».proof.Proof.Region1
import proofs.«128899_j82635170775050_2_alg».proof.Proof.Region2
import proofs.«128899_j82635170775050_2_alg».proof.Proof.Region3
import proofs.«128899_j82635170775050_2_alg».proof.Proof.Region4
import proofs.«128899_j82635170775050_2_alg».proof.Proof.Region5

set_option maxRecDepth 16384

noncomputable section

namespace Cert.KernelIdeal.RunValue

open Idealize.ShloMosaic Idealize.ShloMosaic.TcCoe Idealize.ShloMosaic.Tactic Idealize.ShloMosaic.ValueIdx
open Idealize.SL.Sem
open Cert.KernelIdeal Cert.KernelIdeal.Gen Cert.GC Cert.Proof

variable (m : (ℓ : Loc nD τ sig) → Buf (Elt Ideal) ℓ) (ρ : Dev nD → PrngReg) (c : Dev nD)

local notation "K1" => k1 (srcK m c) (dstK m c) (xOf m c) (paramsOf m c)
local notation "KP1" => kp1 (srcK m c) (dstK m c) (xOf m c) (paramsOf m c)
local notation "K2" => k2 (srcK m c) (dstK m c) (xOf m c) (paramsOf m c)
local notation "K3" => k3 (srcK m c) (dstK m c) (xOf m c) (paramsOf m c)
local notation "KP3" => kp3 (srcK m c) (dstK m c) (xOf m c) (paramsOf m c)
local notation "K4" => k4 (srcK m c) (dstK m c) (xOf m c) (paramsOf m c)

/-- Region 0 leaves layer 0's activations. -/
theorem act1 : @Eq (A2 50000 256) (W2 m ρ c (Proc.devRef .tc main_v17)) K1 := by
  refine (W2_arr m ρ c 5).trans ?_
  refine (RegionValue.final0 (V1 m ρ) c).trans ?_
  exact layerA_congr (agg_at1 m ρ c) (at_arg0_1 m ρ c) (wrel0T_at1 m ρ c) (wroot0T_at1 m ρ c) (b0_at1 m ρ c)

theorem act1_at3 : @Eq (A2 50000 256) (W3 m ρ c (Proc.devRef .tc main_v17)) K1 := (keep_v17_3 m ρ c).trans (act1 m ρ c)

/-- Region 1 leaves those activations multiplied by Wrel1ᵀ. -/
theorem proj1 : @Eq (A2 50000 64) (W4 m ρ c (Proc.devRef .tc main_v19)) KP1 := by
  refine (W4_arr m ρ c 2).trans ?_
  refine (RegionValue.final1 (V3 m ρ) c).trans ?_
  exact mm_congr (act1_at3 m ρ c) (wrel1T_at3 m ρ c)

theorem act1_at5 : @Eq (A2 50000 256) (W5 m ρ c (Proc.devRef .tc main_v17)) K1 := (at_v17_5 m ρ c).trans (act1 m ρ c)

/-- Region 2 leaves layer 1's activations: the embedding. -/
theorem act2 : @Eq (A2 50000 64) (W6 m ρ c (Proc.devRef .tc main_v33)) K2 := by
  refine (W6_arr m ρ c 4).trans ?_
  refine (RegionValue.final2 (V5 m ρ) c).trans ?_
  exact layerC_congr (agg_at5 m ρ c _ (proj1 m ρ c)) (act1_at5 m ρ c) (wroot1T_at5 m ρ c) (b1_at5 m ρ c)

theorem emb7 : @Eq (A2 50000 64) (W7 m ρ c (Proc.devRef .tc main_v34)) K2 := emb_at7 m ρ c _ (act2 m ρ c)

theorem act2_at7 : @Eq (A2 50000 64) (W7 m ρ c (Proc.devRef .tc main_v33)) K2 := (keep_v33_7 m ρ c).trans (act2 m ρ c)

/-- Region 3 leaves layer 2's activations. -/
theorem act3 : @Eq (A2 50000 256) (W8 m ρ c (Proc.devRef .tc main_v49)) K3 := by
  refine (W8_arr m ρ c 5).trans ?_
  refine (RegionValue.final3 (V7 m ρ) c).trans ?_
  exact layerA_congr (agg_at7 m ρ c _ (act2 m ρ c)) (act2_at7 m ρ c) (wrel2T_at7 m ρ c) (wroot2T_at7 m ρ c) (b2_at7 m ρ c)

theorem act3_at9 : @Eq (A2 50000 256) (W9 m ρ c (Proc.devRef .tc main_v49)) K3 := (keep_v49_9 m ρ c).trans (act3 m ρ c)

/-- Region 4 leaves those activations multiplied by Wrel3ᵀ. -/
theorem proj3 : @Eq (A2 50000 128) (W10 m ρ c (Proc.devRef .tc main_v51)) KP3 := by
  refine (W10_arr m ρ c 2).trans ?_
  refine (RegionValue.final4 (V9 m ρ) c).trans ?_
  exact mm_congr (act3_at9 m ρ c) (wrel3T_at9 m ρ c)

theorem act3_at11 : @Eq (A2 50000 256) (W11 m ρ c (Proc.devRef .tc main_v49)) K3 := (at_v49_11 m ρ c).trans (act3 m ρ c)

/-- Region 5 leaves layer 3's activations: the reconstruction. -/
theorem act4 : @Eq (A2 50000 128) (W12 m ρ c (Proc.devRef .tc main_v65)) K4 := by
  refine (W12_arr m ρ c 4).trans ?_
  refine (RegionValue.final5 (V11 m ρ) c).trans ?_
  exact layerC_congr (agg_at11 m ρ c _ (proj3 m ρ c)) (act3_at11 m ρ c) (wroot3T_at11 m ρ c) (b3_at11 m ρ c)

theorem out13 : @Eq (A2 50000 128) (W13 m ρ c (Proc.devRef .tc main_v66)) K4 := out_at13 m ρ c _ (act4 m ρ c)

theorem emb13 : @Eq (A2 50000 64) (W13 m ρ c (Proc.devRef .tc main_v34)) K2 := (at_v34_13 m ρ c).trans (emb7 m ρ c)

/-- The kernel's run with its results named by the specification. -/
theorem run_value : θ_run defs (onTc (τ := τ) (main (F := Ideal))) ⟨m, fun _ => 0, ρ⟩ (fun r => ∀ c : Dev nD,
      r.2.mem ((c.tc : Thread nD τ).loc main_v66) = k4 (srcK m c) (dstK m c) (xOf m c) (paramsOf m c)
      ∧ r.2.mem ((c.tc : Thread nD τ).loc main_v34) = k2 (srcK m c) (dstK m c) (xOf m c) (paramsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (out13 m ρ c), (h c).2.1.trans (emb13 m ρ c), (h c).2.2⟩)
    (run_results m ρ)

end Cert.KernelIdeal.RunValue

end
-- ==== Proof.RefRun.lean ====
/-
  The reference program's @main as the list of its host operations, each module-local function's
  operations listed at its call site over that call's buffers, and its run read back: every weakly
  fair execution terminates with every buffer at the operations' fold over the launch contents.
  The list is cut at the four layers: each layer's operations are one window.
-/
import proofs.«128899_j82635170775050_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Layer 0 (128 → 256): the edge indices, the aggregation, the two products, the bias, the leaky unit. -/
abbrev opsL0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg2 main_v14 ((transpose S128x256 [1, 0] · transposes_S256x128_S128x256_1_0) : (⟨S256x128, .f32⟩ : BufTy).Contents (Elt F) → (⟨S128x256, .f32⟩ : BufTy).Contents (Elt F)),
    binary main_v13 main_v14 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    unary main_arg3 main_v19 ((transpose S128x256 [1, 0] · transposes_S256x128_S128x256_1_0) : (⟨S256x128, .f32⟩ : BufTy).Contents (Elt F) → (⟨S128x256, .f32⟩ : BufTy).Contents (Elt F)),
    binary main_arg0 main_v19 main_v20 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x256 ![] bcast_S_S50000x256),
    TRef.binary (.of main_v21 : TRef sig ⟨S50000x256, .f32⟩) main_call0.v0 main_call0.v1 (cmpf .oge),
    TRef.unary (.of main_cst_1 : TRef sig ⟨S_, .f32⟩) main_call0.v2 id,
    TRef.unary main_call0.v2 main_call0.v3 (broadcastInDim S50000x256 ![] bcast_S_S50000x256),
    TRef.binary main_call0.v3 (.of main_v21 : TRef sig ⟨S50000x256, .f32⟩) main_call0.v4 mulf,
    TRef.ternary main_call0.v1 (.of main_v21 : TRef sig ⟨S50000x256, .f32⟩) main_call0.v4 main_call0.call0.v0 select ]

theorem opsL0_sub : (opsL0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Layer 1 (256 → 64). -/
abbrev opsL1 : List (HloOp τ sig (Elt F)) :=
  [ unary main_arg1 main_v23 ((extractStridedSlice S1x800000 ![0, 0] · slices_S2x800000_S1x800000_0_0) : (⟨S2x800000, .i32⟩ : BufTy).Contents (Elt F) → (⟨S1x800000, .i32⟩ : BufTy).Contents (Elt F)),
    reshape main_v23 main_v24 rfl shapeCasts_S1x800000_S800000,
    unary main_arg1 main_v25 ((extractStridedSlice S1x800000 ![1, 0] · slices_S2x800000_S1x800000_1_0) : (⟨S2x800000, .i32⟩ : BufTy).Contents (Elt F) → (⟨S1x800000, .i32⟩ : BufTy).Contents (Elt F)),
    reshape main_v25 main_v26 rfl shapeCasts_S1x800000_S800000,
    nullary main_c_2 (constantI S_ 32 0#32),
    unary main_c_2 main_v27 (broadcastInDim S800000 ![] bcast_S_S800000 : (⟨S_, .i32⟩ : BufTy).Contents (Elt F) → (⟨S800000, .i32⟩ : BufTy).Contents (Elt F)),
    binary main_v24 main_v27 main_v28 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v29 (broadcastInDim S800000 ![] bcast_S_S800000 : (⟨S_, .i32⟩ : BufTy).Contents (Elt F) → (⟨S800000, .i32⟩ : BufTy).Contents (Elt F)),
    binary main_v24 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v24 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v22 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_4 (constant S_ .f32 0x00000000#32),
    unary main_cst_4 main_v34 (broadcastInDim S50000x256 ![] bcast_S_S50000x256 : (⟨S_, .f32⟩ : BufTy).Contents (Elt F) → (⟨S50000x256, .f32⟩ : BufTy).Contents (Elt F)),
    unary main_v26 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg5 main_v37 ((transpose S256x64 [1, 0] · transposes_S64x256_S256x64_1_0) : (⟨S64x256, .f32⟩ : BufTy).Contents (Elt F) → (⟨S256x64, .f32⟩ : BufTy).Contents (Elt F)),
    binary main_v36 main_v37 main_v38 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg7 main_v39 (broadcastInDim S1x64 ![1] bcast_S64_S1x64_1 : (⟨S64, .f32⟩ : BufTy).Contents (Elt F) → (⟨S1x64, .f32⟩ : BufTy).Contents (Elt F)),
    unary main_v39 main_v40 (broadcastInDim S50000x64 ![0, 1] bcast_S1x64_S50000x64_0_1 : (⟨S1x64, .f32⟩ : BufTy).Contents (Elt F) → (⟨S50000x64, .f32⟩ : BufTy).Contents (Elt F)),
    binary main_v38 main_v40 main_v41 (addf : (⟨S50000x64, .f32⟩ : BufTy).Contents (Elt F) → (⟨S50000x64, .f32⟩ : BufTy).Contents (Elt F) → (⟨S50000x64, .f32⟩ : BufTy).Contents (Elt F)),
    unary main_arg6 main_v42 ((transpose S256x64 [1, 0] · transposes_S64x256_S256x64_1_0) : (⟨S64x256, .f32⟩ : BufTy).Contents (Elt F) → (⟨S256x64, .f32⟩ : BufTy).Contents (Elt F)),
    binary main_v22 main_v42 main_v43 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3C23D70A#32),
    TRef.nullary main_call1.cst (constant S_ .f32 0x00000000#32),
    TRef.unary main_call1.cst main_call1.v0 (broadcastInDim S50000x64 ![] bcast_S_S50000x64),
    TRef.binary (.of main_v44 : TRef sig ⟨S50000x64, .f32⟩) main_call1.v0 main_call1.v1 (cmpf .oge),
    TRef.unary (.of main_cst_5 : TRef sig ⟨S_, .f32⟩) main_call1.v2 id,
    TRef.unary main_call1.v2 main_call1.v3 (broadcastInDim S50000x64 ![] bcast_S_S50000x64),
    TRef.binary main_call1.v3 (.of main_v44 : TRef sig ⟨S50000x64, .f32⟩) main_call1.v4 mulf,
    TRef.ternary main_call1.v1 (.of main_v44 : TRef sig ⟨S50000x64, .f32⟩) main_call1.v4 main_call1.call0.v0 select ]

theorem opsL1_sub : (opsL1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Layer 2 (64 → 256). -/
abbrev opsL2 : List (HloOp τ sig (Elt F)) :=
  [ unary main_arg1 main_v46 ((extractStridedSlice S1x800000 ![0, 0] · slices_S2x800000_S1x800000_0_0) : (⟨S2x800000, .i32⟩ : BufTy).Contents (Elt F) → (⟨S1x800000, .i32⟩ : BufTy).Contents (Elt F)),
    reshape main_v46 main_v47 rfl shapeCasts_S1x800000_S800000,
    unary main_arg1 main_v48 ((extractStridedSlice S1x800000 ![1, 0] · slices_S2x800000_S1x800000_1_0) : (⟨S2x800000, .i32⟩ : BufTy).Contents (Elt F) → (⟨S1x800000, .i32⟩ : BufTy).Contents (Elt F)),
    reshape main_v48 main_v49 rfl shapeCasts_S1x800000_S800000,
    nullary main_c_6 (constantI S_ 32 0#32),
    unary main_c_6 main_v50 (broadcastInDim S800000 ![] bcast_S_S800000 : (⟨S_, .i32⟩ : BufTy).Contents (Elt F) → (⟨S800000, .i32⟩ : BufTy).Contents (Elt F)),
    binary main_v47 main_v50 main_v51 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v52 (broadcastInDim S800000 ![] bcast_S_S800000 : (⟨S_, .i32⟩ : BufTy).Contents (Elt F) → (⟨S800000, .i32⟩ : BufTy).Contents (Elt F)),
    binary main_v47 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v47 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v45 main_v55 main_v56 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v57 (broadcastInDim S50000x64 ![] bcast_S_S50000x64 : (⟨S_, .f32⟩ : BufTy).Contents (Elt F) → (⟨S50000x64, .f32⟩ : BufTy).Contents (Elt F)),
    unary main_v49 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg8 main_v60 ((transpose S64x256 [1, 0] · transposes_S256x64_S64x256_1_0) : (⟨S256x64, .f32⟩ : BufTy).Contents (Elt F) → (⟨S64x256, .f32⟩ : BufTy).Contents (Elt F)),
    binary main_v59 main_v60 main_v61 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v61 main_v63 main_v64 (addf : (⟨S50000x256, .f32⟩ : BufTy).Contents (Elt F) → (⟨S50000x256, .f32⟩ : BufTy).Contents (Elt F) → (⟨S50000x256, .f32⟩ : BufTy).Contents (Elt F)),
    unary main_arg9 main_v65 ((transpose S64x256 [1, 0] · transposes_S256x64_S64x256_1_0) : (⟨S256x64, .f32⟩ : BufTy).Contents (Elt F) → (⟨S64x256, .f32⟩ : BufTy).Contents (Elt F)),
    binary main_v45 main_v65 main_v66 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3C23D70A#32),
    TRef.nullary main_call2.cst (constant S_ .f32 0x00000000#32),
    TRef.unary main_call2.cst main_call2.v0 (broadcastInDim S50000x256 ![] bcast_S_S50000x256),
    TRef.binary (.of main_v67 : TRef sig ⟨S50000x256, .f32⟩) main_call2.v0 main_call2.v1 (cmpf .oge),
    TRef.unary (.of main_cst_9 : TRef sig ⟨S_, .f32⟩) main_call2.v2 id,
    TRef.unary main_call2.v2 main_call2.v3 (broadcastInDim S50000x256 ![] bcast_S_S50000x256),
    TRef.binary main_call2.v3 (.of main_v67 : TRef sig ⟨S50000x256, .f32⟩) main_call2.v4 mulf,
    TRef.ternary main_call2.v1 (.of main_v67 : TRef sig ⟨S50000x256, .f32⟩) main_call2.v4 main_call2.call0.v0 select ]

theorem opsL2_sub : (opsL2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Layer 3 (256 → 128). -/
abbrev opsL3 : List (HloOp τ sig (Elt F)) :=
  [ unary main_arg1 main_v69 ((extractStridedSlice S1x800000 ![0, 0] · slices_S2x800000_S1x800000_0_0) : (⟨S2x800000, .i32⟩ : BufTy).Contents (Elt F) → (⟨S1x800000, .i32⟩ : BufTy).Contents (Elt F)),
    reshape main_v69 main_v70 rfl shapeCasts_S1x800000_S800000,
    unary main_arg1 main_v71 ((extractStridedSlice S1x800000 ![1, 0] · slices_S2x800000_S1x800000_1_0) : (⟨S2x800000, .i32⟩ : BufTy).Contents (Elt F) → (⟨S1x800000, .i32⟩ : BufTy).Contents (Elt F)),
    reshape main_v71 main_v72 rfl shapeCasts_S1x800000_S800000,
    nullary main_c_10 (constantI S_ 32 0#32),
    unary main_c_10 main_v73 (broadcastInDim S800000 ![] bcast_S_S800000 : (⟨S_, .i32⟩ : BufTy).Contents (Elt F) → (⟨S800000, .i32⟩ : BufTy).Contents (Elt F)),
    binary main_v70 main_v73 main_v74 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v75 (broadcastInDim S800000 ![] bcast_S_S800000 : (⟨S_, .i32⟩ : BufTy).Contents (Elt F) → (⟨S800000, .i32⟩ : BufTy).Contents (Elt F)),
    binary main_v70 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v70 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v68 main_v78 main_v79 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v80 (broadcastInDim S50000x256 ![] bcast_S_S50000x256 : (⟨S_, .f32⟩ : BufTy).Contents (Elt F) → (⟨S50000x256, .f32⟩ : BufTy).Contents (Elt F)),
    unary main_v72 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg11 main_v83 ((transpose S256x128 [1, 0] · transposes_S128x256_S256x128_1_0) : (⟨S128x256, .f32⟩ : BufTy).Contents (Elt F) → (⟨S256x128, .f32⟩ : BufTy).Contents (Elt F)),
    binary main_v82 main_v83 main_v84 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    unary main_arg12 main_v88 ((transpose S256x128 [1, 0] · transposes_S128x256_S256x128_1_0) : (⟨S128x256, .f32⟩ : BufTy).Contents (Elt F) → (⟨S256x128, .f32⟩ : BufTy).Contents (Elt F)),
    binary main_v68 main_v88 main_v89 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3C23D70A#32),
    TRef.nullary main_call3.cst (constant S_ .f32 0x00000000#32),
    TRef.unary main_call3.cst main_call3.v0 (broadcastInDim S50000x128 ![] bcast_S_S50000x128),
    TRef.binary (.of main_v90 : TRef sig ⟨S50000x128, .f32⟩) main_call3.v0 main_call3.v1 (cmpf .oge),
    TRef.unary (.of main_cst_13 : TRef sig ⟨S_, .f32⟩) main_call3.v2 id,
    TRef.unary main_call3.v2 main_call3.v3 (broadcastInDim S50000x128 ![] bcast_S_S50000x128),
    TRef.binary main_call3.v3 (.of main_v90 : TRef sig ⟨S50000x128, .f32⟩) main_call3.v4 mulf,
    TRef.ternary main_call3.v1 (.of main_v90 : TRef sig ⟨S50000x128, .f32⟩) main_call3.v4 main_call3.call0.v0 select ]

theorem opsL3_sub : (opsL3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- @main's operations, in order. -/
abbrev ops : List (HloOp τ sig (Elt F)) := opsL0 ++ (opsL1 ++ (opsL2 ++ opsL3))

/-- A fold over a concatenation is the folds one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The fold over all of @main is the four layers' folds in turn. -/
theorem after_ops (V : Valuation τ sig (Elt F)) :
    after (ops (F := F)) V = after opsL3 (after opsL2 (after opsL1 (after opsL0 V))) := by
  rw [ops, after_app, after_app, after_app]

-- one hundred and thirty-two binds re-associated: the rewrite under the chain recurses once per statement
set_option maxRecDepth 4096 in
set_option maxHeartbeats 4000000 in
/-- @main is that straight line: the two windows and the functions' bodies unfolded at their calls, both sides
    are one chain of steps once sequencing is re-associated. -/
theorem main_eq (c : Dev nD) : main (F := F) c = seq ops := by
  simp only [main, main_part0, main_part1, fn_leaky_relu.body, fn_leaky_relu_0.body, fn_leaky_relu_2.body,
    fn_where.body, fn_where_1.body, fn_where_3.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h
  · exact (List.forall_iff_forall_mem.mp opsL0_sub) op h
  · exact (List.forall_iff_forall_mem.mp opsL1_sub) op h
  · exact (List.forall_iff_forall_mem.mp opsL2_sub) op h
  · exact (List.forall_iff_forall_mem.mp opsL3_sub) op h

/-- On every device, for any float values, from any memory with zero counters: every weakly fair execution of
    @main terminates, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers layer 0's operations write. -/
abbrev opsL0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_cst_1, main_call0_cst, main_call0_v0, main_call0_v1, main_call0_v2, main_call0_v3, main_call0_v4, main_v22]
set_option maxRecDepth 8192 in
theorem opsL0_writes : (opsL0 : List (HloOp τ sig (Elt F))).Forall fun op => op.writes ⊆ (opsL0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer layer 0 does not write keeps its contents through it. -/
theorem keepL0 (V : Valuation τ sig (Elt F)) (r : Ref sig .tc) (h : r ∉ opsL0_W) :
    after opsL0 V (Proc.devRef .tc r) = V (Proc.devRef .tc r) :=
  after_of_writes_sub opsL0 _ opsL0_writes h

/-- The buffers layer 1's operations write. -/
abbrev opsL1_W : List (Ref sig .tc) := [main_v23, main_v24, main_v25, main_v26, main_c_2, main_v27, main_v28, main_c_3, main_v29, main_v30, main_v31, main_v32, main_v33, main_cst_4, main_v34, main_v35, main_v36, main_v37, main_v38, main_v39, main_v40, main_v41, main_v42, main_v43, main_v44, main_cst_5, main_call1_cst, main_call1_v0, main_call1_v1, main_call1_v2, main_call1_v3, main_call1_v4, main_v45]
set_option maxRecDepth 8192 in
theorem opsL1_writes : (opsL1 : List (HloOp τ sig (Elt F))).Forall fun op => op.writes ⊆ (opsL1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer layer 1 does not write keeps its contents through it. -/
theorem keepL1 (V : Valuation τ sig (Elt F)) (r : Ref sig .tc) (h : r ∉ opsL1_W) :
    after opsL1 V (Proc.devRef .tc r) = V (Proc.devRef .tc r) :=
  after_of_writes_sub opsL1 _ opsL1_writes h

/-- The buffers layer 2's operations write. -/
abbrev opsL2_W : List (Ref sig .tc) := [main_v46, main_v47, main_v48, main_v49, main_c_6, main_v50, main_v51, main_c_7, main_v52, main_v53, main_v54, main_v55, main_v56, main_cst_8, main_v57, main_v58, main_v59, main_v60, main_v61, main_v62, main_v63, main_v64, main_v65, main_v66, main_v67, main_cst_9, main_call2_cst, main_call2_v0, main_call2_v1, main_call2_v2, main_call2_v3, main_call2_v4, main_v68]
set_option maxRecDepth 8192 in
theorem opsL2_writes : (opsL2 : List (HloOp τ sig (Elt F))).Forall fun op => op.writes ⊆ (opsL2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer layer 2 does not write keeps its contents through it. -/
theorem keepL2 (V : Valuation τ sig (Elt F)) (r : Ref sig .tc) (h : r ∉ opsL2_W) :
    after opsL2 V (Proc.devRef .tc r) = V (Proc.devRef .tc r) :=
  after_of_writes_sub opsL2 _ opsL2_writes h

/-- The buffers layer 3's operations write. -/
abbrev opsL3_W : List (Ref sig .tc) := [main_v69, main_v70, main_v71, main_v72, main_c_10, main_v73, main_v74, main_c_11, main_v75, main_v76, main_v77, main_v78, main_v79, main_cst_12, main_v80, main_v81, main_v82, main_v83, main_v84, main_v85, main_v86, main_v87, main_v88, main_v89, main_v90, main_cst_13, main_call3_cst, main_call3_v0, main_call3_v1, main_call3_v2, main_call3_v3, main_call3_v4, main_v91]
set_option maxRecDepth 8192 in
theorem opsL3_writes : (opsL3 : List (HloOp τ sig (Elt F))).Forall fun op => op.writes ⊆ (opsL3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer layer 3 does not write keeps its contents through it. -/
theorem keepL3 (V : Valuation τ sig (Elt F)) (r : Ref sig .tc) (h : r ∉ opsL3_W) :
    after opsL3 V (Proc.devRef .tc r) = V (Proc.devRef .tc r) :=
  after_of_writes_sub opsL3 _ opsL3_writes h

/-- A buffer no layer writes keeps its contents through @main. -/
theorem keep_all (V : Valuation τ sig (Elt F)) (r : Ref sig .tc) (h0 : r ∉ opsL0_W) (h1 : r ∉ opsL1_W) (h2 : r ∉ opsL2_W)
    (h3 : r ∉ opsL3_W) : after (ops (F := F)) V (Proc.devRef .tc r) = V (Proc.devRef .tc r) := by
  rw [after_ops, keepL3 _ r h3, keepL2 _ r h2, keepL1 _ r h1, keepL0 _ r h0]

/-- Result 0, the reconstruction: what @main leaves in the last layer's buffer. -/
def outR (m : (ℓ : Loc nD τ sig) → Buf (Elt F) ℓ) (c : Dev nD) : Buf (Elt F) ((c.tc : Thread nD τ).loc main_v91) :=
  after ops (launchContents m c) (main_v91 : DevRef τ sig)

/-- Result 1, the embedding: what @main leaves in layer 1's buffer. -/
def embR (m : (ℓ : Loc nD τ sig) → Buf (Elt F) ℓ) (c : Dev nD) : Buf (Elt F) ((c.tc : Thread nD τ).loc main_v45) :=
  after ops (launchContents m c) (main_v45 : DevRef τ sig)

/-- On every device, for any float values, from any memory with zero counters: every weakly fair execution of
    @main terminates with the two results at the operations' fold over the launch contents and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = outR m c
      ∧ r.2.mem ((c.tc : Thread nD τ).loc main_v45) = embR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v91, h c main_v45,
      (h c main_arg0).trans (keep_all _ main_arg0 (by decide) (by decide) (by decide) (by decide)),
      (h c main_arg1).trans (keep_all _ main_arg1 (by decide) (by decide) (by decide) (by decide)),
      (h c main_arg2).trans (keep_all _ main_arg2 (by decide) (by decide) (by decide) (by decide)),
      (h c main_arg3).trans (keep_all _ main_arg3 (by decide) (by decide) (by decide) (by decide)),
      (h c main_arg4).trans (keep_all _ main_arg4 (by decide) (by decide) (by decide) (by decide)),
      (h c main_arg5).trans (keep_all _ main_arg5 (by decide) (by decide) (by decide) (by decide)),
      (h c main_arg6).trans (keep_all _ main_arg6 (by decide) (by decide) (by decide) (by decide)),
      (h c main_arg7).trans (keep_all _ main_arg7 (by decide) (by decide) (by decide) (by decide)),
      (h c main_arg8).trans (keep_all _ main_arg8 (by decide) (by decide) (by decide) (by decide)),
      (h c main_arg9).trans (keep_all _ main_arg9 (by decide) (by decide) (by decide) (by decide)),
      (h c main_arg10).trans (keep_all _ main_arg10 (by decide) (by decide) (by decide) (by decide)),
      (h c main_arg11).trans (keep_all _ main_arg11 (by decide) (by decide) (by decide) (by decide)),
      (h c main_arg12).trans (keep_all _ main_arg12 (by decide) (by decide) (by decide) (by decide)),
      (h c main_arg13).trans (keep_all _ main_arg13 (by decide) (by decide) (by decide) (by decide))⟩)
    (run_main m ρ)

end Cert.ReferenceIdeal.RefValue

end
-- ==== Proof.RefOps.lean ====
/-
  The reference's host operations read at the extended reals, one lemma per kind of operation, over any
  node count, widths and edge count: a product with plain dimension numbers is the matrix product, a
  transpose by [1, 0] is the transpose, a bias broadcast along the rows reads the bias at the column, the
  accumulating scatter onto zeros is the per-node sum, and the compare / multiply / select chain is the
  leaky unit.  A layer's composed term is then the layer of the specification.
-/
import proofs.«128899_j82635170775050_2_alg».proof.Proof.Spec
import proofs.«128899_j82635170775050_2_alg».proof.Proof.LibEdges
import proofs.«128899_j82635170775050_2_alg».proof.Proof.EdgeIdx
import proofs.«128899_j82635170775050_2_alg».proof.Proof.LibLayout
import Idealize.ShloMosaic.PureOps

noncomputable section

namespace Cert.ReferenceIdeal.RefValue

open Idealize.ShloMosaic Idealize.ShloMosaic.ValueIdx Cert.GC

/-- The dimension numbers of an [n, k] by [k, m] product: the left operand's axis 1 against the right
    operand's axis 0, no batch axis. -/
abbrev plainDot (n k m : Nat)
    (wf : DotDims.WF ⟨2, ![n, k]⟩ ⟨2, ![k, m]⟩ ⟨2, ![n, m]⟩ [1] [0] [0] [1] [] []) :
    DotDims ⟨2, ![n, k]⟩ ⟨2, ![k, m]⟩ ⟨2, ![n, m]⟩ where
  lhsContracting := [1]
  rhsContracting := [0]
  lhsNonContracting := [0]
  rhsNonContracting := [1]
  lhsBatch := []
  rhsBatch := []
  wf := wf

section Dot

variable {n k m : Nat} (wf : DotDims.WF ⟨2, ![n, k]⟩ ⟨2, ![k, m]⟩ ⟨2, ![n, m]⟩ [1] [0] [0] [1] [] [])

theorem dot_lhs0 (j : (⟨2, ![n, m]⟩ : Shape).Idx) (q : (plainDot n k m wf).contr.Idx) :
    ((plainDot n k m wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

theorem dot_lhs1 (j : (⟨2, ![n, m]⟩ : Shape).Idx) (q : (plainDot n k m wf).contr.Idx) :
    ((plainDot n k m wf).lhsIdx j q 1).val = (q ⟨0, Nat.one_pos⟩).val :=
  (plainDot n k m wf).lhsIdx_val_of_single rfl j q

theorem dot_rhs0 (j : (⟨2, ![n, m]⟩ : Shape).Idx) (q : (plainDot n k m wf).contr.Idx) :
    ((plainDot n k m wf).rhsIdx j q 0).val = (q ⟨0, Nat.one_pos⟩).val :=
  (plainDot n k m wf).rhsIdx_val_of_single rfl j q

theorem dot_rhs1 (j : (⟨2, ![n, m]⟩ : Shape).Idx) (q : (plainDot n k m wf).contr.Idx) :
    ((plainDot n k m wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The host's product with plain dimension numbers, at the extended reals, is the matrix product. -/
theorem dot_mm (l : A2 n k) (r : A2 k m) :
    Host.dotGeneral (F := Ideal) (φ₁ := .f32) (φ₂ := .f32) (plainDot n k m wf) none l r = mm l r := by
  funext j
  simp only [Host.dotGeneral]
  rw [Ideal.dotGeneral_apply, ← Equiv.sum_comp (contrEquiv1 (plainDot n k m wf) k rfl rfl).symm]
  unfold mm
  refine Finset.sum_congr rfl fun q _ => ?_
  have hq := contrEquiv1_symm_val (plainDot n k m wf) k rfl rfl q
  have el : (plainDot n k m wf).lhsIdx j ((contrEquiv1 (plainDot n k m wf) k rfl rfl).symm q)
      = ix2 ⟨(j 0).val, idx2_lt0 j⟩ q := funext fun a => Fin.ext (by
    match a with
    | ⟨0, _⟩ => exact dot_lhs0 wf _ _
    | ⟨1, _⟩ => exact (dot_lhs1 wf _ _).trans hq)
  have er : (plainDot n k m wf).rhsIdx j ((contrEquiv1 (plainDot n k m wf) k rfl rfl).symm q)
      = ix2 q ⟨(j 1).val, idx2_lt1 j⟩ := funext fun a => Fin.ext (by
    match a with
    | ⟨0, _⟩ => exact (dot_rhs0 wf _ _).trans hq
    | ⟨1, _⟩ => exact dot_rhs1 wf _ _)
  rw [el, er]

end Dot

/-- A bias broadcast to a [1, m] row and then along the n rows reads, at (i, j), the bias at j. -/
theorem bias_apply {n m : Nat} (hm : m ≠ 1)
    (h1 : (⟨1, ![m]⟩ : Shape).BroadcastsInDim ⟨2, ![1, m]⟩ (![1] : Fin 1 → Fin 2))
    (h2 : (⟨2, ![1, m]⟩ : Shape).BroadcastsInDim ⟨2, ![n, m]⟩ (![0, 1] : Fin 2 → Fin 2))
    (b : A1 m) (i : (⟨2, ![n, m]⟩ : Shape).Idx) :
    broadcastInDim ⟨2, ![n, m]⟩ ![0, 1] h2 (broadcastInDim ⟨2, ![1, m]⟩ ![1] h1 b) i
      = b (ix1 ⟨(i 1).val, idx2_lt1 i⟩) := by
  unfold broadcastInDim
  congr 1
  funext a
  match a with
  | ⟨0, _⟩ =>
    apply Fin.ext
    split_ifs with c1
    · exact absurd c1 hm
    · dsimp only
      split_ifs with c2
      · exact absurd c2 hm
      · rfl

/-- The zero constant broadcast to any shape is zero everywhere. -/
theorem zeros_apply {s : Shape} (hz : (⟨0, ![]⟩ : Shape).BroadcastsInDim s (![] : Fin 0 → Fin s.rank)) (i : s.Idx) :
    broadcastInDim s ![] hz (constant (F := Ideal) ⟨0, ![]⟩ .f32 0x00000000#32) i = (0 : EReal) := by
  show Ideal.ofBits .f32 0x00000000#32 = 0
  exact Ideal.ofBits_zero_f32

/-- The compare-with-zero, multiply-by-the-slope, select chain is the leaky unit, entry by entry. -/
theorem leaky_eq {s : Shape} (hz : (⟨0, ![]⟩ : Shape).BroadcastsInDim s (![] : Fin 0 → Fin s.rank))
    (h : s.Idx → EReal) :
    select (cmpf (F := Ideal) (φ := .f32) .oge h (broadcastInDim s ![] hz (constant (F := Ideal) ⟨0, ![]⟩ .f32 0x00000000#32)))
        h (mulf (F := Ideal) (φ := .f32) (broadcastInDim s ![] hz (constant (F := Ideal) ⟨0, ![]⟩ .f32 0x3C23D70A#32)) h)
      = fun i => lk (h i) := by
  funext i
  show Scalar.select (Ideal.cmp .oge (h i) (Ideal.ofBits .f32 0x00000000#32)) (h i) (Ideal.ofBits .f32 0x3C23D70A#32 * h i) = lk (h i)
  rw [Ideal.ofBits_zero_f32]
  rfl

section Layer

variable {k m : Nat}
  (wfg : GatherDims.WF ⟨2, ![50000, k]⟩ ⟨2, ![800000, 1]⟩ ⟨2, ![800000, k]⟩ [1] [0] [] [0] [] 1 ![1, k])
  (wfs : ScatterDims.WF ⟨2, ![50000, k]⟩ ⟨2, ![800000, 1]⟩ ⟨2, ![800000, k]⟩ [1] [0] [0] 1)
  (wfd : DotDims.WF ⟨2, ![50000, k]⟩ ⟨2, ![k, m]⟩ ⟨2, ![50000, m]⟩ [1] [0] [0] [1] [] [])
  (hzk : (⟨0, ![]⟩ : Shape).BroadcastsInDim ⟨2, ![50000, k]⟩ (![] : Fin 0 → Fin 2))
  (hzm : (⟨0, ![]⟩ : Shape).BroadcastsInDim ⟨2, ![50000, m]⟩ (![] : Fin 0 → Fin 2))
  (ht : (⟨2, ![m, k]⟩ : Shape).Transposes [1, 0] ⟨2, ![k, m]⟩)
  (h1 : (⟨1, ![m]⟩ : Shape).BroadcastsInDim ⟨2, ![1, m]⟩ (![1] : Fin 1 → Fin 2))
  (h2 : (⟨2, ![1, m]⟩ : Shape).BroadcastsInDim ⟨2, ![50000, m]⟩ (![0, 1] : Fin 2 → Fin 2))

/-- A layer's value before the leaky unit, as the reference composes it: the aggregate's product plus the bias,
    plus the features' product. -/
def preR (src dst : EI 800000) (x : A2 50000 k) (wrel wroot : A2 m k) (b : A1 m) : A2 50000 m :=
  addf (F := Ideal) (φ := .f32)
    (addf (F := Ideal) (φ := .f32)
      (Host.dotGeneral (F := Ideal) (φ₁ := .f32) (φ₂ := .f32) (plainDot 50000 k m wfd) none
        (Host.scatterAdd (F := Ideal) (φ := .f32) (rowScatter 50000 k 800000 wfs)
          (broadcastInDim ⟨2, ![50000, k]⟩ ![] hzk (constant (F := Ideal) ⟨0, ![]⟩ .f32 0x00000000#32)) dst
          (Host.gather (rowGather 50000 k 800000 wfg) x src))
        (transpose ⟨2, ![k, m]⟩ [1, 0] wrel ht))
      (broadcastInDim ⟨2, ![50000, m]⟩ ![0, 1] h2 (broadcastInDim ⟨2, ![1, m]⟩ ![1] h1 b)))
    (Host.dotGeneral (F := Ideal) (φ₁ := .f32) (φ₂ := .f32) (plainDot 50000 k m wfd) none x
      (transpose ⟨2, ![k, m]⟩ [1, 0] wroot ht))

/-- The reference's layer: its composed host operations are the specification's layer. -/
theorem layer_eq (hm : m ≠ 1) (src dst : EI 800000) (x : A2 50000 k) (wrel wroot : A2 m k) (b : A1 m) :
    select (cmpf (F := Ideal) (φ := .f32) .oge (preR wfg wfs wfd hzk ht h1 h2 src dst x wrel wroot b)
          (broadcastInDim ⟨2, ![50000, m]⟩ ![] hzm (constant (F := Ideal) ⟨0, ![]⟩ .f32 0x00000000#32)))
        (preR wfg wfs wfd hzk ht h1 h2 src dst x wrel wroot b)
        (mulf (F := Ideal) (φ := .f32)
          (broadcastInDim ⟨2, ![50000, m]⟩ ![] hzm (constant (F := Ideal) ⟨0, ![]⟩ .f32 0x3C23D70A#32))
          (preR wfg wfs wfd hzk ht h1 h2 src dst x wrel wroot b))
      = layerR (segsum hN src dst x) x (tr wrel) (tr wroot) b := by
  rw [leaky_eq]
  funext i
  unfold layerR
  congr 1
  unfold preR
  rw [segsum_host wfg wfs hzk x src dst, dot_mm, dot_mm, transpose_eq_tr, transpose_eq_tr]
  show (_ + broadcastInDim ⟨2, ![50000, m]⟩ ![0, 1] h2 (broadcastInDim ⟨2, ![1, m]⟩ ![1] h1 b) i) + _ = _
  rw [bias_apply hm h1 h2 b i]

end Layer

end Cert.ReferenceIdeal.RefValue

end
-- ==== Proof.RefValue.lean ====
/-
  The reference's two results are the specification's four-layer stack: each layer's window of host
  operations computes the layer of the specification from the previous layer's buffer, the edge array and
  that layer's weights and bias, and no layer writes a buffer a later layer reads other than its own result.
  Each window is read in two parts: the operations up to the value before the leaky unit, and the leaky unit.
-/
import proofs.«128899_j82635170775050_2_alg».proof.Proof.RefRun
import proofs.«128899_j82635170775050_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GC

variable {F : FTy → Type} [FloatOps F]

/-- Layer 0's operations up to its value before the leaky unit. -/
abbrev opsA0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg2 main_v14 ((transpose S128x256 [1, 0] · transposes_S256x128_S128x256_1_0) : (⟨S256x128, .f32⟩ : BufTy).Contents (Elt F) → (⟨S128x256, .f32⟩ : BufTy).Contents (Elt F)),
    binary main_v13 main_v14 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    unary main_arg3 main_v19 ((transpose S128x256 [1, 0] · transposes_S256x128_S128x256_1_0) : (⟨S256x128, .f32⟩ : BufTy).Contents (Elt F) → (⟨S128x256, .f32⟩ : BufTy).Contents (Elt F)),
    binary main_arg0 main_v19 main_v20 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)) ]

/-- Layer 0's leaky unit: the slope constant and the inlined function's seven operations. -/
abbrev opsB0 : List (HloOp τ sig (Elt F)) :=
  [ nullary main_cst_1 (constant S_ .f32 0x3C23D70A#32),
    TRef.nullary main_call0.cst (constant S_ .f32 0x00000000#32),
    TRef.unary main_call0.cst main_call0.v0 (broadcastInDim S50000x256 ![] bcast_S_S50000x256),
    TRef.binary (.of main_v21 : TRef sig ⟨S50000x256, .f32⟩) main_call0.v0 main_call0.v1 (cmpf .oge),
    TRef.unary (.of main_cst_1 : TRef sig ⟨S_, .f32⟩) main_call0.v2 id,
    TRef.unary main_call0.v2 main_call0.v3 (broadcastInDim S50000x256 ![] bcast_S_S50000x256),
    TRef.binary main_call0.v3 (.of main_v21 : TRef sig ⟨S50000x256, .f32⟩) main_call0.v4 mulf,
    TRef.ternary main_call0.v1 (.of main_v21 : TRef sig ⟨S50000x256, .f32⟩) main_call0.v4 main_call0.call0.v0 select ]

theorem opsL0_split : (opsL0 (F := F)) = opsA0 ++ opsB0 := rfl

set_option maxRecDepth 8192 in
set_option maxHeartbeats 4000000 in
/-- Layer 0's value before the leaky unit is the reference's composed term of the window's inputs. -/
theorem preA0 (V : Valuation τ sig (Elt Ideal)) :
    after (opsA0 (F := Ideal)) V (Proc.devRef .tc main_v21)
      = preR (k := 128) (m := 256) gather_S50000x128_S800000x1_S800000x128_1_0_n_n_0_1_1128_wf scatter_S50000x128_S800000x1_S800000x128_1_0_0_1_wf dot_S50000x128_S128x256_S50000x256_1_0_0_1_n_n_wf bcast_S_S50000x128 transposes_S256x128_S128x256_1_0 bcast_S256_S1x256_1 bcast_S1x256_S50000x256_0_1
          (srcOf (V (Proc.devRef .tc main_arg1))) (dstOf (V (Proc.devRef .tc main_arg1))) (V (Proc.devRef .tc main_arg0)) (V (Proc.devRef .tc main_arg2)) (V (Proc.devRef .tc main_arg3)) (V (Proc.devRef .tc main_arg4)) := by
  simp only [opsA0]
  after_results_simp
  rfl

set_option maxRecDepth 8192 in
set_option maxHeartbeats 4000000 in
/-- Layer 0's leaky unit reads the value before it, and nothing else. -/
theorem leakB0 (W : Valuation τ sig (Elt Ideal)) :
    after (opsB0 (F := Ideal)) W (Proc.devRef .tc main_v22)
      = select (cmpf (F := Ideal) (φ := .f32) .oge (W (Proc.devRef .tc main_v21))
            (broadcastInDim ⟨2, ![50000, 256]⟩ ![] bcast_S_S50000x256 (constant (F := Ideal) ⟨0, ![]⟩ .f32 0x00000000#32)))
          (W (Proc.devRef .tc main_v21))
          (mulf (F := Ideal) (φ := .f32)
            (broadcastInDim ⟨2, ![50000, 256]⟩ ![] bcast_S_S50000x256 (constant (F := Ideal) ⟨0, ![]⟩ .f32 0x3C23D70A#32))
            (W (Proc.devRef .tc main_v21))) := by
  simp only [opsB0]
  after_results_simp
  rfl

/-- Layer 0's window leaves the layer of the specification in its result buffer. -/
theorem valL0 (V : Valuation τ sig (Elt Ideal)) :
    after (opsL0 (F := Ideal)) V (Proc.devRef .tc main_v22)
      = layerR (segsum hN (srcOf (V (Proc.devRef .tc main_arg1))) (dstOf (V (Proc.devRef .tc main_arg1))) (V (Proc.devRef .tc main_arg0)))
          (V (Proc.devRef .tc main_arg0)) (tr (V (Proc.devRef .tc main_arg2))) (tr (V (Proc.devRef .tc main_arg3))) (V (Proc.devRef .tc main_arg4)) := by
  rw [opsL0_split, after_app, leakB0, preA0]
  exact layer_eq (k := 128) (m := 256) gather_S50000x128_S800000x1_S800000x128_1_0_n_n_0_1_1128_wf scatter_S50000x128_S800000x1_S800000x128_1_0_0_1_wf dot_S50000x128_S128x256_S50000x256_1_0_0_1_n_n_wf
    bcast_S_S50000x128 bcast_S_S50000x256 transposes_S256x128_S128x256_1_0 bcast_S256_S1x256_1 bcast_S1x256_S50000x256_0_1 (by norm_num)
    (srcOf (V (Proc.devRef .tc main_arg1))) (dstOf (V (Proc.devRef .tc main_arg1))) (V (Proc.devRef .tc main_arg0)) (V (Proc.devRef .tc main_arg2)) (V (Proc.devRef .tc main_arg3)) (V (Proc.devRef .tc main_arg4))

/-- Layer 1's operations up to its value before the leaky unit. -/
abbrev opsA1 : List (HloOp τ sig (Elt F)) :=
  [ unary main_arg1 main_v23 ((extractStridedSlice S1x800000 ![0, 0] · slices_S2x800000_S1x800000_0_0) : (⟨S2x800000, .i32⟩ : BufTy).Contents (Elt F) → (⟨S1x800000, .i32⟩ : BufTy).Contents (Elt F)),
    reshape main_v23 main_v24 rfl shapeCasts_S1x800000_S800000,
    unary main_arg1 main_v25 ((extractStridedSlice S1x800000 ![1, 0] · slices_S2x800000_S1x800000_1_0) : (⟨S2x800000, .i32⟩ : BufTy).Contents (Elt F) → (⟨S1x800000, .i32⟩ : BufTy).Contents (Elt F)),
    reshape main_v25 main_v26 rfl shapeCasts_S1x800000_S800000,
    nullary main_c_2 (constantI S_ 32 0#32),
    unary main_c_2 main_v27 (broadcastInDim S800000 ![] bcast_S_S800000 : (⟨S_, .i32⟩ : BufTy).Contents (Elt F) → (⟨S800000, .i32⟩ : BufTy).Contents (Elt F)),
    binary main_v24 main_v27 main_v28 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v29 (broadcastInDim S800000 ![] bcast_S_S800000 : (⟨S_, .i32⟩ : BufTy).Contents (Elt F) → (⟨S800000, .i32⟩ : BufTy).Contents (Elt F)),
    binary main_v24 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v24 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v22 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_4 (constant S_ .f32 0x00000000#32),
    unary main_cst_4 main_v34 (broadcastInDim S50000x256 ![] bcast_S_S50000x256 : (⟨S_, .f32⟩ : BufTy).Contents (Elt F) → (⟨S50000x256, .f32⟩ : BufTy).Contents (Elt F)),
    unary main_v26 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg5 main_v37 ((transpose S256x64 [1, 0] · transposes_S64x256_S256x64_1_0) : (⟨S64x256, .f32⟩ : BufTy).Contents (Elt F) → (⟨S256x64, .f32⟩ : BufTy).Contents (Elt F)),
    binary main_v36 main_v37 main_v38 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg7 main_v39 (broadcastInDim S1x64 ![1] bcast_S64_S1x64_1 : (⟨S64, .f32⟩ : BufTy).Contents (Elt F) → (⟨S1x64, .f32⟩ : BufTy).Contents (Elt F)),
    unary main_v39 main_v40 (broadcastInDim S50000x64 ![0, 1] bcast_S1x64_S50000x64_0_1 : (⟨S1x64, .f32⟩ : BufTy).Contents (Elt F) → (⟨S50000x64, .f32⟩ : BufTy).Contents (Elt F)),
    binary main_v38 main_v40 main_v41 (addf : (⟨S50000x64, .f32⟩ : BufTy).Contents (Elt F) → (⟨S50000x64, .f32⟩ : BufTy).Contents (Elt F) → (⟨S50000x64, .f32⟩ : BufTy).Contents (Elt F)),
    unary main_arg6 main_v42 ((transpose S256x64 [1, 0] · transposes_S64x256_S256x64_1_0) : (⟨S64x256, .f32⟩ : BufTy).Contents (Elt F) → (⟨S256x64, .f32⟩ : BufTy).Contents (Elt F)),
    binary main_v22 main_v42 main_v43 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)) ]

/-- Layer 1's leaky unit: the slope constant and the inlined function's seven operations. -/
abbrev opsB1 : List (HloOp τ sig (Elt F)) :=
  [ nullary main_cst_5 (constant S_ .f32 0x3C23D70A#32),
    TRef.nullary main_call1.cst (constant S_ .f32 0x00000000#32),
    TRef.unary main_call1.cst main_call1.v0 (broadcastInDim S50000x64 ![] bcast_S_S50000x64),
    TRef.binary (.of main_v44 : TRef sig ⟨S50000x64, .f32⟩) main_call1.v0 main_call1.v1 (cmpf .oge),
    TRef.unary (.of main_cst_5 : TRef sig ⟨S_, .f32⟩) main_call1.v2 id,
    TRef.unary main_call1.v2 main_call1.v3 (broadcastInDim S50000x64 ![] bcast_S_S50000x64),
    TRef.binary main_call1.v3 (.of main_v44 : TRef sig ⟨S50000x64, .f32⟩) main_call1.v4 mulf,
    TRef.ternary main_call1.v1 (.of main_v44 : TRef sig ⟨S50000x64, .f32⟩) main_call1.v4 main_call1.call0.v0 select ]

theorem opsL1_split : (opsL1 (F := F)) = opsA1 ++ opsB1 := rfl

set_option maxRecDepth 8192 in
set_option maxHeartbeats 4000000 in
/-- Layer 1's value before the leaky unit is the reference's composed term of the window's inputs. -/
theorem preA1 (V : Valuation τ sig (Elt Ideal)) :
    after (opsA1 (F := Ideal)) V (Proc.devRef .tc main_v44)
      = preR (k := 256) (m := 64) gather_S50000x256_S800000x1_S800000x256_1_0_n_n_0_1_1256_wf scatter_S50000x256_S800000x1_S800000x256_1_0_0_1_wf dot_S50000x256_S256x64_S50000x64_1_0_0_1_n_n_wf bcast_S_S50000x256 transposes_S64x256_S256x64_1_0 bcast_S64_S1x64_1 bcast_S1x64_S50000x64_0_1
          (srcOf (V (Proc.devRef .tc main_arg1))) (dstOf (V (Proc.devRef .tc main_arg1))) (V (Proc.devRef .tc main_v22)) (V (Proc.devRef .tc main_arg5)) (V (Proc.devRef .tc main_arg6)) (V (Proc.devRef .tc main_arg7)) := by
  simp only [opsA1]
  after_results_simp
  rfl

set_option maxRecDepth 8192 in
set_option maxHeartbeats 4000000 in
/-- Layer 1's leaky unit reads the value before it, and nothing else. -/
theorem leakB1 (W : Valuation τ sig (Elt Ideal)) :
    after (opsB1 (F := Ideal)) W (Proc.devRef .tc main_v45)
      = select (cmpf (F := Ideal) (φ := .f32) .oge (W (Proc.devRef .tc main_v44))
            (broadcastInDim ⟨2, ![50000, 64]⟩ ![] bcast_S_S50000x64 (constant (F := Ideal) ⟨0, ![]⟩ .f32 0x00000000#32)))
          (W (Proc.devRef .tc main_v44))
          (mulf (F := Ideal) (φ := .f32)
            (broadcastInDim ⟨2, ![50000, 64]⟩ ![] bcast_S_S50000x64 (constant (F := Ideal) ⟨0, ![]⟩ .f32 0x3C23D70A#32))
            (W (Proc.devRef .tc main_v44))) := by
  simp only [opsB1]
  after_results_simp
  rfl

/-- Layer 1's window leaves the layer of the specification in its result buffer. -/
theorem valL1 (V : Valuation τ sig (Elt Ideal)) :
    after (opsL1 (F := Ideal)) V (Proc.devRef .tc main_v45)
      = layerR (segsum hN (srcOf (V (Proc.devRef .tc main_arg1))) (dstOf (V (Proc.devRef .tc main_arg1))) (V (Proc.devRef .tc main_v22)))
          (V (Proc.devRef .tc main_v22)) (tr (V (Proc.devRef .tc main_arg5))) (tr (V (Proc.devRef .tc main_arg6))) (V (Proc.devRef .tc main_arg7)) := by
  rw [opsL1_split, after_app, leakB1, preA1]
  exact layer_eq (k := 256) (m := 64) gather_S50000x256_S800000x1_S800000x256_1_0_n_n_0_1_1256_wf scatter_S50000x256_S800000x1_S800000x256_1_0_0_1_wf dot_S50000x256_S256x64_S50000x64_1_0_0_1_n_n_wf
    bcast_S_S50000x256 bcast_S_S50000x64 transposes_S64x256_S256x64_1_0 bcast_S64_S1x64_1 bcast_S1x64_S50000x64_0_1 (by norm_num)
    (srcOf (V (Proc.devRef .tc main_arg1))) (dstOf (V (Proc.devRef .tc main_arg1))) (V (Proc.devRef .tc main_v22)) (V (Proc.devRef .tc main_arg5)) (V (Proc.devRef .tc main_arg6)) (V (Proc.devRef .tc main_arg7))

/-- Layer 2's operations up to its value before the leaky unit. -/
abbrev opsA2 : List (HloOp τ sig (Elt F)) :=
  [ unary main_arg1 main_v46 ((extractStridedSlice S1x800000 ![0, 0] · slices_S2x800000_S1x800000_0_0) : (⟨S2x800000, .i32⟩ : BufTy).Contents (Elt F) → (⟨S1x800000, .i32⟩ : BufTy).Contents (Elt F)),
    reshape main_v46 main_v47 rfl shapeCasts_S1x800000_S800000,
    unary main_arg1 main_v48 ((extractStridedSlice S1x800000 ![1, 0] · slices_S2x800000_S1x800000_1_0) : (⟨S2x800000, .i32⟩ : BufTy).Contents (Elt F) → (⟨S1x800000, .i32⟩ : BufTy).Contents (Elt F)),
    reshape main_v48 main_v49 rfl shapeCasts_S1x800000_S800000,
    nullary main_c_6 (constantI S_ 32 0#32),
    unary main_c_6 main_v50 (broadcastInDim S800000 ![] bcast_S_S800000 : (⟨S_, .i32⟩ : BufTy).Contents (Elt F) → (⟨S800000, .i32⟩ : BufTy).Contents (Elt F)),
    binary main_v47 main_v50 main_v51 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v52 (broadcastInDim S800000 ![] bcast_S_S800000 : (⟨S_, .i32⟩ : BufTy).Contents (Elt F) → (⟨S800000, .i32⟩ : BufTy).Contents (Elt F)),
    binary main_v47 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v47 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v45 main_v55 main_v56 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v57 (broadcastInDim S50000x64 ![] bcast_S_S50000x64 : (⟨S_, .f32⟩ : BufTy).Contents (Elt F) → (⟨S50000x64, .f32⟩ : BufTy).Contents (Elt F)),
    unary main_v49 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg8 main_v60 ((transpose S64x256 [1, 0] · transposes_S256x64_S64x256_1_0) : (⟨S256x64, .f32⟩ : BufTy).Contents (Elt F) → (⟨S64x256, .f32⟩ : BufTy).Contents (Elt F)),
    binary main_v59 main_v60 main_v61 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v61 main_v63 main_v64 (addf : (⟨S50000x256, .f32⟩ : BufTy).Contents (Elt F) → (⟨S50000x256, .f32⟩ : BufTy).Contents (Elt F) → (⟨S50000x256, .f32⟩ : BufTy).Contents (Elt F)),
    unary main_arg9 main_v65 ((transpose S64x256 [1, 0] · transposes_S256x64_S64x256_1_0) : (⟨S256x64, .f32⟩ : BufTy).Contents (Elt F) → (⟨S64x256, .f32⟩ : BufTy).Contents (Elt F)),
    binary main_v45 main_v65 main_v66 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)) ]

/-- Layer 2's leaky unit: the slope constant and the inlined function's seven operations. -/
abbrev opsB2 : List (HloOp τ sig (Elt F)) :=
  [ nullary main_cst_9 (constant S_ .f32 0x3C23D70A#32),
    TRef.nullary main_call2.cst (constant S_ .f32 0x00000000#32),
    TRef.unary main_call2.cst main_call2.v0 (broadcastInDim S50000x256 ![] bcast_S_S50000x256),
    TRef.binary (.of main_v67 : TRef sig ⟨S50000x256, .f32⟩) main_call2.v0 main_call2.v1 (cmpf .oge),
    TRef.unary (.of main_cst_9 : TRef sig ⟨S_, .f32⟩) main_call2.v2 id,
    TRef.unary main_call2.v2 main_call2.v3 (broadcastInDim S50000x256 ![] bcast_S_S50000x256),
    TRef.binary main_call2.v3 (.of main_v67 : TRef sig ⟨S50000x256, .f32⟩) main_call2.v4 mulf,
    TRef.ternary main_call2.v1 (.of main_v67 : TRef sig ⟨S50000x256, .f32⟩) main_call2.v4 main_call2.call0.v0 select ]

theorem opsL2_split : (opsL2 (F := F)) = opsA2 ++ opsB2 := rfl

set_option maxRecDepth 8192 in
set_option maxHeartbeats 4000000 in
/-- Layer 2's value before the leaky unit is the reference's composed term of the window's inputs. -/
theorem preA2 (V : Valuation τ sig (Elt Ideal)) :
    after (opsA2 (F := Ideal)) V (Proc.devRef .tc main_v67)
      = preR (k := 64) (m := 256) gather_S50000x64_S800000x1_S800000x64_1_0_n_n_0_1_164_wf scatter_S50000x64_S800000x1_S800000x64_1_0_0_1_wf dot_S50000x64_S64x256_S50000x256_1_0_0_1_n_n_wf bcast_S_S50000x64 transposes_S256x64_S64x256_1_0 bcast_S256_S1x256_1 bcast_S1x256_S50000x256_0_1
          (srcOf (V (Proc.devRef .tc main_arg1))) (dstOf (V (Proc.devRef .tc main_arg1))) (V (Proc.devRef .tc main_v45)) (V (Proc.devRef .tc main_arg8)) (V (Proc.devRef .tc main_arg9)) (V (Proc.devRef .tc main_arg10)) := by
  simp only [opsA2]
  after_results_simp
  rfl

set_option maxRecDepth 8192 in
set_option maxHeartbeats 4000000 in
/-- Layer 2's leaky unit reads the value before it, and nothing else. -/
theorem leakB2 (W : Valuation τ sig (Elt Ideal)) :
    after (opsB2 (F := Ideal)) W (Proc.devRef .tc main_v68)
      = select (cmpf (F := Ideal) (φ := .f32) .oge (W (Proc.devRef .tc main_v67))
            (broadcastInDim ⟨2, ![50000, 256]⟩ ![] bcast_S_S50000x256 (constant (F := Ideal) ⟨0, ![]⟩ .f32 0x00000000#32)))
          (W (Proc.devRef .tc main_v67))
          (mulf (F := Ideal) (φ := .f32)
            (broadcastInDim ⟨2, ![50000, 256]⟩ ![] bcast_S_S50000x256 (constant (F := Ideal) ⟨0, ![]⟩ .f32 0x3C23D70A#32))
            (W (Proc.devRef .tc main_v67))) := by
  simp only [opsB2]
  after_results_simp
  rfl

/-- Layer 2's window leaves the layer of the specification in its result buffer. -/
theorem valL2 (V : Valuation τ sig (Elt Ideal)) :
    after (opsL2 (F := Ideal)) V (Proc.devRef .tc main_v68)
      = layerR (segsum hN (srcOf (V (Proc.devRef .tc main_arg1))) (dstOf (V (Proc.devRef .tc main_arg1))) (V (Proc.devRef .tc main_v45)))
          (V (Proc.devRef .tc main_v45)) (tr (V (Proc.devRef .tc main_arg8))) (tr (V (Proc.devRef .tc main_arg9))) (V (Proc.devRef .tc main_arg10)) := by
  rw [opsL2_split, after_app, leakB2, preA2]
  exact layer_eq (k := 64) (m := 256) gather_S50000x64_S800000x1_S800000x64_1_0_n_n_0_1_164_wf scatter_S50000x64_S800000x1_S800000x64_1_0_0_1_wf dot_S50000x64_S64x256_S50000x256_1_0_0_1_n_n_wf
    bcast_S_S50000x64 bcast_S_S50000x256 transposes_S256x64_S64x256_1_0 bcast_S256_S1x256_1 bcast_S1x256_S50000x256_0_1 (by norm_num)
    (srcOf (V (Proc.devRef .tc main_arg1))) (dstOf (V (Proc.devRef .tc main_arg1))) (V (Proc.devRef .tc main_v45)) (V (Proc.devRef .tc main_arg8)) (V (Proc.devRef .tc main_arg9)) (V (Proc.devRef .tc main_arg10))

/-- Layer 3's operations up to its value before the leaky unit. -/
abbrev opsA3 : List (HloOp τ sig (Elt F)) :=
  [ unary main_arg1 main_v69 ((extractStridedSlice S1x800000 ![0, 0] · slices_S2x800000_S1x800000_0_0) : (⟨S2x800000, .i32⟩ : BufTy).Contents (Elt F) → (⟨S1x800000, .i32⟩ : BufTy).Contents (Elt F)),
    reshape main_v69 main_v70 rfl shapeCasts_S1x800000_S800000,
    unary main_arg1 main_v71 ((extractStridedSlice S1x800000 ![1, 0] · slices_S2x800000_S1x800000_1_0) : (⟨S2x800000, .i32⟩ : BufTy).Contents (Elt F) → (⟨S1x800000, .i32⟩ : BufTy).Contents (Elt F)),
    reshape main_v71 main_v72 rfl shapeCasts_S1x800000_S800000,
    nullary main_c_10 (constantI S_ 32 0#32),
    unary main_c_10 main_v73 (broadcastInDim S800000 ![] bcast_S_S800000 : (⟨S_, .i32⟩ : BufTy).Contents (Elt F) → (⟨S800000, .i32⟩ : BufTy).Contents (Elt F)),
    binary main_v70 main_v73 main_v74 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v75 (broadcastInDim S800000 ![] bcast_S_S800000 : (⟨S_, .i32⟩ : BufTy).Contents (Elt F) → (⟨S800000, .i32⟩ : BufTy).Contents (Elt F)),
    binary main_v70 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v70 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v68 main_v78 main_v79 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v80 (broadcastInDim S50000x256 ![] bcast_S_S50000x256 : (⟨S_, .f32⟩ : BufTy).Contents (Elt F) → (⟨S50000x256, .f32⟩ : BufTy).Contents (Elt F)),
    unary main_v72 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg11 main_v83 ((transpose S256x128 [1, 0] · transposes_S128x256_S256x128_1_0) : (⟨S128x256, .f32⟩ : BufTy).Contents (Elt F) → (⟨S256x128, .f32⟩ : BufTy).Contents (Elt F)),
    binary main_v82 main_v83 main_v84 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    unary main_arg12 main_v88 ((transpose S256x128 [1, 0] · transposes_S128x256_S256x128_1_0) : (⟨S128x256, .f32⟩ : BufTy).Contents (Elt F) → (⟨S256x128, .f32⟩ : BufTy).Contents (Elt F)),
    binary main_v68 main_v88 main_v89 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)) ]

/-- Layer 3's leaky unit: the slope constant and the inlined function's seven operations. -/
abbrev opsB3 : List (HloOp τ sig (Elt F)) :=
  [ nullary main_cst_13 (constant S_ .f32 0x3C23D70A#32),
    TRef.nullary main_call3.cst (constant S_ .f32 0x00000000#32),
    TRef.unary main_call3.cst main_call3.v0 (broadcastInDim S50000x128 ![] bcast_S_S50000x128),
    TRef.binary (.of main_v90 : TRef sig ⟨S50000x128, .f32⟩) main_call3.v0 main_call3.v1 (cmpf .oge),
    TRef.unary (.of main_cst_13 : TRef sig ⟨S_, .f32⟩) main_call3.v2 id,
    TRef.unary main_call3.v2 main_call3.v3 (broadcastInDim S50000x128 ![] bcast_S_S50000x128),
    TRef.binary main_call3.v3 (.of main_v90 : TRef sig ⟨S50000x128, .f32⟩) main_call3.v4 mulf,
    TRef.ternary main_call3.v1 (.of main_v90 : TRef sig ⟨S50000x128, .f32⟩) main_call3.v4 main_call3.call0.v0 select ]

theorem opsL3_split : (opsL3 (F := F)) = opsA3 ++ opsB3 := rfl

set_option maxRecDepth 8192 in
set_option maxHeartbeats 4000000 in
/-- Layer 3's value before the leaky unit is the reference's composed term of the window's inputs. -/
theorem preA3 (V : Valuation τ sig (Elt Ideal)) :
    after (opsA3 (F := Ideal)) V (Proc.devRef .tc main_v90)
      = preR (k := 256) (m := 128) gather_S50000x256_S800000x1_S800000x256_1_0_n_n_0_1_1256_wf scatter_S50000x256_S800000x1_S800000x256_1_0_0_1_wf dot_S50000x256_S256x128_S50000x128_1_0_0_1_n_n_wf bcast_S_S50000x256 transposes_S128x256_S256x128_1_0 bcast_S128_S1x128_1 bcast_S1x128_S50000x128_0_1
          (srcOf (V (Proc.devRef .tc main_arg1))) (dstOf (V (Proc.devRef .tc main_arg1))) (V (Proc.devRef .tc main_v68)) (V (Proc.devRef .tc main_arg11)) (V (Proc.devRef .tc main_arg12)) (V (Proc.devRef .tc main_arg13)) := by
  simp only [opsA3]
  after_results_simp
  rfl

set_option maxRecDepth 8192 in
set_option maxHeartbeats 4000000 in
/-- Layer 3's leaky unit reads the value before it, and nothing else. -/
theorem leakB3 (W : Valuation τ sig (Elt Ideal)) :
    after (opsB3 (F := Ideal)) W (Proc.devRef .tc main_v91)
      = select (cmpf (F := Ideal) (φ := .f32) .oge (W (Proc.devRef .tc main_v90))
            (broadcastInDim ⟨2, ![50000, 128]⟩ ![] bcast_S_S50000x128 (constant (F := Ideal) ⟨0, ![]⟩ .f32 0x00000000#32)))
          (W (Proc.devRef .tc main_v90))
          (mulf (F := Ideal) (φ := .f32)
            (broadcastInDim ⟨2, ![50000, 128]⟩ ![] bcast_S_S50000x128 (constant (F := Ideal) ⟨0, ![]⟩ .f32 0x3C23D70A#32))
            (W (Proc.devRef .tc main_v90))) := by
  simp only [opsB3]
  after_results_simp
  rfl

/-- Layer 3's window leaves the layer of the specification in its result buffer. -/
theorem valL3 (V : Valuation τ sig (Elt Ideal)) :
    after (opsL3 (F := Ideal)) V (Proc.devRef .tc main_v91)
      = layerR (segsum hN (srcOf (V (Proc.devRef .tc main_arg1))) (dstOf (V (Proc.devRef .tc main_arg1))) (V (Proc.devRef .tc main_v68)))
          (V (Proc.devRef .tc main_v68)) (tr (V (Proc.devRef .tc main_arg11))) (tr (V (Proc.devRef .tc main_arg12))) (V (Proc.devRef .tc main_arg13)) := by
  rw [opsL3_split, after_app, leakB3, preA3]
  exact layer_eq (k := 256) (m := 128) gather_S50000x256_S800000x1_S800000x256_1_0_n_n_0_1_1256_wf scatter_S50000x256_S800000x1_S800000x256_1_0_0_1_wf dot_S50000x256_S256x128_S50000x128_1_0_0_1_n_n_wf
    bcast_S_S50000x256 bcast_S_S50000x128 transposes_S128x256_S256x128_1_0 bcast_S128_S1x128_1 bcast_S1x128_S50000x128_0_1 (by norm_num)
    (srcOf (V (Proc.devRef .tc main_arg1))) (dstOf (V (Proc.devRef .tc main_arg1))) (V (Proc.devRef .tc main_v68)) (V (Proc.devRef .tc main_arg11)) (V (Proc.devRef .tc main_arg12)) (V (Proc.devRef .tc main_arg13))

/-- The weights and biases, read off a valuation's argument buffers. -/
def paramsV (V : Valuation τ sig (Elt Ideal)) : Params :=
  { wrel0 := V (Proc.devRef .tc main_arg2)
    wroot0 := V (Proc.devRef .tc main_arg3)
    b0 := V (Proc.devRef .tc main_arg4)
    wrel1 := V (Proc.devRef .tc main_arg5)
    wroot1 := V (Proc.devRef .tc main_arg6)
    b1 := V (Proc.devRef .tc main_arg7)
    wrel2 := V (Proc.devRef .tc main_arg8)
    wroot2 := V (Proc.devRef .tc main_arg9)
    b2 := V (Proc.devRef .tc main_arg10)
    wrel3 := V (Proc.devRef .tc main_arg11)
    wroot3 := V (Proc.devRef .tc main_arg12)
    b3 := V (Proc.devRef .tc main_arg13) }

/-- The weights and biases, read off the reference's argument buffers at launch. -/
def paramsR (m : (ℓ : Loc nD τ sig) → Buf (Elt Ideal) ℓ) (c : Dev nD) : Params :=
  { wrel0 := m ((c.tc : Thread nD τ).loc main_arg2)
    wroot0 := m ((c.tc : Thread nD τ).loc main_arg3)
    b0 := m ((c.tc : Thread nD τ).loc main_arg4)
    wrel1 := m ((c.tc : Thread nD τ).loc main_arg5)
    wroot1 := m ((c.tc : Thread nD τ).loc main_arg6)
    b1 := m ((c.tc : Thread nD τ).loc main_arg7)
    wrel2 := m ((c.tc : Thread nD τ).loc main_arg8)
    wroot2 := m ((c.tc : Thread nD τ).loc main_arg9)
    b2 := m ((c.tc : Thread nD τ).loc main_arg10)
    wrel3 := m ((c.tc : Thread nD τ).loc main_arg11)
    wroot3 := m ((c.tc : Thread nD τ).loc main_arg12)
    b3 := m ((c.tc : Thread nD τ).loc main_arg13) }

/-- After layers 0 and 1 the embedding's buffer holds the specification's second layer. -/
theorem emb_val (V : Valuation τ sig (Elt Ideal)) :
    after (opsL1 (F := Ideal)) (after opsL0 V) (Proc.devRef .tc main_v45)
      = r2 (srcOf (V (Proc.devRef .tc main_arg1))) (dstOf (V (Proc.devRef .tc main_arg1))) (V (Proc.devRef .tc main_arg0)) (paramsV V) := by
  rw [valL1, keepL0 _ main_arg1 (by decide),
    keepL0 _ main_arg5 (by decide),
    keepL0 _ main_arg6 (by decide),
    keepL0 _ main_arg7 (by decide), valL0]
  rfl

/-- After layers 0, 1 and 2 the third layer's buffer holds the specification's third layer. -/
theorem l3_val (V : Valuation τ sig (Elt Ideal)) :
    after (opsL2 (F := Ideal)) (after opsL1 (after opsL0 V)) (Proc.devRef .tc main_v68)
      = r3 (srcOf (V (Proc.devRef .tc main_arg1))) (dstOf (V (Proc.devRef .tc main_arg1))) (V (Proc.devRef .tc main_arg0)) (paramsV V) := by
  rw [valL2, keepL1 _ main_arg1 (by decide),
    keepL0 _ main_arg1 (by decide),
    keepL1 _ main_arg8 (by decide),
    keepL0 _ main_arg8 (by decide),
    keepL1 _ main_arg9 (by decide),
    keepL0 _ main_arg9 (by decide),
    keepL1 _ main_arg10 (by decide),
    keepL0 _ main_arg10 (by decide), emb_val]
  rfl

/-- After all four layers the reconstruction's buffer holds the specification's fourth layer. -/
theorem out_val (V : Valuation τ sig (Elt Ideal)) :
    after (opsL3 (F := Ideal)) (after opsL2 (after opsL1 (after opsL0 V))) (Proc.devRef .tc main_v91)
      = r4 (srcOf (V (Proc.devRef .tc main_arg1))) (dstOf (V (Proc.devRef .tc main_arg1))) (V (Proc.devRef .tc main_arg0)) (paramsV V) := by
  rw [valL3, keepL2 _ main_arg1 (by decide),
    keepL1 _ main_arg1 (by decide),
    keepL0 _ main_arg1 (by decide),
    keepL2 _ main_arg11 (by decide),
    keepL1 _ main_arg11 (by decide),
    keepL0 _ main_arg11 (by decide),
    keepL2 _ main_arg12 (by decide),
    keepL1 _ main_arg12 (by decide),
    keepL0 _ main_arg12 (by decide),
    keepL2 _ main_arg13 (by decide),
    keepL1 _ main_arg13 (by decide),
    keepL0 _ main_arg13 (by decide), l3_val]
  rfl

/-- Result 0 of the reference is the specification's reconstruction of the launch arguments. -/
theorem outR_eq (m : (ℓ : Loc nD τ sig) → Buf (Elt Ideal) ℓ) (c : Dev nD) :
    @Eq (A2 50000 128) (outR m c)
      (r4 (srcOf (m ((c.tc : Thread nD τ).loc main_arg1))) (dstOf (m ((c.tc : Thread nD τ).loc main_arg1)))
        (m ((c.tc : Thread nD τ).loc main_arg0)) (paramsR m c)) := by
  unfold outR
  rw [after_ops]
  exact out_val (launchContents m c)

/-- Result 1 of the reference is the specification's embedding of the launch arguments. -/
theorem embR_eq (m : (ℓ : Loc nD τ sig) → Buf (Elt Ideal) ℓ) (c : Dev nD) :
    @Eq (A2 50000 64) (embR m c)
      (r2 (srcOf (m ((c.tc : Thread nD τ).loc main_arg1))) (dstOf (m ((c.tc : Thread nD τ).loc main_arg1)))
        (m ((c.tc : Thread nD τ).loc main_arg0)) (paramsR m c)) := by
  unfold embR
  rw [after_ops, keepL3 _ main_v45 (by decide), keepL2 _ main_v45 (by decide)]
  exact emb_val (launchContents m c)

end Cert.ReferenceIdeal.RefValue

end
-- ==== Proof.lean ====
/-
  A stack of four graph-convolution layers (128 → 256 → 64 → 256 → 128 features on 50000 nodes and
  800000 edges), each layer  leaky( (Σ over incoming edges of the source rows) · Wrelᵀ + b + h · Wrootᵀ ),
  computed by a program of six pipelined regions around host gathers and accumulating scatters, against
  the plain host program; the results are the last layer's activations and the second layer's (the
  embedding).

  The two programs differ in three ways, none of which changes an extended real when every input is a
  real number.  (1) The kernel narrows activations to a shorter float format between layers and widens
  them back: the identity on extended reals.  (2) It groups the three summands of a layer as
  (p + q) + b where the host program has (p + b) + q: addition of extended reals is commutative and
  associative.  (3) In the two layers whose output is narrower than their input it multiplies every
  node's row by Wrelᵀ BEFORE summing along the edges: Σ_e (h[row e] · W) = (Σ_e h[row e]) · W exchanges
  two finite sums and takes a factor out of a sum, which holds for real numbers — and every activation
  is a real number because the inputs are (the precondition) and every layer keeps real arrays real.

  The kernel's side: its run ends with the results at the last segment boundary's contents; region by
  region those contents are the specification's k1, kp1, k2, k3, kp3, k4 of the launched arrays.  The
  reference's side: its run ends with the results at the fold of its 137 host operations, which is the
  specification's r4 and r2.  The specification's two stacks agree on real inputs.
-/
import proofs.«128899_j82635170775050_2_alg».proof.Proof.Gen.Kernel
import proofs.«128899_j82635170775050_2_alg».proof.Proof.Gen.Kernel.Skeleton
import proofs.«128899_j82635170775050_2_alg».proof.Proof.Gen.Kernel.Launch
import proofs.«128899_j82635170775050_2_alg».proof.Proof.Gen.Kernel.Points
import proofs.«128899_j82635170775050_2_alg».proof.Proof.Gen.Kernel.Frame
import proofs.«128899_j82635170775050_2_alg».proof.Proof.Gen.KernelIdeal
import proofs.«128899_j82635170775050_2_alg».proof.Proof.Gen.KernelIdeal.Skeleton
import proofs.«128899_j82635170775050_2_alg».proof.Proof.Gen.KernelIdeal.Launch
import proofs.«128899_j82635170775050_2_alg».proof.Proof.Gen.KernelIdeal.Points
import proofs.«128899_j82635170775050_2_alg».proof.Proof.Gen.KernelIdeal.Frame
import proofs.«128899_j82635170775050_2_alg».proof.Proof.Gen.ReferenceIdeal
import proofs.«128899_j82635170775050_2_alg».proof.Proof.Gen.Pre_finite_inputs
import proofs.«128899_j82635170775050_2_alg».proof.Defs
import proofs.«128899_j82635170775050_2_alg».proof.Proof.Spec
import proofs.«128899_j82635170775050_2_alg».proof.Proof.Algebra
import proofs.«128899_j82635170775050_2_alg».proof.Proof.Finite
import proofs.«128899_j82635170775050_2_alg».proof.Proof.KernelValue
import proofs.«128899_j82635170775050_2_alg».proof.Proof.RefRun
import proofs.«128899_j82635170775050_2_alg».proof.Proof.RefValue
import Idealize.ShloMosaic.Adequacy
import Idealize.ShloMosaic.Init

noncomputable section

namespace Cert.Proof

open Idealize.ShloMosaic Idealize.ShloMosaic.TcCoe Idealize.SL.Sem Cert.GC

/-- The three frames: the kernel's two by the launch over their segments, the reference's by its run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefValue.run m ρ)

/-- Both programs run; the kernel's results are k4 and k2 of its launched arrays, the reference's r4 and r2 of
    its own, the launched arrays agree, and on real inputs k4 = r4 and k2 = r2. -/
theorem algebraic : Cert.algebraic_KernelIdeal_ReferenceIdeal := by
  intro m ρ m' ρ' hpre hagree
  refine ⟨_, _, Cert.KernelIdeal.RunValue.run_value m ρ, ?_⟩
  refine (θ_run Cert.ReferenceIdeal.defs _ _).mono (fun r h c => ⟨(h c).1.trans ?_, (h c).2.1.trans ?_, (h c).2.2⟩)
    (Cert.ReferenceIdeal.RefValue.run m' ρ')
  · obtain ⟨h0, h1, h2, h3, h4, h5, h6, h7, h8, h9, h10, h11, h12, h13⟩ := hagree c
    obtain ⟨hx, hP⟩ := Cert.Proof.Finite.real_of_pre m hpre c
    refine (Cert.ReferenceIdeal.RefValue.outR_eq m' c).trans ?_
    unfold Cert.ReferenceIdeal.RefValue.paramsR
    rw [h0, h1, h2, h3, h4, h5, h6, h7, h8, h9, h10, h11, h12, h13]
    exact (stacks_agree _ _ _ _ hx hP).1.symm
  · obtain ⟨h0, h1, h2, h3, h4, h5, h6, h7, h8, h9, h10, h11, h12, h13⟩ := hagree c
    obtain ⟨hx, hP⟩ := Cert.Proof.Finite.real_of_pre m hpre c
    refine (Cert.ReferenceIdeal.RefValue.embR_eq m' c).trans ?_
    unfold Cert.ReferenceIdeal.RefValue.paramsR
    rw [h0, h1, h2, h3, h4, h5, h6, h7, h8, h9, h10, h11, h12, h13]
    exact (stacks_agree _ _ _ _ hx hP).2.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
